-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v162)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v162) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x300000 : Shape := ⟨2, ![2, 300000]⟩
abbrev S300000 : Shape := ⟨1, ![300000]⟩
abbrev S256x256 : Shape := ⟨2, ![256, 256]⟩
abbrev S256 : Shape := ⟨1, ![256]⟩
abbrev S3x256x256 : Shape := ⟨3, ![3, 256, 256]⟩
abbrev S3x256 : Shape := ⟨2, ![3, 256]⟩
abbrev S3x256x512 : Shape := ⟨3, ![3, 256, 512]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S300000 : S_.BroadcastsInDim S300000 (![] : Fin 0 → Fin S300000.rank)
  reducesTo_S300000_S_d0 : S300000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S3x256x512 : S_.BroadcastsInDim S3x256x512 (![] : Fin 0 → Fin S3x256x512.rank)
  reducesTo_S3x256x512_S_d0_1_2 : S3x256x512.ReducesTo [0, 1, 2] S_

variable [Facts]

def fn_part3 {F : FTy → Type} [FloatOps F] (main_v48 : IVec S_ 1) (main_v49 : FVec F S3x256 .f32) (main_v50 : FVec F S3x256 .f32) : IVec S_ 1 :=
  let main_v51 : IVec S3x256 1 := cmpf .olt main_v49 main_v50
  let main_c_19 : IVec S_ 1 := constantI S_ 1 1#1
  let main_v52 : IVec S_ 1 := (fun x v => Host.reduce IntOp.andi x v reducesTo_S3x256_S_d0_1 h_S_) main_v51 main_c_19
  let main_v53 : IVec S_ 1 := andi main_v48 main_v52
  main_v53

def fn_part2 {F : FTy → Type} [FloatOps F] (main_arg9 : FVec F S3x256x256 .f32) (main_arg10 : FVec F S3x256 .f32) (main_arg11 : FVec F S3x256x512 .f32) (main_arg12 : FVec F S3x256 .f32) (main_v33 : IVec S_ 1) : IVec S_ 1 :=
  let main_v34 : FVec F S3x256x256 .f32 := Host.absf main_arg9
  let main_cst_12 : FVec F S_ .f32 := constant S_ .f32 0x7F800000#32
  let main_v35 : FVec F S3x256x256 .f32 := broadcastInDim S3x256x256 ![] bcast_S_S3x256x256 main_cst_12
  let main_v36 : IVec S3x256x256 1 := cmpf .olt main_v34 main_v35
  let main_c_13 : IVec S_ 1 := constantI S_ 1 1#1
  let main_v37 : IVec S_ 1 := (fun x v => Host.reduce IntOp.andi x v reducesTo_S3x256x256_S_d0_1_2 h_S_) main_v36 main_c_13
  let main_v38 : IVec S_ 1 := andi main_v33 main_v37
  let main_v39 : FVec F S3x256 .f32 := Host.absf main_arg10
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S3x256x512 .f32 := Host.absf main_arg11
  let main_cst_16 : FVec F S_ .f32 := constant S_ .f32 0x7F800000#32
  let main_v45 : FVec F S3x256x512 .f32 := broadcastInDim S3x256x512 ![] bcast_S_S3x256x512 main_cst_16
  let main_v46 : IVec S3x256x512 1 := cmpf .olt main_v44 main_v45
  let main_c_17 : IVec S_ 1 := constantI S_ 1 1#1
  let main_v47 : IVec S_ 1 := (fun x v => Host.reduce IntOp.andi x v reducesTo_S3x256x512_S_d0_1_2 h_S_) main_v46 main_c_17
  let main_v48 : IVec S_ 1 := andi main_v43 main_v47
  let main_v49 : FVec F S3x256 .f32 := Host.absf main_arg12
  let main_cst_18 : FVec F S_ .f32 := constant S_ .f32 0x7F800000#32
  let main_v50 : FVec F S3x256 .f32 := broadcastInDim S3x256 ![] bcast_S_S3x256 main_cst_18
  fn_part3 (F := F) main_v48 main_v49 main_v50

def fn_part1 {F : FTy → Type} [FloatOps F] (main_arg6 : FVec F S256 .f32) (main_arg7 : FVec F S3x256x256 .f32) (main_arg8 : FVec F S3x256 .f32) (main_arg9 : FVec F S3x256x256 .f32) (main_arg10 : FVec F S3x256 .f32) (main_arg11 : FVec F S3x256x512 .f32) (main_arg12 : FVec F S3x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S3x256x256 .f32 := Host.absf main_arg7
  let main_cst_8 : FVec F S_ .f32 := constant S_ .f32 0x7F800000#32
  let main_v25 : FVec F S3x256x256 .f32 := broadcastInDim S3x256x256 ![] bcast_S_S3x256x256 main_cst_8
  let main_v26 : IVec S3x256x256 1 := cmpf .olt main_v24 main_v25
  let main_c_9 : IVec S_ 1 := constantI S_ 1 1#1
  let main_v27 : IVec S_ 1 := (fun x v => Host.reduce IntOp.andi x v reducesTo_S3x256x256_S_d0_1_2 h_S_) main_v26 main_c_9
  let main_v28 : IVec S_ 1 := andi main_v23 main_v27
  let main_v29 : FVec F S3x256 .f32 := Host.absf main_arg8
  let main_cst_10 : FVec F S_ .f32 := constant S_ .f32 0x7F800000#32
  let main_v30 : FVec F S3x256 .f32 := broadcastInDim S3x256 ![] bcast_S_S3x256 main_cst_10
  let main_v31 : IVec S3x256 1 := cmpf .olt main_v29 main_v30
  let main_c_11 : IVec S_ 1 := constantI S_ 1 1#1
  let main_v32 : IVec S_ 1 := (fun x v => Host.reduce IntOp.andi x v reducesTo_S3x256_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x256 .f32) (main_arg1 : IVec S2x300000 32) (main_arg2 : FVec F S300000 .f32) (main_arg3 : IVec S2x300000 32) (main_arg4 : FVec F S300000 .f32) (main_arg5 : FVec F S256x256 .f32) (main_arg6 : FVec F S256 .f32) (main_arg7 : FVec F S3x256x256 .f32) (main_arg8 : FVec F S3x256 .f32) (main_arg9 : FVec F S3x256x256 .f32) (main_arg10 : FVec F S3x256 .f32) (main_arg11 : FVec F S3x256x512 .f32) (main_arg12 : FVec F S3x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S300000 .f32 := Host.absf main_arg2
  let main_cst_0 : FVec F S_ .f32 := constant S_ .f32 0x7F800000#32
  let main_v5 : FVec F S300000 .f32 := broadcastInDim S300000 ![] bcast_S_S300000 main_cst_0
  let main_v6 : IVec S300000 1 := cmpf .olt main_v4 main_v5
  let main_c_1 : IVec S_ 1 := constantI S_ 1 1#1
  let main_v7 : IVec S_ 1 := (fun x v => Host.reduce IntOp.andi x v reducesTo_S300000_S_d0 h_S_) main_v6 main_c_1
  let main_v8 : IVec S_ 1 := andi main_v3 main_v7
  let main_v9 : FVec F S300000 .f32 := Host.absf main_arg4
  let main_cst_2 : FVec F S_ .f32 := constant S_ .f32 0x7F800000#32
  let main_v10 : FVec F S300000 .f32 := broadcastInDim S300000 ![] bcast_S_S300000 main_cst_2
  let main_v11 : IVec S300000 1 := cmpf .olt main_v9 main_v10
  let main_c_3 : IVec S_ 1 := constantI S_ 1 1#1
  let main_v12 : IVec S_ 1 := (fun x v => Host.reduce IntOp.andi x v reducesTo_S300000_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_v13 main_v16
-- ==== Kernel.lean ====
abbrev S50000x256 : Shape := ⟨2, ![50000, 256]⟩
abbrev S2x300000 : Shape := ⟨2, ![2, 300000]⟩
abbrev S300000 : Shape := ⟨1, ![300000]⟩
abbrev S256x256 : Shape := ⟨2, ![256, 256]⟩
abbrev S256 : Shape := ⟨1, ![256]⟩
abbrev S3x256x256 : Shape := ⟨3, ![3, 256, 256]⟩
abbrev S3x256 : Shape := ⟨2, ![3, 256]⟩
abbrev S3x256x512 : Shape := ⟨3, ![3, 256, 512]⟩
abbrev S1x256 : Shape := ⟨2, ![1, 256]⟩
abbrev S5000x256 : Shape := ⟨2, ![5000, 256]⟩
abbrev S1x300000 : Shape := ⟨2, ![1, 300000]⟩
abbrev S300000x1 : Shape := ⟨2, ![300000, 1]⟩
abbrev S_ : Shape := ⟨0, ![]⟩
abbrev S300000x256 : Shape := ⟨2, ![300000, 256]⟩
abbrev S1x256x256 : Shape := ⟨3, ![1, 256, 256]⟩
abbrev S1x256x512 : Shape := ⟨3, ![1, 256, 512]⟩
abbrev S256x512 : Shape := ⟨2, ![256, 512]⟩
abbrev S1x50000x256 : Shape := ⟨3, ![1, 50000, 256]⟩
abbrev S4x50000x256 : Shape := ⟨3, ![4, 50000, 256]⟩

abbrev nBuf : Space → Nat
  | .hbm => 194
  | .vmem => 45
  | .smem => 0
  | _ => 0

abbrev hbmTy0_0 (i : Nat) : BufTy := match i % 128 with
  | 0 => ⟨S50000x256, .f32⟩
  | 1 => ⟨S2x300000, .i32⟩
  | 2 => ⟨S300000, .f32⟩
  | 3 => ⟨S2x300000, .i32⟩
  | 4 => ⟨S300000, .f32⟩
  | 5 => ⟨S256x256, .f32⟩
  | 6 => ⟨S256, .f32⟩
  | 7 => ⟨S3x256x256, .f32⟩
  | 8 => ⟨S3x256, .f32⟩
  | 9 => ⟨S3x256x256, .f32⟩
  | 10 => ⟨S3x256, .f32⟩
  | 11 => ⟨S3x256x512, .f32⟩
  | 12 => ⟨S3x256, .f32⟩
  | 13 => ⟨S1x256, .f32⟩
  | 14 => ⟨S50000x256, .f32⟩
  | 15 => ⟨S1x300000, .i32⟩
  | 16 => ⟨S300000, .i32⟩
  | 17 => ⟨S1x300000, .i32⟩
  | 18 => ⟨S300000, .i32⟩
  | 19 => ⟨S300000x1, .f32⟩
  | 20 => ⟨S_, .i32⟩
  | 21 => ⟨S300000, .i32⟩
  | 22 => ⟨S300000, .i1⟩
  | 23 => ⟨S_, .i32⟩
  | 24 => ⟨S300000, .i32⟩
  | 25 => ⟨S300000, .i32⟩
  | 26 => ⟨S300000, .i32⟩
  | 27 => ⟨S300000x1, .i32⟩
  | 28 => ⟨S300000x256, .f32⟩
  | 29 => ⟨S300000x256, .f32⟩
  | 30 => ⟨S300000x256, .f32⟩
  | 31 => ⟨S_, .f32⟩
  | 32 => ⟨S50000x256, .f32⟩
  | 33 => ⟨S300000x1, .i32⟩
  | 34 => ⟨S50000x256, .f32⟩
  | 35 => ⟨S1x300000, .i32⟩
  | 36 => ⟨S300000, .i32⟩
  | 37 => ⟨S1x300000, .i32⟩
  | 38 => ⟨S300000, .i32⟩
  | 39 => ⟨S300000x1, .f32⟩
  | 40 => ⟨S_, .i32⟩
  | 41 => ⟨S300000, .i32⟩
  | 42 => ⟨S300000, .i1⟩
  | 43 => ⟨S_, .i32⟩
  | 44 => ⟨S300000, .i32⟩
  | 45 => ⟨S300000, .i32⟩
  | 46 => ⟨S300000, .i32⟩
  | 47 => ⟨S300000x1, .i32⟩
  | 48 => ⟨S300000x256, .f32⟩
  | 49 => ⟨S300000x256, .f32⟩
  | 50 => ⟨S300000x256, .f32⟩
  | 51 => ⟨S_, .f32⟩
  | 52 => ⟨S50000x256, .f32⟩
  | 53 => ⟨S300000x1, .i32⟩
  | 54 => ⟨S50000x256, .f32⟩
  | 55 => ⟨S1x256x256, .f32⟩
  | 56 => ⟨S256x256, .f32⟩
  | 57 => ⟨S1x256, .f32⟩
  | 58 => ⟨S256, .f32⟩
  | 59 => ⟨S1x256x256, .f32⟩
  | 60 => ⟨S256x256, .f32⟩
  | 61 => ⟨S1x256, .f32⟩
  | 62 => ⟨S256, .f32⟩
  | 63 => ⟨S1x256x512, .f32⟩
  | 64 => ⟨S256x512, .f32⟩
  | 65 => ⟨S1x256, .f32⟩
  | 66 => ⟨S256, .f32⟩
  | 67 => ⟨S256x256, .f32⟩
  | 68 => ⟨S256x256, .f32⟩
  | 69 => ⟨S1x256, .f32⟩
  | 70 => ⟨S1x256, .f32⟩
  | 71 => ⟨S1x256, .f32⟩
  | 72 => ⟨S50000x256, .f32⟩
  | 73 => ⟨S1x300000, .i32⟩
  | 74 => ⟨S300000, .i32⟩
  | 75 => ⟨S1x300000, .i32⟩
  | 76 => ⟨S300000, .i32⟩
  | 77 => ⟨S300000x1, .f32⟩
  | 78 => ⟨S_, .i32⟩
  | 79 => ⟨S300000, .i32⟩
  | 80 => ⟨S300000, .i1⟩
  | 81 => ⟨S_, .i32⟩
  | 82 => ⟨S300000, .i32⟩
  | 83 => ⟨S300000, .i32⟩
  | 84 => ⟨S300000, .i32⟩
  | 85 => ⟨S300000x1, .i32⟩
  | 86 => ⟨S300000x256, .f32⟩
  | 87 => ⟨S300000x256, .f32⟩
  | 88 => ⟨S300000x256, .f32⟩
  | 89 => ⟨S_, .f32⟩
  | 90 => ⟨S50000x256, .f32⟩
  | 91 => ⟨S300000x1, .i32⟩
  | 92 => ⟨S50000x256, .f32⟩
  | 93 => ⟨S1x300000, .i32⟩
  | 94 => ⟨S300000, .i32⟩
  | 95 => ⟨S1x300000, .i32⟩
  | 96 => ⟨S300000, .i32⟩
  | 97 => ⟨S300000x1, .f32⟩
  | 98 => ⟨S_, .i32⟩
  | 99 => ⟨S300000, .i32⟩
  | 100 => ⟨S300000, .i1⟩
  | 101 => ⟨S_, .i32⟩
  | 102 => ⟨S300000, .i32⟩
  | 103 => ⟨S300000, .i32⟩
  | 104 => ⟨S300000, .i32⟩
  | 105 => ⟨S300000x1, .i32⟩
  | 106 => ⟨S300000x256, .f32⟩
  | 107 => ⟨S300000x256, .f32⟩
  | 108 => ⟨S300000x256, .f32⟩
  | 109 => ⟨S_, .f32⟩
  | 110 => ⟨S50000x256, .f32⟩
  | 111 => ⟨S300000x1, .i32⟩
  | 112 => ⟨S50000x256, .f32⟩
  | 113 => ⟨S1x256x256, .f32⟩
  | 114 => ⟨S256x256, .f32⟩
  | 115 => ⟨S1x256, .f32⟩
  | 116 => ⟨S256, .f32⟩
  | 117 => ⟨S1x256x256, .f32⟩
  | 118 => ⟨S256x256, .f32⟩
  | 119 => ⟨S1x256, .f32⟩
  | 120 => ⟨S256, .f32⟩
  | 121 => ⟨S1x256x512, .f32⟩
  | 122 => ⟨S256x512, .f32⟩
  | 123 => ⟨S1x256, .f32⟩
  | 124 => ⟨S256, .f32⟩
  | 125 => ⟨S256x256, .f32⟩
  | 126 => ⟨S256x256, .f32⟩
  | 127 => ⟨S1x256, .f32⟩
  | _ => ⟨S50000x256, .f32⟩

abbrev hbmTy0_1 (i : Nat) : BufTy := match i % 128 with
  | 0 => ⟨S1x256, .f32⟩
  | 1 => ⟨S1x256, .f32⟩
  | 2 => ⟨S50000x256, .f32⟩
  | 3 => ⟨S1x300000, .i32⟩
  | 4 => ⟨S300000, .i32⟩
  | 5 => ⟨S1x300000, .i32⟩
  | 6 => ⟨S300000, .i32⟩
  | 7 => ⟨S300000x1, .f32⟩
  | 8 => ⟨S_, .i32⟩
  | 9 => ⟨S300000, .i32⟩
  | 10 => ⟨S300000, .i1⟩
  | 11 => ⟨S_, .i32⟩
  | 12 => ⟨S300000, .i32⟩
  | 13 => ⟨S300000, .i32⟩
  | 14 => ⟨S300000, .i32⟩
  | 15 => ⟨S300000x1, .i32⟩
  | 16 => ⟨S300000x256, .f32⟩
  | 17 => ⟨S300000x256, .f32⟩
  | 18 => ⟨S300000x256, .f32⟩
  | 19 => ⟨S_, .f32⟩
  | 20 => ⟨S50000x256, .f32⟩
  | 21 => ⟨S300000x1, .i32⟩
  | 22 => ⟨S50000x256, .f32⟩
  | 23 => ⟨S1x300000, .i32⟩
  | 24 => ⟨S300000, .i32⟩
  | 25 => ⟨S1x300000, .i32⟩
  | 26 => ⟨S300000, .i32⟩
  | 27 => ⟨S300000x1, .f32⟩
  | 28 => ⟨S_, .i32⟩
  | 29 => ⟨S300000, .i32⟩
  | 30 => ⟨S300000, .i1⟩
  | 31 => ⟨S_, .i32⟩
  | 32 => ⟨S300000, .i32⟩
  | 33 => ⟨S300000, .i32⟩
  | 34 => ⟨S300000, .i32⟩
  | 35 => ⟨S300000x1, .i32⟩
  | 36 => ⟨S300000x256, .f32⟩
  | 37 => ⟨S300000x256, .f32⟩
  | 38 => ⟨S300000x256, .f32⟩
  | 39 => ⟨S_, .f32⟩
  | 40 => ⟨S50000x256, .f32⟩
  | 41 => ⟨S300000x1, .i32⟩
  | 42 => ⟨S50000x256, .f32⟩
  | 43 => ⟨S1x256x256, .f32⟩
  | 44 => ⟨S256x256, .f32⟩
  | 45 => ⟨S1x256, .f32⟩
  | 46 => ⟨S256, .f32⟩
  | 47 => ⟨S1x256x256, .f32⟩
  | 48 => ⟨S256x256, .f32⟩
  | 49 => ⟨S1x256, .f32⟩
  | 50 => ⟨S256, .f32⟩
  | 51 => ⟨S1x256x512, .f32⟩
  | 52 => ⟨S256x512, .f32⟩
  | 53 => ⟨S1x256, .f32⟩
  | 54 => ⟨S256, .f32⟩
  | 55 => ⟨S256x256, .f32⟩
  | 56 => ⟨S256x256, .f32⟩
  | 57 => ⟨S1x256, .f32⟩
  | 58 => ⟨S1x256, .f32⟩
  | 59 => ⟨S1x256, .f32⟩
  | 60 => ⟨S50000x256, .f32⟩
  | 61 => ⟨S1x50000x256, .f32⟩
  | 62 => ⟨S1x50000x256, .f32⟩
  | 63 => ⟨S1x50000x256, .f32⟩
  | 64 => ⟨S1x50000x256, .f32⟩
  | 65 => ⟨S4x50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S256x256, .f32⟩
  | .local _ .vmem, ⟨15, _⟩ => ⟨S256x256, .f32⟩
  | .local _ .vmem, ⟨16, _⟩ => ⟨S1x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S256x256, .f32⟩
  | .local _ .vmem, ⟨24, _⟩ => ⟨S1x256, .f32⟩
  | .local _ .vmem, ⟨25, _⟩ => ⟨S256x256, .f32⟩
  | .local _ .vmem, ⟨26, _⟩ => ⟨S1x256, .f32⟩
  | .local _ .vmem, ⟨27, _⟩ => ⟨S256x256, .f32⟩
  | .local _ .vmem, ⟨28, _⟩ => ⟨S256x256, .f32⟩
  | .local _ .vmem, ⟨29, _⟩ => ⟨S1x256, .f32⟩
  | .local _ .vmem, ⟨30, _⟩ => ⟨S5000x256, .f32⟩
  | .local _ .vmem, ⟨31, _⟩ => ⟨S5000x256, .f32⟩
  | .local _ .vmem, ⟨32, _⟩ => ⟨S5000x256, .f32⟩
  | .local _ .vmem, ⟨33, _⟩ => ⟨S5000x256, .f32⟩
  | .local _ .vmem, ⟨34, _⟩ => ⟨S5000x256, .f32⟩
  | .local _ .vmem, ⟨35, _⟩ => ⟨S5000x256, .f32⟩
  | .local _ .vmem, ⟨36, _⟩ => ⟨S256x256, .f32⟩
  | .local _ .vmem, ⟨37, _⟩ => ⟨S1x256, .f32⟩
  | .local _ .vmem, ⟨38, _⟩ => ⟨S256x256, .f32⟩
  | .local _ .vmem, ⟨39, _⟩ => ⟨S1x256, .f32⟩
  | .local _ .vmem, ⟨40, _⟩ => ⟨S256x256, .f32⟩
  | .local _ .vmem, ⟨41, _⟩ => ⟨S256x256, .f32⟩
  | .local _ .vmem, ⟨42, _⟩ => ⟨S1x256, .f32⟩
  | .local _ .vmem, ⟨43, _⟩ => ⟨S5000x256, .f32⟩
  | .local _ .vmem, ⟨44, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_1 : Ref sig .tc := ⟨.hbm, 40, rfl⟩
abbrev main_v24 : Ref sig .tc := ⟨.hbm, 41, rfl⟩
abbrev main_v25 : Ref sig .tc := ⟨.hbm, 42, rfl⟩
abbrev main_c_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_4 : Ref sig .tc := ⟨.hbm, 78, rfl⟩
abbrev main_v59 : Ref sig .tc := ⟨.hbm, 79, rfl⟩
abbrev main_v60 : Ref sig .tc := ⟨.hbm, 80, rfl⟩
abbrev main_c_5 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_6 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_c_7 : Ref sig .tc := ⟨.hbm, 98, rfl⟩
abbrev main_v76 : Ref sig .tc := ⟨.hbm, 99, rfl⟩
abbrev main_v77 : Ref sig .tc := ⟨.hbm, 100, rfl⟩
abbrev main_c_8 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_9 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_c_10 : Ref sig .tc := ⟨.hbm, 136, rfl⟩
abbrev main_v111 : Ref sig .tc := ⟨.hbm, 137, rfl⟩
abbrev main_v112 : Ref sig .tc := ⟨.hbm, 138, rfl⟩
abbrev main_c_11 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_cst_12 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_c_13 : Ref sig .tc := ⟨.hbm, 156, rfl⟩
abbrev main_v128 : Ref sig .tc := ⟨.hbm, 157, rfl⟩
abbrev main_v129 : Ref sig .tc := ⟨.hbm, 158, rfl⟩
abbrev main_c_14 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_cst_15 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg9_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg9_0 : Ref sig .tc := ⟨.vmem, 43, rfl⟩
abbrev cc3_stg9_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem9_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem9_0 : DmaSem sig := 43
abbrev cc3_sem9_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x256 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S300000_S300000x1_0 : S300000.BroadcastsInDim S300000x1 (![0] : Fin 1 → Fin S300000x1.rank)
  bcast_S_S300000 : S_.BroadcastsInDim S300000 (![] : Fin 0 → Fin S300000.rank)
  bcast_S300000x1_S300000x256_0_1 : S300000x1.BroadcastsInDim S300000x256 (![0, 1] : Fin 2 → Fin S300000x256.rank)
  bcast_S_S50000x256 : S_.BroadcastsInDim S50000x256 (![] : Fin 0 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  slices_S3x256x512_S1x256x512_0_0_0 : S3x256x512.Slices ![0, 0, 0] S1x256x512
  shapeCasts_S1x256x512_S256x512 : S1x256x512.ShapeCasts S256x512
  slices_S256x512_S256x256_0_0 : S256x512.Slices ![0, 0] S256x256
  slices_S256x512_S256x256_0_256 : S256x512.Slices ![0, 256] S256x256
  shapeCasts_S5000x256_S5000x256 : S5000x256.ShapeCasts S5000x256
  shapeCasts_S256x256_S256x256 : S256x256.ShapeCasts S256x256
  slices_S3x256x256_S1x256x256_1_0_0 : S3x256x256.Slices ![1, 0, 0] S1x256x256
  slices_S3x256_S1x256_1_0 : S3x256.Slices ![1, 0] S1x256
  slices_S3x256x512_S1x256x512_1_0_0 : S3x256x512.Slices ![1, 0, 0] S1x256x512
  slices_S3x256x256_S1x256x256_2_0_0 : S3x256x256.Slices ![2, 0, 0] S1x256x256
  slices_S3x256_S1x256_2_0 : S3x256.Slices ![2, 0] S1x256
  slices_S3x256x512_S1x256x512_2_0_0 : S3x256x512.Slices ![2, 0, 0] S1x256x512
  bcast_S50000x256_S1x50000x256_1_2 : S50000x256.BroadcastsInDim S1x50000x256 (![1, 2] : Fin 2 → Fin S1x50000x256.rank)
  concatenates_S1x50000x256_S1x50000x256_S1x50000x256_S1x50000x256_S4x50000x256_d0 : Shape.Concatenates [S1x50000x256, S1x50000x256, S1x50000x256, S1x50000x256] S4x50000x256 0
  dot_S5000x256_S256x256_S5000x256_1_0_0_1_n_n_wf : DotDims.WF S5000x256 S256x256 S5000x256 [1] [0] [0] [1] [] []
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x256.size a ≤ S50000x256.size a
  hwx1_9 : ∀ i : grid1.Coords, EltTy.bits .f32 = 32 ∨ (Rect.block (s := S50000x256) S5000x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S50000x256.size a
  hwx2_1 : ∀ i : grid2.Coords, EltTy.bits .f32 = 32 ∨ (Rect.block (s := S50000x256) S5000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x256.size a ≤ S256x256.size a
  hwx2_7 : ∀ i : grid2.Coords, EltTy.bits .f32 = 32 ∨ (Rect.block (s := S256x256) S256x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x256.size a ≤ S50000x256.size a
  hwx2_9 : ∀ i : grid2.Coords, EltTy.bits .f32 = 32 ∨ (Rect.block (s := S50000x256) S5000x256.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x256.size a ≤ S50000x256.size a
  hwx3_1 : ∀ i : grid3.Coords, EltTy.bits .f32 = 32 ∨ (Rect.block (s := S50000x256) S5000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x256.size a ≤ S256x256.size a
  hwx3_6 : ∀ i : grid3.Coords, EltTy.bits .f32 = 32 ∨ (Rect.block (s := S256x256) S256x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x256.size a ≤ S256x256.size a
  hwx3_7 : ∀ i : grid3.Coords, EltTy.bits .f32 = 32 ∨ (Rect.block (s := S256x256) S256x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x256.size a ≤ S1x256.size a
  hwx3_8 : ∀ i : grid3.Coords, EltTy.bits .f32 = 32 ∨ (Rect.block (s := S1x256) S1x256.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x256.size a ≤ S50000x256.size a
  hwx3_9 : ∀ i : grid3.Coords, EltTy.bits .f32 = 32 ∨ (Rect.block (s := S50000x256) S5000x256.size (cc3_transform_9 i) (hinb3_9 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v52) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v53) S5000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v70) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v87) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v89) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v102) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v93) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v103) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v100) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v101) S256x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v104) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v105) S5000x256.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v122) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v139) S5000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v141) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v154) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v145) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v155) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v152) S256x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v153) S256x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v156) S1x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v157) S5000x256.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x300000 : Shape := ⟨2, ![2, 300000]⟩
abbrev S300000 : Shape := ⟨1, ![300000]⟩
abbrev S256x256 : Shape := ⟨2, ![256, 256]⟩
abbrev S256 : Shape := ⟨1, ![256]⟩
abbrev S3x256x256 : Shape := ⟨3, ![3, 256, 256]⟩
abbrev S3x256 : Shape := ⟨2, ![3, 256]⟩
abbrev S3x256x512 : Shape := ⟨3, ![3, 256, 512]⟩
abbrev S1x256 : Shape := ⟨2, ![1, 256]⟩
abbrev S1x300000 : Shape := ⟨2, ![1, 300000]⟩
abbrev S300000x1 : Shape := ⟨2, ![300000, 1]⟩
abbrev S_ : Shape := ⟨0, ![]⟩
abbrev S300000x256 : Shape := ⟨2, ![300000, 256]⟩
abbrev S1x256x256 : Shape := ⟨3, ![1, 256, 256]⟩
abbrev S50000x512 : Shape := ⟨2, ![50000, 512]⟩
abbrev S1x256x512 : Shape := ⟨3, ![1, 256, 512]⟩
abbrev S256x512 : Shape := ⟨2, ![256, 512]⟩
abbrev S512x256 : Shape := ⟨2, ![512, 256]⟩
abbrev S1x50000x256 : Shape := ⟨3, ![1, 50000, 256]⟩
abbrev S4x50000x256 : Shape := ⟨3, ![4, 50000, 256]⟩

abbrev nBuf : Space → Nat
  | .hbm => 231
  | .vmem => 0
  | .smem => 0
  | _ => 0

abbrev hbmTy0_0 (i : Nat) : BufTy := match i % 128 with
  | 0 => ⟨S50000x256, .f32⟩
  | 1 => ⟨S2x300000, .i32⟩
  | 2 => ⟨S300000, .f32⟩
  | 3 => ⟨S2x300000, .i32⟩
  | 4 => ⟨S300000, .f32⟩
  | 5 => ⟨S256x256, .f32⟩
  | 6 => ⟨S256, .f32⟩
  | 7 => ⟨S3x256x256, .f32⟩
  | 8 => ⟨S3x256, .f32⟩
  | 9 => ⟨S3x256x256, .f32⟩
  | 10 => ⟨S3x256, .f32⟩
  | 11 => ⟨S3x256x512, .f32⟩
  | 12 => ⟨S3x256, .f32⟩
  | 13 => ⟨S256x256, .f32⟩
  | 14 => ⟨S50000x256, .f32⟩
  | 15 => ⟨S1x256, .f32⟩
  | 16 => ⟨S50000x256, .f32⟩
  | 17 => ⟨S50000x256, .f32⟩
  | 18 => ⟨S50000x256, .f32⟩
  | 19 => ⟨S1x300000, .i32⟩
  | 20 => ⟨S300000, .i32⟩
  | 21 => ⟨S1x300000, .i32⟩
  | 22 => ⟨S300000, .i32⟩
  | 23 => ⟨S300000x1, .f32⟩
  | 24 => ⟨S_, .i32⟩
  | 25 => ⟨S300000, .i32⟩
  | 26 => ⟨S300000, .i1⟩
  | 27 => ⟨S_, .i32⟩
  | 28 => ⟨S300000, .i32⟩
  | 29 => ⟨S300000, .i32⟩
  | 30 => ⟨S300000, .i32⟩
  | 31 => ⟨S300000x1, .i32⟩
  | 32 => ⟨S300000x256, .f32⟩
  | 33 => ⟨S300000x256, .f32⟩
  | 34 => ⟨S300000x256, .f32⟩
  | 35 => ⟨S_, .f32⟩
  | 36 => ⟨S50000x256, .f32⟩
  | 37 => ⟨S300000x1, .i32⟩
  | 38 => ⟨S50000x256, .f32⟩
  | 39 => ⟨S1x300000, .i32⟩
  | 40 => ⟨S300000, .i32⟩
  | 41 => ⟨S1x300000, .i32⟩
  | 42 => ⟨S300000, .i32⟩
  | 43 => ⟨S300000x1, .f32⟩
  | 44 => ⟨S_, .i32⟩
  | 45 => ⟨S300000, .i32⟩
  | 46 => ⟨S300000, .i1⟩
  | 47 => ⟨S_, .i32⟩
  | 48 => ⟨S300000, .i32⟩
  | 49 => ⟨S300000, .i32⟩
  | 50 => ⟨S300000, .i32⟩
  | 51 => ⟨S300000x1, .i32⟩
  | 52 => ⟨S300000x256, .f32⟩
  | 53 => ⟨S300000x256, .f32⟩
  | 54 => ⟨S300000x256, .f32⟩
  | 55 => ⟨S_, .f32⟩
  | 56 => ⟨S50000x256, .f32⟩
  | 57 => ⟨S300000x1, .i32⟩
  | 58 => ⟨S50000x256, .f32⟩
  | 59 => ⟨S1x256x256, .f32⟩
  | 60 => ⟨S256x256, .f32⟩
  | 61 => ⟨S256x256, .f32⟩
  | 62 => ⟨S50000x256, .f32⟩
  | 63 => ⟨S1x256, .f32⟩
  | 64 => ⟨S256, .f32⟩
  | 65 => ⟨S1x256, .f32⟩
  | 66 => ⟨S50000x256, .f32⟩
  | 67 => ⟨S50000x256, .f32⟩
  | 68 => ⟨S1x256x256, .f32⟩
  | 69 => ⟨S256x256, .f32⟩
  | 70 => ⟨S256x256, .f32⟩
  | 71 => ⟨S50000x256, .f32⟩
  | 72 => ⟨S1x256, .f32⟩
  | 73 => ⟨S256, .f32⟩
  | 74 => ⟨S1x256, .f32⟩
  | 75 => ⟨S50000x256, .f32⟩
  | 76 => ⟨S50000x256, .f32⟩
  | 77 => ⟨S50000x512, .f32⟩
  | 78 => ⟨S1x256x512, .f32⟩
  | 79 => ⟨S256x512, .f32⟩
  | 80 => ⟨S512x256, .f32⟩
  | 81 => ⟨S50000x256, .f32⟩
  | 82 => ⟨S1x256, .f32⟩
  | 83 => ⟨S256, .f32⟩
  | 84 => ⟨S1x256, .f32⟩
  | 85 => ⟨S50000x256, .f32⟩
  | 86 => ⟨S50000x256, .f32⟩
  | 87 => ⟨S50000x256, .f32⟩
  | 88 => ⟨S1x300000, .i32⟩
  | 89 => ⟨S300000, .i32⟩
  | 90 => ⟨S1x300000, .i32⟩
  | 91 => ⟨S300000, .i32⟩
  | 92 => ⟨S300000x1, .f32⟩
  | 93 => ⟨S_, .i32⟩
  | 94 => ⟨S300000, .i32⟩
  | 95 => ⟨S300000, .i1⟩
  | 96 => ⟨S_, .i32⟩
  | 97 => ⟨S300000, .i32⟩
  | 98 => ⟨S300000, .i32⟩
  | 99 => ⟨S300000, .i32⟩
  | 100 => ⟨S300000x1, .i32⟩
  | 101 => ⟨S300000x256, .f32⟩
  | 102 => ⟨S300000x256, .f32⟩
  | 103 => ⟨S300000x256, .f32⟩
  | 104 => ⟨S_, .f32⟩
  | 105 => ⟨S50000x256, .f32⟩
  | 106 => ⟨S300000x1, .i32⟩
  | 107 => ⟨S50000x256, .f32⟩
  | 108 => ⟨S1x300000, .i32⟩
  | 109 => ⟨S300000, .i32⟩
  | 110 => ⟨S1x300000, .i32⟩
  | 111 => ⟨S300000, .i32⟩
  | 112 => ⟨S300000x1, .f32⟩
  | 113 => ⟨S_, .i32⟩
  | 114 => ⟨S300000, .i32⟩
  | 115 => ⟨S300000, .i1⟩
  | 116 => ⟨S_, .i32⟩
  | 117 => ⟨S300000, .i32⟩
  | 118 => ⟨S300000, .i32⟩
  | 119 => ⟨S300000, .i32⟩
  | 120 => ⟨S300000x1, .i32⟩
  | 121 => ⟨S300000x256, .f32⟩
  | 122 => ⟨S300000x256, .f32⟩
  | 123 => ⟨S300000x256, .f32⟩
  | 124 => ⟨S_, .f32⟩
  | 125 => ⟨S50000x256, .f32⟩
  | 126 => ⟨S300000x1, .i32⟩
  | 127 => ⟨S50000x256, .f32⟩
  | _ => ⟨S50000x256, .f32⟩

abbrev hbmTy0_1 (i : Nat) : BufTy := match i % 128 with
  | 0 => ⟨S1x256x256, .f32⟩
  | 1 => ⟨S256x256, .f32⟩
  | 2 => ⟨S256x256, .f32⟩
  | 3 => ⟨S50000x256, .f32⟩
  | 4 => ⟨S1x256, .f32⟩
  | 5 => ⟨S256, .f32⟩
  | 6 => ⟨S1x256, .f32⟩
  | 7 => ⟨S50000x256, .f32⟩
  | 8 => ⟨S50000x256, .f32⟩
  | 9 => ⟨S1x256x256, .f32⟩
  | 10 => ⟨S256x256, .f32⟩
  | 11 => ⟨S256x256, .f32⟩
  | 12 => ⟨S50000x256, .f32⟩
  | 13 => ⟨S1x256, .f32⟩
  | 14 => ⟨S256, .f32⟩
  | 15 => ⟨S1x256, .f32⟩
  | 16 => ⟨S50000x256, .f32⟩
  | 17 => ⟨S50000x256, .f32⟩
  | 18 => ⟨S50000x512, .f32⟩
  | 19 => ⟨S1x256x512, .f32⟩
  | 20 => ⟨S256x512, .f32⟩
  | 21 => ⟨S512x256, .f32⟩
  | 22 => ⟨S50000x256, .f32⟩
  | 23 => ⟨S1x256, .f32⟩
  | 24 => ⟨S256, .f32⟩
  | 25 => ⟨S1x256, .f32⟩
  | 26 => ⟨S50000x256, .f32⟩
  | 27 => ⟨S50000x256, .f32⟩
  | 28 => ⟨S50000x256, .f32⟩
  | 29 => ⟨S1x300000, .i32⟩
  | 30 => ⟨S300000, .i32⟩
  | 31 => ⟨S1x300000, .i32⟩
  | 32 => ⟨S300000, .i32⟩
  | 33 => ⟨S300000x1, .f32⟩
  | 34 => ⟨S_, .i32⟩
  | 35 => ⟨S300000, .i32⟩
  | 36 => ⟨S300000, .i1⟩
  | 37 => ⟨S_, .i32⟩
  | 38 => ⟨S300000, .i32⟩
  | 39 => ⟨S300000, .i32⟩
  | 40 => ⟨S300000, .i32⟩
  | 41 => ⟨S300000x1, .i32⟩
  | 42 => ⟨S300000x256, .f32⟩
  | 43 => ⟨S300000x256, .f32⟩
  | 44 => ⟨S300000x256, .f32⟩
  | 45 => ⟨S_, .f32⟩
  | 46 => ⟨S50000x256, .f32⟩
  | 47 => ⟨S300000x1, .i32⟩
  | 48 => ⟨S50000x256, .f32⟩
  | 49 => ⟨S1x300000, .i32⟩
  | 50 => ⟨S300000, .i32⟩
  | 51 => ⟨S1x300000, .i32⟩
  | 52 => ⟨S300000, .i32⟩
  | 53 => ⟨S300000x1, .f32⟩
  | 54 => ⟨S_, .i32⟩
  | 55 => ⟨S300000, .i32⟩
  | 56 => ⟨S300000, .i1⟩
  | 57 => ⟨S_, .i32⟩
  | 58 => ⟨S300000, .i32⟩
  | 59 => ⟨S300000, .i32⟩
  | 60 => ⟨S300000, .i32⟩
  | 61 => ⟨S300000x1, .i32⟩
  | 62 => ⟨S300000x256, .f32⟩
  | 63 => ⟨S300000x256, .f32⟩
  | 64 => ⟨S300000x256, .f32⟩
  | 65 => ⟨S_, .f32⟩
  | 66 => ⟨S50000x256, .f32⟩
  | 67 => ⟨S300000x1, .i32⟩
  | 68 => ⟨S50000x256, .f32⟩
  | 69 => ⟨S1x256x256, .f32⟩
  | 70 => ⟨S256x256, .f32⟩
  | 71 => ⟨S256x256, .f32⟩
  | 72 => ⟨S50000x256, .f32⟩
  | 73 => ⟨S1x256, .f32⟩
  | 74 => ⟨S256, .f32⟩
  | 75 => ⟨S1x256, .f32⟩
  | 76 => ⟨S50000x256, .f32⟩
  | 77 => ⟨S50000x256, .f32⟩
  | 78 => ⟨S1x256x256, .f32⟩
  | 79 => ⟨S256x256, .f32⟩
  | 80 => ⟨S256x256, .f32⟩
  | 81 => ⟨S50000x256, .f32⟩
  | 82 => ⟨S1x256, .f32⟩
  | 83 => ⟨S256, .f32⟩
  | 84 => ⟨S1x256, .f32⟩
  | 85 => ⟨S50000x256, .f32⟩
  | 86 => ⟨S50000x256, .f32⟩
  | 87 => ⟨S50000x512, .f32⟩
  | 88 => ⟨S1x256x512, .f32⟩
  | 89 => ⟨S256x512, .f32⟩
  | 90 => ⟨S512x256, .f32⟩
  | 91 => ⟨S50000x256, .f32⟩
  | 92 => ⟨S1x256, .f32⟩
  | 93 => ⟨S256, .f32⟩
  | 94 => ⟨S1x256, .f32⟩
  | 95 => ⟨S50000x256, .f32⟩
  | 96 => ⟨S50000x256, .f32⟩
  | 97 => ⟨S50000x256, .f32⟩
  | 98 => ⟨S1x50000x256, .f32⟩
  | 99 => ⟨S1x50000x256, .f32⟩
  | 100 => ⟨S1x50000x256, .f32⟩
  | 101 => ⟨S1x50000x256, .f32⟩
  | 102 => ⟨S4x50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_1 : Ref sig .tc := ⟨.hbm, 44, rfl⟩
abbrev main_v28 : Ref sig .tc := ⟨.hbm, 45, rfl⟩
abbrev main_v29 : Ref sig .tc := ⟨.hbm, 46, rfl⟩
abbrev main_c_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_c_4 : Ref sig .tc := ⟨.hbm, 93, rfl⟩
abbrev main_v74 : Ref sig .tc := ⟨.hbm, 94, rfl⟩
abbrev main_v75 : Ref sig .tc := ⟨.hbm, 95, rfl⟩
abbrev main_c_5 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_6 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_c_7 : Ref sig .tc := ⟨.hbm, 113, rfl⟩
abbrev main_v91 : Ref sig .tc := ⟨.hbm, 114, rfl⟩
abbrev main_v92 : Ref sig .tc := ⟨.hbm, 115, rfl⟩
abbrev main_c_8 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_9 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_c_10 : Ref sig .tc := ⟨.hbm, 162, rfl⟩
abbrev main_v137 : Ref sig .tc := ⟨.hbm, 163, rfl⟩
abbrev main_v138 : Ref sig .tc := ⟨.hbm, 164, rfl⟩
abbrev main_c_11 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_cst_12 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_c_13 : Ref sig .tc := ⟨.hbm, 182, rfl⟩
abbrev main_v154 : Ref sig .tc := ⟨.hbm, 183, rfl⟩
abbrev main_v155 : Ref sig .tc := ⟨.hbm, 184, rfl⟩
abbrev main_c_14 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_cst_15 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S300000_S300000x1_0 : S300000.BroadcastsInDim S300000x1 (![0] : Fin 1 → Fin S300000x1.rank)
  bcast_S_S300000 : S_.BroadcastsInDim S300000 (![] : Fin 0 → Fin S300000.rank)
  bcast_S300000x1_S300000x256_0_1 : S300000x1.BroadcastsInDim S300000x256 (![0, 1] : Fin 2 → Fin S300000x256.rank)
  bcast_S_S50000x256 : S_.BroadcastsInDim S50000x256 (![] : Fin 0 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  concatenates_S50000x256_S50000x256_S50000x512_d1 : Shape.Concatenates [S50000x256, S50000x256] S50000x512 1
  slices_S3x256x512_S1x256x512_0_0_0 : S3x256x512.Slices ![0, 0, 0] S1x256x512
  shapeCasts_S1x256x512_S256x512 : S1x256x512.ShapeCasts S256x512
  transposes_S256x512_S512x256_1_0 : S256x512.Transposes [1, 0] S512x256
  slices_S3x256x256_S1x256x256_1_0_0 : S3x256x256.Slices ![1, 0, 0] S1x256x256
  slices_S3x256_S1x256_1_0 : S3x256.Slices ![1, 0] S1x256
  slices_S3x256x512_S1x256x512_1_0_0 : S3x256x512.Slices ![1, 0, 0] S1x256x512
  slices_S3x256x256_S1x256x256_2_0_0 : S3x256x256.Slices ![2, 0, 0] S1x256x256
  slices_S3x256_S1x256_2_0 : S3x256.Slices ![2, 0] S1x256
  slices_S3x256x512_S1x256x512_2_0_0 : S3x256x512.Slices ![2, 0, 0] S1x256x512
  bcast_S50000x256_S1x50000x256_1_2 : S50000x256.BroadcastsInDim S1x50000x256 (![1, 2] : Fin 2 → Fin S1x50000x256.rank)
  concatenates_S1x50000x256_S1x50000x256_S1x50000x256_S1x50000x256_S4x50000x256_d0 : Shape.Concatenates [S1x50000x256, S1x50000x256, S1x50000x256, S1x50000x256] S4x50000x256 0
  dot_S50000x256_S256x256_S50000x256_1_0_0_1_n_n_wf : DotDims.WF S50000x256 S256x256 S50000x256 [1] [0] [0] [1] [] []
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S50000x512_S512x256_S50000x256_1_0_0_1_n_n_wf : DotDims.WF S50000x512 S512x256 S50000x256 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.K.R0Data.lean ====
/-
  Region 0 (the input projection tanh(x·Wᵀ + b), ten row blocks of 5000 rows): what each window's block is at a grid
  point, what the body's one store leaves in the output block as a function of the three input blocks, and the
  pipeline's proof data over the buffer contents `V` the region is entered with.
-/
import proofs.«128425_j26603027432197_1_alg».proof.Proof.Gen.Kernel.Launch
import proofs.«128425_j26603027432197_1_alg».proof.Proof.Gen.Kernel.Skeleton
import proofs.«128425_j26603027432197_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds in `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 5000×256 row block, the whole 256×256 weight and the whole 1×256 bias row: the body's accesses. -/
abbrev rA0 : Rect S5000x256 := Rect.unit (s := S5000x256) ![0, 0] S5000x256.size inb_S5000x256_S5000x256_0_0
abbrev rW0 : Rect S256x256 := Rect.unit (s := S256x256) ![0, 0] S256x256.size inb_S256x256_S256x256_0_0
abbrev rB0 : Rect S1x256 := Rect.unit (s := S1x256) ![0, 0] S1x256.size inb_S1x256_S1x256_0_0

/-- The output block after the body: its one whole-block store of tanh(rows·Wᵀ + bias) of the three input blocks. -/
def out0_3 (x0 : Vec F S5000x256 .f32) (x1 : Vec F S256x256 .f32) (x2 : Vec F S1x256 .f32) : Vec F S5000x256 .f32 :=
  View.canon [⟨rA0, k0_pay1 (View.ld x0 rA0) (View.ld x1 rW0) (View.ld x2 rB0)⟩]

/-- The one store covers the block. -/
theorem cover0_3 (p0 : Vec F S5000x256 .f32) (y : S5000x256.Idx) :
    ∃ pc ∈ ([⟨rA0, p0⟩] : List (View.Piece (Elt F) S5000x256 .f32)), y ∈ pc.1.set :=
  View.cover_of_tiled [⟨rA0, p0⟩] S5000x256.size (by rfl) y

/-- The proof data of region 0 on core `c`: arrays as found; after the body each input block in place and the output
    block at `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.Kernel.Fr

end
-- ==== Proof.K.R1Data.lean ====
/-
  Region 1 (hop 1's fused update tanh((hp·Wpᵀ + bp)·Wfpᵀ + (hn·Wnᵀ + bn)·Wfnᵀ + bf), ten row blocks of 5000 rows):
  what each of its ten windows' blocks is at a grid point, what the body's one store leaves in the output block as a
  function of the nine input blocks, and the pipeline's proof data over the buffer contents `V` the region is entered with.
-/
import proofs.«128425_j26603027432197_1_alg».proof.Proof.Gen.Kernel.Launch
import proofs.«128425_j26603027432197_1_alg».proof.Proof.Gen.Kernel.Skeleton
import proofs.«128425_j26603027432197_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds in `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 5000×256 row block, a whole 256×256 weight and a whole 1×256 bias row: the body's accesses. -/
abbrev rA1 : Rect S5000x256 := Rect.unit (s := S5000x256) ![0, 0] S5000x256.size inb_S5000x256_S5000x256_0_0
abbrev rW1 : Rect S256x256 := Rect.unit (s := S256x256) ![0, 0] S256x256.size inb_S256x256_S256x256_0_0
abbrev rB1 : Rect S1x256 := Rect.unit (s := S1x256) ![0, 0] S1x256.size inb_S1x256_S1x256_0_0

/-- The output block after the body: its one whole-block store, of the nine input blocks (windows 0–8: the two
    aggregated row blocks, then Wp, bp, Wn, bn, Wfp, Wfn, bf). -/
def out1_9 (x0 x1 : Vec F S5000x256 .f32) (x2 : Vec F S256x256 .f32) (x3 : Vec F S1x256 .f32) (x4 : Vec F S256x256 .f32)
    (x5 : Vec F S1x256 .f32) (x6 x7 : Vec F S256x256 .f32) (x8 : Vec F S1x256 .f32) : Vec F S5000x256 .f32 :=
  View.canon [⟨rA1, k1_pay1 (k1_pay2 (View.ld x0 rA1) (View.ld x1 rA1) (View.ld x2 rW1) (View.ld x4 rW1) (View.ld x3 rB1) (View.ld x5 rB1)
    (View.ld x6 rW1) (View.ld x7 rW1)) (View.ld x8 rB1)⟩]

/-- The one store covers the block. -/
theorem cover1_9 (p0 : Vec F S5000x256 .f32) (y : S5000x256.Idx) :
    ∃ pc ∈ ([⟨rA1, p0⟩] : List (View.Piece (Elt F) S5000x256 .f32)), y ∈ pc.1.set :=
  View.cover_of_tiled [⟨rA1, p0⟩] S5000x256.size (by rfl) y

/-- The proof data of region 1 on core `c`: arrays as found; after the body each input block in place and the output
    block at `out1_9` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t)
        (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) :
    (dat1 V c).after 9 t = out1_9 (iblk1 V c 0 t) (iblk1 V c 1 t) (iblk1 V c 2 t) (iblk1 V c 3 t) (iblk1 V c 4 t) (iblk1 V c 5 t)
        (iblk1 V c 6 t) (iblk1 V c 7 t) (iblk1 V c 8 t) := by dsimp only [dat1]

end Cert.Kernel.Fr

end
-- ==== Proof.K.R2Data.lean ====
/-
  Region 2 (hop 2's fused update tanh((hp·Wpᵀ + bp)·Wfpᵀ + (hn·Wnᵀ + bn)·Wfnᵀ + bf), ten row blocks of 5000 rows):
  what each of its ten windows' blocks is at a grid point, what the body's one store leaves in the output block as a
  function of the nine input blocks, and the pipeline's proof data over the buffer contents `V` the region is entered with.
-/
import proofs.«128425_j26603027432197_1_alg».proof.Proof.Gen.Kernel.Launch
import proofs.«128425_j26603027432197_1_alg».proof.Proof.Gen.Kernel.Skeleton
import proofs.«128425_j26603027432197_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds in `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole 5000×256 row block, a whole 256×256 weight and a whole 1×256 bias row: the body's accesses. -/
abbrev rA2 : Rect S5000x256 := Rect.unit (s := S5000x256) ![0, 0] S5000x256.size inb_S5000x256_S5000x256_0_0
abbrev rW2 : Rect S256x256 := Rect.unit (s := S256x256) ![0, 0] S256x256.size inb_S256x256_S256x256_0_0
abbrev rB2 : Rect S1x256 := Rect.unit (s := S1x256) ![0, 0] S1x256.size inb_S1x256_S1x256_0_0

/-- The output block after the body: its one whole-block store, of the nine input blocks (windows 0–8: the two
    aggregated row blocks, then Wp, bp, Wn, bn, Wfp, Wfn, bf). -/
def out2_9 (x0 x1 : Vec F S5000x256 .f32) (x2 : Vec F S256x256 .f32) (x3 : Vec F S1x256 .f32) (x4 : Vec F S256x256 .f32)
    (x5 : Vec F S1x256 .f32) (x6 x7 : Vec F S256x256 .f32) (x8 : Vec F S1x256 .f32) : Vec F S5000x256 .f32 :=
  View.canon [⟨rA2, k2_pay1 (k2_pay2 (View.ld x0 rA2) (View.ld x1 rA2) (View.ld x2 rW2) (View.ld x4 rW2) (View.ld x3 rB2) (View.ld x5 rB2)
    (View.ld x6 rW2) (View.ld x7 rW2)) (View.ld x8 rB2)⟩]

/-- The one store covers the block. -/
theorem cover2_9 (p0 : Vec F S5000x256 .f32) (y : S5000x256.Idx) :
    ∃ pc ∈ ([⟨rA2, p0⟩] : List (View.Piece (Elt F) S5000x256 .f32)), y ∈ pc.1.set :=
  View.cover_of_tiled [⟨rA2, p0⟩] S5000x256.size (by rfl) y

/-- The proof data of region 2 on core `c`: arrays as found; after the body each input block in place and the output
    block at `out2_9` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t)
        (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) :
    (dat2 V c).after 9 t = out2_9 (iblk2 V c 0 t) (iblk2 V c 1 t) (iblk2 V c 2 t) (iblk2 V c 3 t) (iblk2 V c 4 t) (iblk2 V c 5 t)
        (iblk2 V c 6 t) (iblk2 V c 7 t) (iblk2 V c 8 t) := by dsimp only [dat2]

end Cert.Kernel.Fr

end
-- ==== Proof.K.R3Data.lean ====
/-
  Region 3 (hop 3's fused update tanh((hp·Wpᵀ + bp)·Wfpᵀ + (hn·Wnᵀ + bn)·Wfnᵀ + bf), ten row blocks of 5000 rows):
  what each of its ten windows' blocks is at a grid point, what the body's one store leaves in the output block as a
  function of the nine input blocks, and the pipeline's proof data over the buffer contents `V` the region is entered with.
-/
import proofs.«128425_j26603027432197_1_alg».proof.Proof.Gen.Kernel.Launch
import proofs.«128425_j26603027432197_1_alg».proof.Proof.Gen.Kernel.Skeleton
import proofs.«128425_j26603027432197_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds in `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole 5000×256 row block, a whole 256×256 weight and a whole 1×256 bias row: the body's accesses. -/
abbrev rA3 : Rect S5000x256 := Rect.unit (s := S5000x256) ![0, 0] S5000x256.size inb_S5000x256_S5000x256_0_0
abbrev rW3 : Rect S256x256 := Rect.unit (s := S256x256) ![0, 0] S256x256.size inb_S256x256_S256x256_0_0
abbrev rB3 : Rect S1x256 := Rect.unit (s := S1x256) ![0, 0] S1x256.size inb_S1x256_S1x256_0_0

/-- The output block after the body: its one whole-block store, of the nine input blocks (windows 0–8: the two
    aggregated row blocks, then Wp, bp, Wn, bn, Wfp, Wfn, bf). -/
def out3_9 (x0 x1 : Vec F S5000x256 .f32) (x2 : Vec F S256x256 .f32) (x3 : Vec F S1x256 .f32) (x4 : Vec F S256x256 .f32)
    (x5 : Vec F S1x256 .f32) (x6 x7 : Vec F S256x256 .f32) (x8 : Vec F S1x256 .f32) : Vec F S5000x256 .f32 :=
  View.canon [⟨rA3, k3_pay1 (k3_pay2 (View.ld x0 rA3) (View.ld x1 rA3) (View.ld x2 rW3) (View.ld x4 rW3) (View.ld x3 rB3) (View.ld x5 rB3)
    (View.ld x6 rW3) (View.ld x7 rW3)) (View.ld x8 rB3)⟩]

/-- The one store covers the block. -/
theorem cover3_9 (p0 : Vec F S5000x256 .f32) (y : S5000x256.Idx) :
    ∃ pc ∈ ([⟨rA3, p0⟩] : List (View.Piece (Elt F) S5000x256 .f32)), y ∈ pc.1.set :=
  View.cover_of_tiled [⟨rA3, p0⟩] S5000x256.size (by rfl) y

/-- The proof data of region 3 on core `c`: arrays as found; after the body each input block in place and the output
    block at `out3_9` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t)
        (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) :
    (dat3 V c).after 9 t = out3_9 (iblk3 V c 0 t) (iblk3 V c 1 t) (iblk3 V c 2 t) (iblk3 V c 3 t) (iblk3 V c 4 t) (iblk3 V c 5 t)
        (iblk3 V c 6 t) (iblk3 V c 7 t) (iblk3 V c 8 t) := by dsimp only [dat3]

end Cert.Kernel.Fr

end
-- ==== Proof.K.Fold.lean ====
/-
  The contents of core `c`'s buffers at every boundary between two items of @main, as a fold from the launch memory:
  a stretch of host operations applies them (`StableHlo.after`); a region leaves each of its arrays at what its
  write-backs have folded into it (`Dat.arrAt … N`) and every other buffer as it was. Read back here: each argument
  array ends as launched (no host operation writes one; region 0 only reads two of them), and each region's output
  array survives to the end.
-/
import proofs.«128425_j26603027432197_1_alg».proof.Proof.Gen.Kernel.Launch
import proofs.«128425_j26603027432197_1_alg».proof.Proof.Gen.Kernel.Skeleton
import proofs.«128425_j26603027432197_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128425_j26603027432197_1_alg».proof.Proof.Gen.Kernel.Regions
import proofs.«128425_j26603027432197_1_alg».proof.Proof.K.R0Data
import proofs.«128425_j26603027432197_1_alg».proof.Proof.K.R1Data
import proofs.«128425_j26603027432197_1_alg».proof.Proof.K.R2Data
import proofs.«128425_j26603027432197_1_alg».proof.Proof.K.R3Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host stretch before region 0: region 0's entry contents. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer the host stretch before region 0 does not write keeps its contents. -/
theorem W1_of (c : Dev nD) (r : Ref sig .tc) (h : r ∉ hostOps0_W) : W1 m ρ c r = W0 m ρ c r :=
  StableHlo.after_of_writes_sub hostOps0 _ hostOps0_writes h

/-- After the host stretch before region 1: region 1's entry contents. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer the host stretch before region 1 does not write keeps its contents. -/
theorem W3_of (c : Dev nD) (r : Ref sig .tc) (h : r ∉ hostOps1_W) : W3 m ρ c r = W2 m ρ c r :=
  StableHlo.after_of_writes_sub hostOps1 _ hostOps1_writes h

/-- After the host stretch before region 2: region 2's entry contents. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer the host stretch before region 2 does not write keeps its contents. -/
theorem W5_of (c : Dev nD) (r : Ref sig .tc) (h : r ∉ hostOps2_W) : W5 m ρ c r = W4 m ρ c r :=
  StableHlo.after_of_writes_sub hostOps2 _ hostOps2_writes h

/-- After the host stretch before region 3: region 3's entry contents. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A buffer the host stretch before region 3 does not write keeps its contents. -/
theorem W7_of (c : Dev nD) (r : Ref sig .tc) (h : r ∉ hostOps3_W) : W7 m ρ c r = W6 m ρ c r :=
  StableHlo.after_of_writes_sub hostOps3 _ hostOps3_writes h

/-- After the last host stretch (the four layers stacked): the contents @main ends with. -/
abbrev W9 : Dev nD → Valuation τ sig (Elt F) := fun c => StableHlo.after hostOps4 (W8 m ρ c)
theorem W9_of (c : Dev nD) (r : Ref sig .tc) (h : r ∉ hostOps4_W) : W9 m ρ c r = W8 m ρ c r :=
  StableHlo.after_of_writes_sub hostOps4 _ hostOps4_writes h

/-! ## The arguments end as launched -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of m ρ c main_arg5 (by decide)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := (W2_arr m ρ c 1).trans (((dat0 (V1 m ρ) c).arrAt_in 1 rfl _).trans (A_eq0 (V1 m ρ) c 1))
    _ = W0 m ρ c (Proc.devRef .tc main_arg5) := W1_of m ρ c main_arg5 (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of m ρ c main_arg6 (by decide)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of m ρ c main_arg7 (by decide)
    _ = W7 m ρ c (Proc.devRef .tc main_arg7) := W8_of_ne m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of m ρ c main_arg8 (by decide)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_of m ρ c main_arg9 (by decide)
    _ = W7 m ρ c (Proc.devRef .tc main_arg9) := W8_of_ne m ρ c main_arg9 (by decide)
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := W9_of m ρ c main_arg10 (by decide)
    _ = W7 m ρ c (Proc.devRef .tc main_arg10) := W8_of_ne m ρ c main_arg10 (by decide)
    _ = W6 m ρ c (Proc.devRef .tc main_arg10) := W7_of m ρ c main_arg10 (by decide)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := W9_of m ρ c main_arg11 (by decide)
    _ = W7 m ρ c (Proc.devRef .tc main_arg11) := W8_of_ne m ρ c main_arg11 (by decide)
    _ = W6 m ρ c (Proc.devRef .tc main_arg11) := W7_of m ρ c main_arg11 (by decide)
    _ = W5 m ρ c (Proc.devRef .tc main_arg11) := W6_of_ne m ρ c main_arg11 (by decide)
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

theorem W9_main_arg12 (c : Dev nD) : W9 m ρ c (Proc.devRef .tc main_arg12) = m ((c : Thread nD τ).loc main_arg12) :=
  calc W9 m ρ c (Proc.devRef .tc main_arg12)
    _ = W8 m ρ c (Proc.devRef .tc main_arg12) := W9_of m ρ c main_arg12 (by decide)
    _ = W7 m ρ c (Proc.devRef .tc main_arg12) := W8_of_ne m ρ c main_arg12 (by decide)
    _ = W6 m ρ c (Proc.devRef .tc main_arg12) := W7_of m ρ c main_arg12 (by decide)
    _ = W5 m ρ c (Proc.devRef .tc main_arg12) := W6_of_ne m ρ c main_arg12 (by decide)
    _ = W4 m ρ c (Proc.devRef .tc main_arg12) := W5_of m ρ c main_arg12 (by decide)
    _ = W3 m ρ c (Proc.devRef .tc main_arg12) := W4_of_ne m ρ c main_arg12 (by decide)
    _ = W2 m ρ c (Proc.devRef .tc main_arg12) := W3_of m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl

end Cert.Kernel.Fr

end
-- ==== Proof.K.R0Body.lean ====
/-
  Region 0 (the input projection tanh(x·Wᵀ + b)): the body's triple on whole staging buffers, what the body finds in
  each input window's buffer at a grid point, and the pipeline's body obligation at every point.
-/
import proofs.«128425_j26603027432197_1_alg».proof.Proof.K.R0Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's staging buffer holds its block at every grid point, whether or not it was fetched there: an
    unfetched window's block index has not moved since the previous point, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every grid point, whether or not it was fetched there: an
    unfetched window's block index has not moved since the previous point, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every grid point, whether or not it was fetched there: an
    unfetched window's block index has not moved since the previous point, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

set_option maxHeartbeats 1000000 in
/-- The body on whole staging buffers, the three inputs' reading `x0 x1 x2` and the output's holding anything, runs to
    the continuation with the inputs' as they were and the output's at `out0_3 x0 x1 x2`: it loads the three input
    blocks whole, reads the output block once (a value it never uses) and stores tanh(x0·x1ᵀ + x2) over the whole
    output block, which that one store covers. -/
theorem sound_kernel0 (c : Dev nD) (E : Set ℕ) (i : grid0.Coords)
    (arg0 : Memref sig .tc .vmem S5000x256 .f32) (harg0 : arg0.IsWhole) (arg1 : Memref sig .tc .vmem S256x256 .f32) (harg1 : arg1.IsWhole)
    (arg2 : Memref sig .tc .vmem S1x256 .f32) (harg2 : arg2.IsWhole) (arg3 : Memref sig .tc .vmem S5000x256 .f32) (harg3 : arg3.IsWhole)
    (x0 : Vec F S5000x256 .f32) (x1 : Vec F S256x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__dense_tanh_kernel i arg0 harg0 arg1 harg1 arg2 harg2 arg3 harg3) K := by
  simp only [cc0__dense_tanh_kernel_eq_skeleton]; unfold cc0__dense_tanh_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The inputs' buffers at a point, for this region's proof data -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's debt, and each window's staging buffer at what
    the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: the same with each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for region 0, at every grid point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.R1Body.lean ====
/-
  Region 1 (hop 1's fused update tanh((hp·Wpᵀ + bp)·Wfpᵀ + (hn·Wnᵀ + bn)·Wfnᵀ + bf)): the body's triple on whole staging
  buffers, what the body finds in each of its nine input windows' buffers at a grid point, and the pipeline's body
  obligation at every point.
-/
import proofs.«128425_j26603027432197_1_alg».proof.Proof.K.R1Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's staging buffer holds its block at every grid point, whether or not it was fetched there: an
    unfetched window's block index has not moved since the previous point, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every grid point, whether or not it was fetched there: an
    unfetched window's block index has not moved since the previous point, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every grid point, whether or not it was fetched there: an
    unfetched window's block index has not moved since the previous point, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every grid point, whether or not it was fetched there: an
    unfetched window's block index has not moved since the previous point, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every grid point, whether or not it was fetched there: an
    unfetched window's block index has not moved since the previous point, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every grid point, whether or not it was fetched there: an
    unfetched window's block index has not moved since the previous point, and the body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every grid point, whether or not it was fetched there: an
    unfetched window's block index has not moved since the previous point, and the body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's staging buffer holds its block at every grid point, whether or not it was fetched there: an
    unfetched window's block index has not moved since the previous point, and the body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's staging buffer holds its block at every grid point, whether or not it was fetched there: an
    unfetched window's block index has not moved since the previous point, and the body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 2000000 in
/-- The body on whole staging buffers, the nine inputs' reading `x0 … x8` and the output's holding anything, runs to the
    continuation with the inputs' as they were and the output's at `out1_9 x0 … x8`: its first part loads the eight
    blocks of windows 0, 1, 2, 4, 3, 5, 6, 7 whole (in that order) and returns the sum of the two projected hops; the
    body then loads the bias row of window 8, reads the output block once (a value it never uses) and stores
    tanh(sum + bias) over the whole output block, which that one store covers. -/
theorem sound_kernel1 (c : Dev nD) (E : Set ℕ) (i : grid1.Coords)
    (arg0 : Memref sig .tc .vmem S5000x256 .f32) (harg0 : arg0.IsWhole) (arg1 : Memref sig .tc .vmem S5000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole)
    (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole)
    (arg9 : Memref sig .tc .vmem S5000x256 .f32) (harg9 : arg9.IsWhole)
    (x0 : Vec F S5000x256 .f32) (x1 : Vec F S5000x256 .f32) (x2 : Vec F S256x256 .f32) (x3 : Vec F S1x256 .f32) (x4 : Vec F S256x256 .f32) (x5 : Vec F S1x256 .f32) (x6 : Vec F S256x256 .f32) (x7 : Vec F S256x256 .f32) (x8 : Vec F S1x256 .f32) (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ (∃ d, owns (c : Thread nD τ) arg9 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare (out1_9 x0 x1 x2 x3 x4 x5 x6 x7 x8)) -∗ K ⟨⟩))
      ⊢ wp frame (wpE (defs₀ (F := F)) Variants.none c none) E (cc1__hop_fuse_kernel i arg0 harg0 arg1 harg1 arg2 harg2 arg3 harg3 arg4 harg4 arg5 harg5 arg6 harg6 arg7 harg7 arg8 harg8 arg9 harg9) K := by
  simp only [cc1__hop_fuse_kernel_eq_skeleton]; unfold cc1__hop_fuse_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The inputs' buffers at a point, for this region's proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`: the invariant, the core's debt, and each window's staging buffer at what
    the pipeline left there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns: the same with each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' buffers hold their blocks, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation for region 1, at every grid point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.R2Body.lean ====
/-
  Region 2 (hop 2's fused update tanh((hp·Wpᵀ + bp)·Wfpᵀ + (hn·Wnᵀ + bn)·Wfnᵀ + bf)): the body's triple on whole staging
  buffers, what the body finds in each of its nine input windows' buffers at a grid point, and the pipeline's body
  obligation at every point.
-/
import proofs.«128425_j26603027432197_1_alg».proof.Proof.K.R2Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's staging buffer holds its block at every grid point, whether or not it was fetched there: an
    unfetched window's block index has not moved since the previous point, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every grid point, whether or not it was fetched there: an
    unfetched window's block index has not moved since the previous point, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every grid point, whether or not it was fetched there: an
    unfetched window's block index has not moved since the previous point, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every grid point, whether or not it was fetched there: an
    unfetched window's block index has not moved since the previous point, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every grid point, whether or not it was fetched there: an
    unfetched window's block index has not moved since the previous point, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every grid point, whether or not it was fetched there: an
    unfetched window's block index has not moved since the previous point, and the body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's staging buffer holds its block at every grid point, whether or not it was fetched there: an
    unfetched window's block index has not moved since the previous point, and the body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's staging buffer holds its block at every grid point, whether or not it was fetched there: an
    unfetched window's block index has not moved since the previous point, and the body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's staging buffer holds its block at every grid point, whether or not it was fetched there: an
    unfetched window's block index has not moved since the previous point, and the body leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's triple -/

set_option maxHeartbeats 2000000 in
/-- The body on whole staging buffers, the nine inputs' reading `x0 … x8` and the output's holding anything, runs to the
    continuation with the inputs' as they were and the output's at `out2_9 x0 … x8`: its first part loads the eight
    blocks of windows 0, 1, 2, 4, 3, 5, 6, 7 whole (in that order) and returns the sum of the two projected hops; the
    body then loads the bias row of window 8, reads the output block once (a value it never uses) and stores
    tanh(sum + bias) over the whole output block, which that one store covers. -/
theorem sound_kernel2 (c : Dev nD) (E : Set ℕ) (i : grid2.Coords)
    (arg0 : Memref sig .tc .vmem S5000x256 .f32) (harg0 : arg0.IsWhole) (arg1 : Memref sig .tc .vmem S5000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole)
    (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole)
    (arg9 : Memref sig .tc .vmem S5000x256 .f32) (harg9 : arg9.IsWhole)
    (x0 : Vec F S5000x256 .f32) (x1 : Vec F S5000x256 .f32) (x2 : Vec F S256x256 .f32) (x3 : Vec F S1x256 .f32) (x4 : Vec F S256x256 .f32) (x5 : Vec F S1x256 .f32) (x6 : Vec F S256x256 .f32) (x7 : Vec F S256x256 .f32) (x8 : Vec F S1x256 .f32) (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ (∃ d, owns (c : Thread nD τ) arg9 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare (out2_9 x0 x1 x2 x3 x4 x5 x6 x7 x8)) -∗ K ⟨⟩))
      ⊢ wp frame (wpE (defs₀ (F := F)) Variants.none c none) E (cc2__hop_fuse_kernel i arg0 harg0 arg1 harg1 arg2 harg2 arg3 harg3 arg4 harg4 arg5 harg5 arg6 harg6 arg7 harg7 arg8 harg8 arg9 harg9) K := by
  simp only [cc2__hop_fuse_kernel_eq_skeleton]; unfold cc2__hop_fuse_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The inputs' buffers at a point, for this region's proof data -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t`: the invariant, the core's debt, and each window's staging buffer at what
    the pipeline left there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns: the same with each buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' buffers hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation for region 2, at every grid point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.R3Body.lean ====
/-
  Region 3 (hop 3's fused update tanh((hp·Wpᵀ + bp)·Wfpᵀ + (hn·Wnᵀ + bn)·Wfnᵀ + bf)): the body's triple on whole staging
  buffers, what the body finds in each of its nine input windows' buffers at a grid point, and the pipeline's body
  obligation at every point.
-/
import proofs.«128425_j26603027432197_1_alg».proof.Proof.K.R3Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's staging buffer holds its block at every grid point, whether or not it was fetched there: an
    unfetched window's block index has not moved since the previous point, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block at every grid point, whether or not it was fetched there: an
    unfetched window's block index has not moved since the previous point, and the body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds its block at every grid point, whether or not it was fetched there: an
    unfetched window's block index has not moved since the previous point, and the body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds its block at every grid point, whether or not it was fetched there: an
    unfetched window's block index has not moved since the previous point, and the body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's staging buffer holds its block at every grid point, whether or not it was fetched there: an
    unfetched window's block index has not moved since the previous point, and the body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's staging buffer holds its block at every grid point, whether or not it was fetched there: an
    unfetched window's block index has not moved since the previous point, and the body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's staging buffer holds its block at every grid point, whether or not it was fetched there: an
    unfetched window's block index has not moved since the previous point, and the body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's staging buffer holds its block at every grid point, whether or not it was fetched there: an
    unfetched window's block index has not moved since the previous point, and the body leaves the block in place. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- Input window 8's staging buffer holds its block at every grid point, whether or not it was fetched there: an
    unfetched window's block index has not moved since the previous point, and the body leaves the block in place. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The body's triple -/

set_option maxHeartbeats 2000000 in
/-- The body on whole staging buffers, the nine inputs' reading `x0 … x8` and the output's holding anything, runs to the
    continuation with the inputs' as they were and the output's at `out3_9 x0 … x8`: its first part loads the eight
    blocks of windows 0, 1, 2, 4, 3, 5, 6, 7 whole (in that order) and returns the sum of the two projected hops; the
    body then loads the bias row of window 8, reads the output block once (a value it never uses) and stores
    tanh(sum + bias) over the whole output block, which that one store covers. -/
theorem sound_kernel3 (c : Dev nD) (E : Set ℕ) (i : grid3.Coords)
    (arg0 : Memref sig .tc .vmem S5000x256 .f32) (harg0 : arg0.IsWhole) (arg1 : Memref sig .tc .vmem S5000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole)
    (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole)
    (arg9 : Memref sig .tc .vmem S5000x256 .f32) (harg9 : arg9.IsWhole)
    (x0 : Vec F S5000x256 .f32) (x1 : Vec F S5000x256 .f32) (x2 : Vec F S256x256 .f32) (x3 : Vec F S1x256 .f32) (x4 : Vec F S256x256 .f32) (x5 : Vec F S1x256 .f32) (x6 : Vec F S256x256 .f32) (x7 : Vec F S256x256 .f32) (x8 : Vec F S1x256 .f32) (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ (∃ d, owns (c : Thread nD τ) arg9 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare (out3_9 x0 x1 x2 x3 x4 x5 x6 x7 x8)) -∗ K ⟨⟩))
      ⊢ wp frame (wpE (defs₀ (F := F)) Variants.none c none) E (cc3__hop_fuse_kernel i arg0 harg0 arg1 harg1 arg2 harg2 arg3 harg3 arg4 harg4 arg5 harg5 arg6 harg6 arg7 harg7 arg8 harg8 arg9 harg9) K := by
  simp only [cc3__hop_fuse_kernel_eq_skeleton]; unfold cc3__hop_fuse_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover3_9 _)

/-! ## The inputs' buffers at a point, for this region's proof data -/

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The body obligation, at a generic point -/

/-- What the body is called with at point `t`: the invariant, the core's debt, and each window's staging buffer at what
    the pipeline left there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns: the same with each buffer at what the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' buffers hold their blocks, so the body's triple applies; the invariant and the
    core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation for region 3, at every grid point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.Main.lean ====
/-
  The run of @main: its nine items — five stretches of host operations and the four kernel regions between them — as
  the list of segments the launch theorem takes. Between two items core `c` holds every unscoped buffer whole at the
  boundary's contents (`W0` … `W9`), its generator register at some state, and owes nothing. A host stretch moves
  the contents by `StableHlo.after`; a region splits its arrays out of the buffers, runs its pipeline over them from the
  proof data at the entry contents, and puts them back at what the write-backs leave. The launch then says: every weakly
  fair execution terminates and every final memory holds each unscoped buffer at `W9`; read at the argument arrays,
  each ends as launched.
-/
import proofs.«128425_j26603027432197_1_alg».proof.Proof.K.Fold
import proofs.«128425_j26603027432197_1_alg».proof.Proof.K.R0Body
import proofs.«128425_j26603027432197_1_alg».proof.Proof.K.R1Body
import proofs.«128425_j26603027432197_1_alg».proof.Proof.K.R2Body
import proofs.«128425_j26603027432197_1_alg».proof.Proof.K.R3Body

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm

/-- Every pipeline's proof data, each at its region's entry contents: a literal `match`, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)

/-- A host stretch as a segment over the unscoped references from the contents `W`, `R` riding along: it leaves those
    references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last boundary's contents `W9`, the generator
    register at some state. -/
abbrev Tₙ (c : Dev nD) : sProp 𝕄 := iprop(StableHlo.held (c : Thread nD τ) (Pipeline.ucRefs τ sig) (W9 m ρ c) ∗ ∃ r, prngReg c r)

/-- The last link of the chain: the last host stretch leaves the buffers at `W9` beside `R c`; re-associated, that is
    the last thread state beside the core owing nothing. -/
theorem last_link (c : Dev nD) :
    (iprop(StableHlo.held (c : Thread nD τ) (Pipeline.ucRefs τ sig) (W9 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

/-! ## The regions as segments

Each is stated from the body's triple at the region's entry contents (`hbK`: at every grid point the body, run on the
staged blocks, leaves the output block at what the proof data say). -/

set_option backward.isDefEq.respectTransparency.types false in
/-- Region 0 (custom call 0) over the thread state: entered from every unscoped buffer at `W1`, left at `W2`,
    which the next host stretch is entered from. Its arrays are split out of the unscoped buffers on entry and put back
    at the exit contents; the generator register goes into the pipeline's invariant and comes back; nothing is owed;
    the kernel has no semaphore of its own. -/
def reg0 (hb0 : ∀ (V : (c : Dev nD) → (b : Ref sig .tc) → Buf (Elt F) ((c : Thread nD τ).loc b)) (c : Dev nD), BodyObligation (dat0 (F := F) V c) (defs₀ (F := F)) Variants.none () Set.univ) :
    Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (custom call 1) over the thread state: entered from every unscoped buffer at `W3`, left at `W4`,
    which the next host stretch is entered from. Its arrays are split out of the unscoped buffers on entry and put back
    at the exit contents; the generator register goes into the pipeline's invariant and comes back; nothing is owed;
    the kernel has no semaphore of its own. -/
def reg1 (hb1 : ∀ (V : (c : Dev nD) → (b : Ref sig .tc) → Buf (Elt F) ((c : Thread nD τ).loc b)) (c : Dev nD), BodyObligation (dat1 (F := F) V c) (defs₀ (F := F)) Variants.none () Set.univ) :
    Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (custom call 2) over the thread state: entered from every unscoped buffer at `W5`, left at `W6`,
    which the next host stretch is entered from. Its arrays are split out of the unscoped buffers on entry and put back
    at the exit contents; the generator register goes into the pipeline's invariant and comes back; nothing is owed;
    the kernel has no semaphore of its own. -/
def reg2 (hb2 : ∀ (V : (c : Dev nD) → (b : Ref sig .tc) → Buf (Elt F) ((c : Thread nD τ).loc b)) (c : Dev nD), BodyObligation (dat2 (F := F) V c) (defs₀ (F := F)) Variants.none () Set.univ) :
    Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (hb2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (custom call 3) over the thread state: entered from every unscoped buffer at `W7`, left at `W8`,
    which the next host stretch is entered from. Its arrays are split out of the unscoped buffers on entry and put back
    at the exit contents; the generator register goes into the pipeline's invariant and comes back; nothing is owed;
    the kernel has no semaphore of its own. -/
def reg3 (hb3 : ∀ (V : (c : Dev nD) → (b : Ref sig .tc) → Buf (Elt F) ((c : Thread nD τ).loc b)) (c : Dev nD), BodyObligation (dat3 (F := F) V c) (defs₀ (F := F)) Variants.none () Set.univ) :
    Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (hb3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order: a host segment per stretch from its boundary's contents, a region per kernel call. -/
abbrev segs
    (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ)
    (hb3 : ∀ (V : (c : Dev nD) → (b : Ref sig .tc) → Buf (Elt F) ((c : Thread nD τ).loc b)) (c : Dev nD), BodyObligation (dat3 (F := F) V c) (defs₀ (F := F)) Variants.none () Set.univ) :
    List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .region (reg1 m ρ hb1),
    .host (hseg hostOps2 hostOps2_sub hostOps2_fresh (W4 m ρ)),
    .region (reg2 m ρ hb2),
    .host (hseg hostOps3 hostOps3_sub hostOps3_fresh (W6 m ρ)),
    .region (reg3 m ρ hb3),
    .host (hseg hostOps4 hostOps4_sub hostOps4_fresh (W8 m ρ)) ]

/-- @main is the run of the segments: it is the chain of its nine items, and the segments' run is the chain of their
    programs, which are those items. -/
theorem main_run
    (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ)
    (hb3 : ∀ (V : (c : Dev nD) → (b : Ref sig .tc) → Buf (Elt F) ((c : Thread nD τ).loc b)) (c : Dev nD), BodyObligation (dat3 (F := F) V c) (defs₀ (F := F)) Variants.none () Set.univ)
    (c : Dev nD) : main (F := F) c = Pipeline.Seg.run (segs m ρ hb0 hb1 hb2 hb3) :=
  (main_chain c).trans (by rewrite [Pipeline.Seg.run_eq_chain]; chain_rfl)

set_option backward.isDefEq.respectTransparency.types false in
/-- THE RUN, given the four bodies' triples. From any memory with zero counters, every weakly fair execution of @main
    on the TensorCores terminates, nothing faulting, and in every final memory each unscoped buffer of each core holds
    the last boundary's contents `W9`: the launch over the segments, the thread states chaining by name (the last link
    re-associates the separating conjunction), the last thread state read against the final state. -/
theorem run_main_of
    (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ)
    (hb3 : ∀ (V : (c : Dev nD) → (b : Ref sig .tc) → Buf (Elt F) ((c : Thread nD τ).loc b)) (c : Dev nD), BodyObligation (dat3 (F := F) V c) (defs₀ (F := F)) Variants.none () Set.univ) :
    θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ hb0 hb1 hb2 hb3)
    (fun c Q => by rw [main_run m ρ hb0 hb1 hb2 hb3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME, given the four bodies' triples: every weakly fair execution of @main terminates and every final memory
    has each argument array as launched — the run, each argument's buffer read back through the boundaries to the
    launch memory. -/
theorem frame_of
    (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ)
    (hb3 : ∀ (V : (c : Dev nD) → (b : Ref sig .tc) → Buf (Elt F) ((c : Thread nD τ).loc b)) (c : Dev nD), BodyObligation (dat3 (F := F) V c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (Q := fun r => ∀ c : Dev nD, ∀ b ∈ Pipeline.ucRefs τ sig, r.2.mem (((c : Thread nD τ)).1, b) = W9 m ρ c b) (fun r h c =>
    ⟨(h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c),
      (h c _ (mem_uc main_arg11 (by decide))).trans (W9_main_arg11 m ρ c),
      (h c _ (mem_uc main_arg12 (by decide))).trans (W9_main_arg12 m ρ c)⟩)
    (run_main_of m ρ hb0 hb1 hb2 hb3)

/-! ## The run and the frame, the four bodies' triples supplied -/

/-- THE RUN: from any memory with zero counters, every weakly fair execution of @main on the TensorCores terminates,
    nothing faulting, and in every final memory each unscoped buffer of each core holds the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  run_main_of m ρ body_obligation0 body_obligation1 body_obligation2 body_obligation3

/-- THE FRAME: every weakly fair execution of @main terminates and every final memory has each argument array as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ body_obligation0 body_obligation1 body_obligation2 body_obligation3

end Cert.Kernel.Fr

end
-- ==== Proof.KI.R0Data.lean ====
/-
  Region 0 (the input projection tanh(x·Wᵀ + b), ten row blocks of 5000 rows): what each window's block is at a grid
  point, what the body's one store leaves in the output block as a function of the three input blocks, and the
  pipeline's proof data over the buffer contents `V` the region is entered with.
-/
import proofs.«128425_j26603027432197_1_alg».proof.Proof.Gen.KernelIdeal.Launch
import proofs.«128425_j26603027432197_1_alg».proof.Proof.Gen.KernelIdeal.Skeleton
import proofs.«128425_j26603027432197_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds in `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 5000×256 row block, the whole 256×256 weight and the whole 1×256 bias row: the body's accesses. -/
abbrev rA0 : Rect S5000x256 := Rect.unit (s := S5000x256) ![0, 0] S5000x256.size inb_S5000x256_S5000x256_0_0
abbrev rW0 : Rect S256x256 := Rect.unit (s := S256x256) ![0, 0] S256x256.size inb_S256x256_S256x256_0_0
abbrev rB0 : Rect S1x256 := Rect.unit (s := S1x256) ![0, 0] S1x256.size inb_S1x256_S1x256_0_0

/-- The output block after the body: its one whole-block store of tanh(rows·Wᵀ + bias) of the three input blocks. -/
def out0_3 (x0 : Vec F S5000x256 .f32) (x1 : Vec F S256x256 .f32) (x2 : Vec F S1x256 .f32) : Vec F S5000x256 .f32 :=
  View.canon [⟨rA0, k0_pay1 (View.ld x0 rA0) (View.ld x1 rW0) (View.ld x2 rB0)⟩]

/-- The one store covers the block. -/
theorem cover0_3 (p0 : Vec F S5000x256 .f32) (y : S5000x256.Idx) :
    ∃ pc ∈ ([⟨rA0, p0⟩] : List (View.Piece (Elt F) S5000x256 .f32)), y ∈ pc.1.set :=
  View.cover_of_tiled [⟨rA0, p0⟩] S5000x256.size (by rfl) y

/-- The proof data of region 0 on core `c`: arrays as found; after the body each input block in place and the output
    block at `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.KernelIdeal.Fr

end
-- ==== Proof.KI.R1Data.lean ====
/-
  Region 1 (hop 1's fused update tanh((hp·Wpᵀ + bp)·Wfpᵀ + (hn·Wnᵀ + bn)·Wfnᵀ + bf), ten row blocks of 5000 rows):
  what each of its ten windows' blocks is at a grid point, what the body's one store leaves in the output block as a
  function of the nine input blocks, and the pipeline's proof data over the buffer contents `V` the region is entered with.
-/
import proofs.«128425_j26603027432197_1_alg».proof.Proof.Gen.KernelIdeal.Launch
import proofs.«128425_j26603027432197_1_alg».proof.Proof.Gen.KernelIdeal.Skeleton
import proofs.«128425_j26603027432197_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds in `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 5000×256 row block, a whole 256×256 weight and a whole 1×256 bias row: the body's accesses. -/
abbrev rA1 : Rect S5000x256 := Rect.unit (s := S5000x256) ![0, 0] S5000x256.size inb_S5000x256_S5000x256_0_0
abbrev rW1 : Rect S256x256 := Rect.unit (s := S256x256) ![0, 0] S256x256.size inb_S256x256_S256x256_0_0
abbrev rB1 : Rect S1x256 := Rect.unit (s := S1x256) ![0, 0] S1x256.size inb_S1x256_S1x256_0_0

/-- The output block after the body: its one whole-block store, of the nine input blocks (windows 0–8: the two
    aggregated row blocks, then Wp, bp, Wn, bn, Wfp, Wfn, bf). -/
def out1_9 (x0 x1 : Vec F S5000x256 .f32) (x2 : Vec F S256x256 .f32) (x3 : Vec F S1x256 .f32) (x4 : Vec F S256x256 .f32)
    (x5 : Vec F S1x256 .f32) (x6 x7 : Vec F S256x256 .f32) (x8 : Vec F S1x256 .f32) : Vec F S5000x256 .f32 :=
  View.canon [⟨rA1, k1_pay1 (k1_pay2 (View.ld x0 rA1) (View.ld x1 rA1) (View.ld x2 rW1) (View.ld x4 rW1) (View.ld x3 rB1) (View.ld x5 rB1)
    (View.ld x6 rW1) (View.ld x7 rW1)) (View.ld x8 rB1)⟩]

/-- The one store covers the block. -/
theorem cover1_9 (p0 : Vec F S5000x256 .f32) (y : S5000x256.Idx) :
    ∃ pc ∈ ([⟨rA1, p0⟩] : List (View.Piece (Elt F) S5000x256 .f32)), y ∈ pc.1.set :=
  View.cover_of_tiled [⟨rA1, p0⟩] S5000x256.size (by rfl) y

/-- The proof data of region 1 on core `c`: arrays as found; after the body each input block in place and the output
    block at `out1_9` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t)
        (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) :
    (dat1 V c).after 9 t = out1_9 (iblk1 V c 0 t) (iblk1 V c 1 t) (iblk1 V c 2 t) (iblk1 V c 3 t) (iblk1 V c 4 t) (iblk1 V c 5 t)
        (iblk1 V c 6 t) (iblk1 V c 7 t) (iblk1 V c 8 t) := by dsimp only [dat1]

end Cert.KernelIdeal.Fr

end
-- ==== Proof.KI.R2Data.lean ====
/-
  Region 2 (hop 2's fused update tanh((hp·Wpᵀ + bp)·Wfpᵀ + (hn·Wnᵀ + bn)·Wfnᵀ + bf), ten row blocks of 5000 rows):
  what each of its ten windows' blocks is at a grid point, what the body's one store leaves in the output block as a
  function of the nine input blocks, and the pipeline's proof data over the buffer contents `V` the region is entered with.
-/
import proofs.«128425_j26603027432197_1_alg».proof.Proof.Gen.KernelIdeal.Launch
import proofs.«128425_j26603027432197_1_alg».proof.Proof.Gen.KernelIdeal.Skeleton
import proofs.«128425_j26603027432197_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds in `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole 5000×256 row block, a whole 256×256 weight and a whole 1×256 bias row: the body's accesses. -/
abbrev rA2 : Rect S5000x256 := Rect.unit (s := S5000x256) ![0, 0] S5000x256.size inb_S5000x256_S5000x256_0_0
abbrev rW2 : Rect S256x256 := Rect.unit (s := S256x256) ![0, 0] S256x256.size inb_S256x256_S256x256_0_0
abbrev rB2 : Rect S1x256 := Rect.unit (s := S1x256) ![0, 0] S1x256.size inb_S1x256_S1x256_0_0

/-- The output block after the body: its one whole-block store, of the nine input blocks (windows 0–8: the two
    aggregated row blocks, then Wp, bp, Wn, bn, Wfp, Wfn, bf). -/
def out2_9 (x0 x1 : Vec F S5000x256 .f32) (x2 : Vec F S256x256 .f32) (x3 : Vec F S1x256 .f32) (x4 : Vec F S256x256 .f32)
    (x5 : Vec F S1x256 .f32) (x6 x7 : Vec F S256x256 .f32) (x8 : Vec F S1x256 .f32) : Vec F S5000x256 .f32 :=
  View.canon [⟨rA2, k2_pay1 (k2_pay2 (View.ld x0 rA2) (View.ld x1 rA2) (View.ld x2 rW2) (View.ld x4 rW2) (View.ld x3 rB2) (View.ld x5 rB2)
    (View.ld x6 rW2) (View.ld x7 rW2)) (View.ld x8 rB2)⟩]

/-- The one store covers the block. -/
theorem cover2_9 (p0 : Vec F S5000x256 .f32) (y : S5000x256.Idx) :
    ∃ pc ∈ ([⟨rA2, p0⟩] : List (View.Piece (Elt F) S5000x256 .f32)), y ∈ pc.1.set :=
  View.cover_of_tiled [⟨rA2, p0⟩] S5000x256.size (by rfl) y

/-- The proof data of region 2 on core `c`: arrays as found; after the body each input block in place and the output
    block at `out2_9` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t)
        (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) :
    (dat2 V c).after 9 t = out2_9 (iblk2 V c 0 t) (iblk2 V c 1 t) (iblk2 V c 2 t) (iblk2 V c 3 t) (iblk2 V c 4 t) (iblk2 V c 5 t)
        (iblk2 V c 6 t) (iblk2 V c 7 t) (iblk2 V c 8 t) := by dsimp only [dat2]

end Cert.KernelIdeal.Fr

end
-- ==== Proof.KI.R3Data.lean ====
/-
  Region 3 (hop 3's fused update tanh((hp·Wpᵀ + bp)·Wfpᵀ + (hn·Wnᵀ + bn)·Wfnᵀ + bf), ten row blocks of 5000 rows):
  what each of its ten windows' blocks is at a grid point, what the body's one store leaves in the output block as a
  function of the nine input blocks, and the pipeline's proof data over the buffer contents `V` the region is entered with.
-/
import proofs.«128425_j26603027432197_1_alg».proof.Proof.Gen.KernelIdeal.Launch
import proofs.«128425_j26603027432197_1_alg».proof.Proof.Gen.KernelIdeal.Skeleton
import proofs.«128425_j26603027432197_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds in `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole 5000×256 row block, a whole 256×256 weight and a whole 1×256 bias row: the body's accesses. -/
abbrev rA3 : Rect S5000x256 := Rect.unit (s := S5000x256) ![0, 0] S5000x256.size inb_S5000x256_S5000x256_0_0
abbrev rW3 : Rect S256x256 := Rect.unit (s := S256x256) ![0, 0] S256x256.size inb_S256x256_S256x256_0_0
abbrev rB3 : Rect S1x256 := Rect.unit (s := S1x256) ![0, 0] S1x256.size inb_S1x256_S1x256_0_0

/-- The output block after the body: its one whole-block store, of the nine input blocks (windows 0–8: the two
    aggregated row blocks, then Wp, bp, Wn, bn, Wfp, Wfn, bf). -/
def out3_9 (x0 x1 : Vec F S5000x256 .f32) (x2 : Vec F S256x256 .f32) (x3 : Vec F S1x256 .f32) (x4 : Vec F S256x256 .f32)
    (x5 : Vec F S1x256 .f32) (x6 x7 : Vec F S256x256 .f32) (x8 : Vec F S1x256 .f32) : Vec F S5000x256 .f32 :=
  View.canon [⟨rA3, k3_pay1 (k3_pay2 (View.ld x0 rA3) (View.ld x1 rA3) (View.ld x2 rW3) (View.ld x4 rW3) (View.ld x3 rB3) (View.ld x5 rB3)
    (View.ld x6 rW3) (View.ld x7 rW3)) (View.ld x8 rB3)⟩]

/-- The one store covers the block. -/
theorem cover3_9 (p0 : Vec F S5000x256 .f32) (y : S5000x256.Idx) :
    ∃ pc ∈ ([⟨rA3, p0⟩] : List (View.Piece (Elt F) S5000x256 .f32)), y ∈ pc.1.set :=
  View.cover_of_tiled [⟨rA3, p0⟩] S5000x256.size (by rfl) y

/-- The proof data of region 3 on core `c`: arrays as found; after the body each input block in place and the output
    block at `out3_9` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t)
        (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) :
    (dat3 V c).after 9 t = out3_9 (iblk3 V c 0 t) (iblk3 V c 1 t) (iblk3 V c 2 t) (iblk3 V c 3 t) (iblk3 V c 4 t) (iblk3 V c 5 t)
        (iblk3 V c 6 t) (iblk3 V c 7 t) (iblk3 V c 8 t) := by dsimp only [dat3]

end Cert.KernelIdeal.Fr

end
-- ==== Proof.KI.Fold.lean ====
/-
  The contents of core `c`'s buffers at every boundary between two items of @main, as a fold from the launch memory:
  a stretch of host operations applies them (`StableHlo.after`); a region leaves each of its arrays at what its
  write-backs have folded into it (`Dat.arrAt … N`) and every other buffer as it was. Read back here: each argument
  array ends as launched (no host operation writes one; region 0 only reads two of them), and each region's output
  array survives to the end.
-/
import proofs.«128425_j26603027432197_1_alg».proof.Proof.Gen.KernelIdeal.Launch
import proofs.«128425_j26603027432197_1_alg».proof.Proof.Gen.KernelIdeal.Skeleton
import proofs.«128425_j26603027432197_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128425_j26603027432197_1_alg».proof.Proof.Gen.KernelIdeal.Regions
import proofs.«128425_j26603027432197_1_alg».proof.Proof.KI.R0Data
import proofs.«128425_j26603027432197_1_alg».proof.Proof.KI.R1Data
import proofs.«128425_j26603027432197_1_alg».proof.Proof.KI.R2Data
import proofs.«128425_j26603027432197_1_alg».proof.Proof.KI.R3Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host stretch before region 0: region 0's entry contents. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer the host stretch before region 0 does not write keeps its contents. -/
theorem W1_of (c : Dev nD) (r : Ref sig .tc) (h : r ∉ hostOps0_W) : W1 m ρ c r = W0 m ρ c r :=
  StableHlo.after_of_writes_sub hostOps0 _ hostOps0_writes h

/-- After the host stretch before region 1: region 1's entry contents. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer the host stretch before region 1 does not write keeps its contents. -/
theorem W3_of (c : Dev nD) (r : Ref sig .tc) (h : r ∉ hostOps1_W) : W3 m ρ c r = W2 m ρ c r :=
  StableHlo.after_of_writes_sub hostOps1 _ hostOps1_writes h

/-- After the host stretch before region 2: region 2's entry contents. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer the host stretch before region 2 does not write keeps its contents. -/
theorem W5_of (c : Dev nD) (r : Ref sig .tc) (h : r ∉ hostOps2_W) : W5 m ρ c r = W4 m ρ c r :=
  StableHlo.after_of_writes_sub hostOps2 _ hostOps2_writes h

/-- After the host stretch before region 3: region 3's entry contents. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A buffer the host stretch before region 3 does not write keeps its contents. -/
theorem W7_of (c : Dev nD) (r : Ref sig .tc) (h : r ∉ hostOps3_W) : W7 m ρ c r = W6 m ρ c r :=
  StableHlo.after_of_writes_sub hostOps3 _ hostOps3_writes h

/-- After the last host stretch (the four layers stacked): the contents @main ends with. -/
abbrev W9 : Dev nD → Valuation τ sig (Elt F) := fun c => StableHlo.after hostOps4 (W8 m ρ c)
theorem W9_of (c : Dev nD) (r : Ref sig .tc) (h : r ∉ hostOps4_W) : W9 m ρ c r = W8 m ρ c r :=
  StableHlo.after_of_writes_sub hostOps4 _ hostOps4_writes h

/-! ## The arguments end as launched -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of m ρ c main_arg5 (by decide)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := (W2_arr m ρ c 1).trans (((dat0 (V1 m ρ) c).arrAt_in 1 rfl _).trans (A_eq0 (V1 m ρ) c 1))
    _ = W0 m ρ c (Proc.devRef .tc main_arg5) := W1_of m ρ c main_arg5 (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of m ρ c main_arg6 (by decide)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of m ρ c main_arg7 (by decide)
    _ = W7 m ρ c (Proc.devRef .tc main_arg7) := W8_of_ne m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of m ρ c main_arg8 (by decide)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_of m ρ c main_arg9 (by decide)
    _ = W7 m ρ c (Proc.devRef .tc main_arg9) := W8_of_ne m ρ c main_arg9 (by decide)
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := W9_of m ρ c main_arg10 (by decide)
    _ = W7 m ρ c (Proc.devRef .tc main_arg10) := W8_of_ne m ρ c main_arg10 (by decide)
    _ = W6 m ρ c (Proc.devRef .tc main_arg10) := W7_of m ρ c main_arg10 (by decide)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := W9_of m ρ c main_arg11 (by decide)
    _ = W7 m ρ c (Proc.devRef .tc main_arg11) := W8_of_ne m ρ c main_arg11 (by decide)
    _ = W6 m ρ c (Proc.devRef .tc main_arg11) := W7_of m ρ c main_arg11 (by decide)
    _ = W5 m ρ c (Proc.devRef .tc main_arg11) := W6_of_ne m ρ c main_arg11 (by decide)
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

theorem W9_main_arg12 (c : Dev nD) : W9 m ρ c (Proc.devRef .tc main_arg12) = m ((c : Thread nD τ).loc main_arg12) :=
  calc W9 m ρ c (Proc.devRef .tc main_arg12)
    _ = W8 m ρ c (Proc.devRef .tc main_arg12) := W9_of m ρ c main_arg12 (by decide)
    _ = W7 m ρ c (Proc.devRef .tc main_arg12) := W8_of_ne m ρ c main_arg12 (by decide)
    _ = W6 m ρ c (Proc.devRef .tc main_arg12) := W7_of m ρ c main_arg12 (by decide)
    _ = W5 m ρ c (Proc.devRef .tc main_arg12) := W6_of_ne m ρ c main_arg12 (by decide)
    _ = W4 m ρ c (Proc.devRef .tc main_arg12) := W5_of m ρ c main_arg12 (by decide)
    _ = W3 m ρ c (Proc.devRef .tc main_arg12) := W4_of_ne m ρ c main_arg12 (by decide)
    _ = W2 m ρ c (Proc.devRef .tc main_arg12) := W3_of m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl

end Cert.KernelIdeal.Fr

end
-- ==== Proof.KI.R0Body.lean ====
/-
  Region 0 (the input projection tanh(x·Wᵀ + b)): the body's triple on whole staging buffers, what the body finds in
  each input window's buffer at a grid point, and the pipeline's body obligation at every point.
-/
import proofs.«128425_j26603027432197_1_alg».proof.Proof.KI.R0Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's staging buffer holds its block at every grid point, whether or not it was fetched there: an
    unfetched window's block index has not moved since the previous point, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every grid point, whether or not it was fetched there: an
    unfetched window's block index has not moved since the previous point, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every grid point, whether or not it was fetched there: an
    unfetched window's block index has not moved since the previous point, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

set_option maxHeartbeats 1000000 in
/-- The body on whole staging buffers, the three inputs' reading `x0 x1 x2` and the output's holding anything, runs to
    the continuation with the inputs' as they were and the output's at `out0_3 x0 x1 x2`: it loads the three input
    blocks whole, reads the output block once (a value it never uses) and stores tanh(x0·x1ᵀ + x2) over the whole
    output block, which that one store covers. -/
theorem sound_kernel0 (c : Dev nD) (E : Set ℕ) (i : grid0.Coords)
    (arg0 : Memref sig .tc .vmem S5000x256 .f32) (harg0 : arg0.IsWhole) (arg1 : Memref sig .tc .vmem S256x256 .f32) (harg1 : arg1.IsWhole)
    (arg2 : Memref sig .tc .vmem S1x256 .f32) (harg2 : arg2.IsWhole) (arg3 : Memref sig .tc .vmem S5000x256 .f32) (harg3 : arg3.IsWhole)
    (x0 : Vec F S5000x256 .f32) (x1 : Vec F S256x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__dense_tanh_kernel i arg0 harg0 arg1 harg1 arg2 harg2 arg3 harg3) K := by
  simp only [cc0__dense_tanh_kernel_eq_skeleton]; unfold cc0__dense_tanh_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The inputs' buffers at a point, for this region's proof data -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's debt, and each window's staging buffer at what
    the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: the same with each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for region 0, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1Body.lean ====
/-
  Region 1 (hop 1's fused update tanh((hp·Wpᵀ + bp)·Wfpᵀ + (hn·Wnᵀ + bn)·Wfnᵀ + bf)): the body's triple on whole staging
  buffers, what the body finds in each of its nine input windows' buffers at a grid point, and the pipeline's body
  obligation at every point.
-/
import proofs.«128425_j26603027432197_1_alg».proof.Proof.KI.R1Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's staging buffer holds its block at every grid point, whether or not it was fetched there: an
    unfetched window's block index has not moved since the previous point, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every grid point, whether or not it was fetched there: an
    unfetched window's block index has not moved since the previous point, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every grid point, whether or not it was fetched there: an
    unfetched window's block index has not moved since the previous point, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every grid point, whether or not it was fetched there: an
    unfetched window's block index has not moved since the previous point, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every grid point, whether or not it was fetched there: an
    unfetched window's block index has not moved since the previous point, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every grid point, whether or not it was fetched there: an
    unfetched window's block index has not moved since the previous point, and the body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every grid point, whether or not it was fetched there: an
    unfetched window's block index has not moved since the previous point, and the body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's staging buffer holds its block at every grid point, whether or not it was fetched there: an
    unfetched window's block index has not moved since the previous point, and the body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's staging buffer holds its block at every grid point, whether or not it was fetched there: an
    unfetched window's block index has not moved since the previous point, and the body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 2000000 in
/-- The body on whole staging buffers, the nine inputs' reading `x0 … x8` and the output's holding anything, runs to the
    continuation with the inputs' as they were and the output's at `out1_9 x0 … x8`: its first part loads the eight
    blocks of windows 0, 1, 2, 4, 3, 5, 6, 7 whole (in that order) and returns the sum of the two projected hops; the
    body then loads the bias row of window 8, reads the output block once (a value it never uses) and stores
    tanh(sum + bias) over the whole output block, which that one store covers. -/
theorem sound_kernel1 (c : Dev nD) (E : Set ℕ) (i : grid1.Coords)
    (arg0 : Memref sig .tc .vmem S5000x256 .f32) (harg0 : arg0.IsWhole) (arg1 : Memref sig .tc .vmem S5000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole)
    (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole)
    (arg9 : Memref sig .tc .vmem S5000x256 .f32) (harg9 : arg9.IsWhole)
    (x0 : Vec F S5000x256 .f32) (x1 : Vec F S5000x256 .f32) (x2 : Vec F S256x256 .f32) (x3 : Vec F S1x256 .f32) (x4 : Vec F S256x256 .f32) (x5 : Vec F S1x256 .f32) (x6 : Vec F S256x256 .f32) (x7 : Vec F S256x256 .f32) (x8 : Vec F S1x256 .f32) (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ (∃ d, owns (c : Thread nD τ) arg9 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare (out1_9 x0 x1 x2 x3 x4 x5 x6 x7 x8)) -∗ K ⟨⟩))
      ⊢ wp frame (wpE (defs₀ (F := F)) Variants.none c none) E (cc1__hop_fuse_kernel i arg0 harg0 arg1 harg1 arg2 harg2 arg3 harg3 arg4 harg4 arg5 harg5 arg6 harg6 arg7 harg7 arg8 harg8 arg9 harg9) K := by
  simp only [cc1__hop_fuse_kernel_eq_skeleton]; unfold cc1__hop_fuse_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The inputs' buffers at a point, for this region's proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`: the invariant, the core's debt, and each window's staging buffer at what
    the pipeline left there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns: the same with each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' buffers hold their blocks, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation for region 1, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.R2Body.lean ====
/-
  Region 2 (hop 2's fused update tanh((hp·Wpᵀ + bp)·Wfpᵀ + (hn·Wnᵀ + bn)·Wfnᵀ + bf)): the body's triple on whole staging
  buffers, what the body finds in each of its nine input windows' buffers at a grid point, and the pipeline's body
  obligation at every point.
-/
import proofs.«128425_j26603027432197_1_alg».proof.Proof.KI.R2Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's staging buffer holds its block at every grid point, whether or not it was fetched there: an
    unfetched window's block index has not moved since the previous point, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every grid point, whether or not it was fetched there: an
    unfetched window's block index has not moved since the previous point, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every grid point, whether or not it was fetched there: an
    unfetched window's block index has not moved since the previous point, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every grid point, whether or not it was fetched there: an
    unfetched window's block index has not moved since the previous point, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every grid point, whether or not it was fetched there: an
    unfetched window's block index has not moved since the previous point, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every grid point, whether or not it was fetched there: an
    unfetched window's block index has not moved since the previous point, and the body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's staging buffer holds its block at every grid point, whether or not it was fetched there: an
    unfetched window's block index has not moved since the previous point, and the body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's staging buffer holds its block at every grid point, whether or not it was fetched there: an
    unfetched window's block index has not moved since the previous point, and the body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's staging buffer holds its block at every grid point, whether or not it was fetched there: an
    unfetched window's block index has not moved since the previous point, and the body leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's triple -/

set_option maxHeartbeats 2000000 in
/-- The body on whole staging buffers, the nine inputs' reading `x0 … x8` and the output's holding anything, runs to the
    continuation with the inputs' as they were and the output's at `out2_9 x0 … x8`: its first part loads the eight
    blocks of windows 0, 1, 2, 4, 3, 5, 6, 7 whole (in that order) and returns the sum of the two projected hops; the
    body then loads the bias row of window 8, reads the output block once (a value it never uses) and stores
    tanh(sum + bias) over the whole output block, which that one store covers. -/
theorem sound_kernel2 (c : Dev nD) (E : Set ℕ) (i : grid2.Coords)
    (arg0 : Memref sig .tc .vmem S5000x256 .f32) (harg0 : arg0.IsWhole) (arg1 : Memref sig .tc .vmem S5000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole)
    (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole)
    (arg9 : Memref sig .tc .vmem S5000x256 .f32) (harg9 : arg9.IsWhole)
    (x0 : Vec F S5000x256 .f32) (x1 : Vec F S5000x256 .f32) (x2 : Vec F S256x256 .f32) (x3 : Vec F S1x256 .f32) (x4 : Vec F S256x256 .f32) (x5 : Vec F S1x256 .f32) (x6 : Vec F S256x256 .f32) (x7 : Vec F S256x256 .f32) (x8 : Vec F S1x256 .f32) (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ (∃ d, owns (c : Thread nD τ) arg9 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare (out2_9 x0 x1 x2 x3 x4 x5 x6 x7 x8)) -∗ K ⟨⟩))
      ⊢ wp frame (wpE (defs₀ (F := F)) Variants.none c none) E (cc2__hop_fuse_kernel i arg0 harg0 arg1 harg1 arg2 harg2 arg3 harg3 arg4 harg4 arg5 harg5 arg6 harg6 arg7 harg7 arg8 harg8 arg9 harg9) K := by
  simp only [cc2__hop_fuse_kernel_eq_skeleton]; unfold cc2__hop_fuse_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The inputs' buffers at a point, for this region's proof data -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t`: the invariant, the core's debt, and each window's staging buffer at what
    the pipeline left there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns: the same with each buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' buffers hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation for region 2, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.R3Body.lean ====
/-
  Region 3 (hop 3's fused update tanh((hp·Wpᵀ + bp)·Wfpᵀ + (hn·Wnᵀ + bn)·Wfnᵀ + bf)): the body's triple on whole staging
  buffers, what the body finds in each of its nine input windows' buffers at a grid point, and the pipeline's body
  obligation at every point.
-/
import proofs.«128425_j26603027432197_1_alg».proof.Proof.KI.R3Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's staging buffer holds its block at every grid point, whether or not it was fetched there: an
    unfetched window's block index has not moved since the previous point, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block at every grid point, whether or not it was fetched there: an
    unfetched window's block index has not moved since the previous point, and the body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds its block at every grid point, whether or not it was fetched there: an
    unfetched window's block index has not moved since the previous point, and the body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds its block at every grid point, whether or not it was fetched there: an
    unfetched window's block index has not moved since the previous point, and the body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's staging buffer holds its block at every grid point, whether or not it was fetched there: an
    unfetched window's block index has not moved since the previous point, and the body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's staging buffer holds its block at every grid point, whether or not it was fetched there: an
    unfetched window's block index has not moved since the previous point, and the body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's staging buffer holds its block at every grid point, whether or not it was fetched there: an
    unfetched window's block index has not moved since the previous point, and the body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's staging buffer holds its block at every grid point, whether or not it was fetched there: an
    unfetched window's block index has not moved since the previous point, and the body leaves the block in place. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- Input window 8's staging buffer holds its block at every grid point, whether or not it was fetched there: an
    unfetched window's block index has not moved since the previous point, and the body leaves the block in place. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The body's triple -/

set_option maxHeartbeats 2000000 in
/-- The body on whole staging buffers, the nine inputs' reading `x0 … x8` and the output's holding anything, runs to the
    continuation with the inputs' as they were and the output's at `out3_9 x0 … x8`: its first part loads the eight
    blocks of windows 0, 1, 2, 4, 3, 5, 6, 7 whole (in that order) and returns the sum of the two projected hops; the
    body then loads the bias row of window 8, reads the output block once (a value it never uses) and stores
    tanh(sum + bias) over the whole output block, which that one store covers. -/
theorem sound_kernel3 (c : Dev nD) (E : Set ℕ) (i : grid3.Coords)
    (arg0 : Memref sig .tc .vmem S5000x256 .f32) (harg0 : arg0.IsWhole) (arg1 : Memref sig .tc .vmem S5000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole)
    (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole)
    (arg9 : Memref sig .tc .vmem S5000x256 .f32) (harg9 : arg9.IsWhole)
    (x0 : Vec F S5000x256 .f32) (x1 : Vec F S5000x256 .f32) (x2 : Vec F S256x256 .f32) (x3 : Vec F S1x256 .f32) (x4 : Vec F S256x256 .f32) (x5 : Vec F S1x256 .f32) (x6 : Vec F S256x256 .f32) (x7 : Vec F S256x256 .f32) (x8 : Vec F S1x256 .f32) (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ (∃ d, owns (c : Thread nD τ) arg9 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare (out3_9 x0 x1 x2 x3 x4 x5 x6 x7 x8)) -∗ K ⟨⟩))
      ⊢ wp frame (wpE (defs₀ (F := F)) Variants.none c none) E (cc3__hop_fuse_kernel i arg0 harg0 arg1 harg1 arg2 harg2 arg3 harg3 arg4 harg4 arg5 harg5 arg6 harg6 arg7 harg7 arg8 harg8 arg9 harg9) K := by
  simp only [cc3__hop_fuse_kernel_eq_skeleton]; unfold cc3__hop_fuse_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover3_9 _)

/-! ## The inputs' buffers at a point, for this region's proof data -/

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The body obligation, at a generic point -/

/-- What the body is called with at point `t`: the invariant, the core's debt, and each window's staging buffer at what
    the pipeline left there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns: the same with each buffer at what the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' buffers hold their blocks, so the body's triple applies; the invariant and the
    core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation for region 3, at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Main.lean ====
/-
  The run of @main: its nine items — five stretches of host operations and the four kernel regions between them — as
  the list of segments the launch theorem takes. Between two items core `c` holds every unscoped buffer whole at the
  boundary's contents (`W0` … `W9`), its generator register at some state, and owes nothing. A host stretch moves
  the contents by `StableHlo.after`; a region splits its arrays out of the buffers, runs its pipeline over them from the
  proof data at the entry contents, and puts them back at what the write-backs leave. The launch then says: every weakly
  fair execution terminates and every final memory holds each unscoped buffer at `W9`; read at the argument arrays,
  each ends as launched.
-/
import proofs.«128425_j26603027432197_1_alg».proof.Proof.KI.Fold
import proofs.«128425_j26603027432197_1_alg».proof.Proof.KI.R0Body
import proofs.«128425_j26603027432197_1_alg».proof.Proof.KI.R1Body
import proofs.«128425_j26603027432197_1_alg».proof.Proof.KI.R2Body
import proofs.«128425_j26603027432197_1_alg».proof.Proof.KI.R3Body

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm

/-- Every pipeline's proof data, each at its region's entry contents: a literal `match`, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)

/-- A host stretch as a segment over the unscoped references from the contents `W`, `R` riding along: it leaves those
    references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last boundary's contents `W9`, the generator
    register at some state. -/
abbrev Tₙ (c : Dev nD) : sProp 𝕄 := iprop(StableHlo.held (c : Thread nD τ) (Pipeline.ucRefs τ sig) (W9 m ρ c) ∗ ∃ r, prngReg c r)

/-- The last link of the chain: the last host stretch leaves the buffers at `W9` beside `R c`; re-associated, that is
    the last thread state beside the core owing nothing. -/
theorem last_link (c : Dev nD) :
    (iprop(StableHlo.held (c : Thread nD τ) (Pipeline.ucRefs τ sig) (W9 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

/-! ## The regions as segments

Each is stated from the body's triple at the region's entry contents (`hbK`: at every grid point the body, run on the
staged blocks, leaves the output block at what the proof data say). -/

set_option backward.isDefEq.respectTransparency.types false in
/-- Region 0 (custom call 0) over the thread state: entered from every unscoped buffer at `W1`, left at `W2`,
    which the next host stretch is entered from. Its arrays are split out of the unscoped buffers on entry and put back
    at the exit contents; the generator register goes into the pipeline's invariant and comes back; nothing is owed;
    the kernel has no semaphore of its own. -/
def reg0 (hb0 : ∀ (V : (c : Dev nD) → (b : Ref sig .tc) → Buf (Elt F) ((c : Thread nD τ).loc b)) (c : Dev nD), BodyObligation (dat0 (F := F) V c) (defs₀ (F := F)) Variants.none () Set.univ) :
    Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (custom call 1) over the thread state: entered from every unscoped buffer at `W3`, left at `W4`,
    which the next host stretch is entered from. Its arrays are split out of the unscoped buffers on entry and put back
    at the exit contents; the generator register goes into the pipeline's invariant and comes back; nothing is owed;
    the kernel has no semaphore of its own. -/
def reg1 (hb1 : ∀ (V : (c : Dev nD) → (b : Ref sig .tc) → Buf (Elt F) ((c : Thread nD τ).loc b)) (c : Dev nD), BodyObligation (dat1 (F := F) V c) (defs₀ (F := F)) Variants.none () Set.univ) :
    Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (custom call 2) over the thread state: entered from every unscoped buffer at `W5`, left at `W6`,
    which the next host stretch is entered from. Its arrays are split out of the unscoped buffers on entry and put back
    at the exit contents; the generator register goes into the pipeline's invariant and comes back; nothing is owed;
    the kernel has no semaphore of its own. -/
def reg2 (hb2 : ∀ (V : (c : Dev nD) → (b : Ref sig .tc) → Buf (Elt F) ((c : Thread nD τ).loc b)) (c : Dev nD), BodyObligation (dat2 (F := F) V c) (defs₀ (F := F)) Variants.none () Set.univ) :
    Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (hb2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (custom call 3) over the thread state: entered from every unscoped buffer at `W7`, left at `W8`,
    which the next host stretch is entered from. Its arrays are split out of the unscoped buffers on entry and put back
    at the exit contents; the generator register goes into the pipeline's invariant and comes back; nothing is owed;
    the kernel has no semaphore of its own. -/
def reg3 (hb3 : ∀ (V : (c : Dev nD) → (b : Ref sig .tc) → Buf (Elt F) ((c : Thread nD τ).loc b)) (c : Dev nD), BodyObligation (dat3 (F := F) V c) (defs₀ (F := F)) Variants.none () Set.univ) :
    Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (hb3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order: a host segment per stretch from its boundary's contents, a region per kernel call. -/
abbrev segs
    (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ)
    (hb3 : ∀ (V : (c : Dev nD) → (b : Ref sig .tc) → Buf (Elt F) ((c : Thread nD τ).loc b)) (c : Dev nD), BodyObligation (dat3 (F := F) V c) (defs₀ (F := F)) Variants.none () Set.univ) :
    List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .region (reg1 m ρ hb1),
    .host (hseg hostOps2 hostOps2_sub hostOps2_fresh (W4 m ρ)),
    .region (reg2 m ρ hb2),
    .host (hseg hostOps3 hostOps3_sub hostOps3_fresh (W6 m ρ)),
    .region (reg3 m ρ hb3),
    .host (hseg hostOps4 hostOps4_sub hostOps4_fresh (W8 m ρ)) ]

/-- @main is the run of the segments: it is the chain of its nine items, and the segments' run is the chain of their
    programs, which are those items. -/
theorem main_run
    (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ)
    (hb3 : ∀ (V : (c : Dev nD) → (b : Ref sig .tc) → Buf (Elt F) ((c : Thread nD τ).loc b)) (c : Dev nD), BodyObligation (dat3 (F := F) V c) (defs₀ (F := F)) Variants.none () Set.univ)
    (c : Dev nD) : main (F := F) c = Pipeline.Seg.run (segs m ρ hb0 hb1 hb2 hb3) :=
  (main_chain c).trans (by rewrite [Pipeline.Seg.run_eq_chain]; chain_rfl)

set_option backward.isDefEq.respectTransparency.types false in
/-- THE RUN, given the four bodies' triples. From any memory with zero counters, every weakly fair execution of @main
    on the TensorCores terminates, nothing faulting, and in every final memory each unscoped buffer of each core holds
    the last boundary's contents `W9`: the launch over the segments, the thread states chaining by name (the last link
    re-associates the separating conjunction), the last thread state read against the final state. -/
theorem run_main_of
    (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ)
    (hb3 : ∀ (V : (c : Dev nD) → (b : Ref sig .tc) → Buf (Elt F) ((c : Thread nD τ).loc b)) (c : Dev nD), BodyObligation (dat3 (F := F) V c) (defs₀ (F := F)) Variants.none () Set.univ) :
    θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ hb0 hb1 hb2 hb3)
    (fun c Q => by rw [main_run m ρ hb0 hb1 hb2 hb3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME, given the four bodies' triples: every weakly fair execution of @main terminates and every final memory
    has each argument array as launched — the run, each argument's buffer read back through the boundaries to the
    launch memory. -/
theorem frame_of
    (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ)
    (hb3 : ∀ (V : (c : Dev nD) → (b : Ref sig .tc) → Buf (Elt F) ((c : Thread nD τ).loc b)) (c : Dev nD), BodyObligation (dat3 (F := F) V c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (Q := fun r => ∀ c : Dev nD, ∀ b ∈ Pipeline.ucRefs τ sig, r.2.mem (((c : Thread nD τ)).1, b) = W9 m ρ c b) (fun r h c =>
    ⟨(h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c),
      (h c _ (mem_uc main_arg11 (by decide))).trans (W9_main_arg11 m ρ c),
      (h c _ (mem_uc main_arg12 (by decide))).trans (W9_main_arg12 m ρ c)⟩)
    (run_main_of m ρ hb0 hb1 hb2 hb3)

/-! ## The run and the frame, the four bodies' triples supplied -/

/-- THE RUN: from any memory with zero counters, every weakly fair execution of @main on the TensorCores terminates,
    nothing faulting, and in every final memory each unscoped buffer of each core holds the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  run_main_of m ρ body_obligation0 body_obligation1 body_obligation2 body_obligation3

/-- THE FRAME: every weakly fair execution of @main terminates and every final memory has each argument array as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ body_obligation0 body_obligation1 body_obligation2 body_obligation3

end Cert.KernelIdeal.Fr

end
-- ==== Proof.Assemble.lean ====
/-
  The five claims from their parts. The two kernel programs' frames are their runs over the four regions; the
  reference's frame is its run with the result dropped; nothing was rewritten between the kernel program and its copy read at the ideal values; and
  the two programs read at the ideal values end with equal results once the kernel program's last buffer contents are shown to be the
  reference's composed term of arguments that agree (`hres`, proved in the bridge).
-/
import proofs.«128425_j26603027432197_1_alg».proof.Defs
import proofs.«128425_j26603027432197_1_alg».proof.Proof.K.Main
import proofs.«128425_j26603027432197_1_alg».proof.Proof.KI.Main
import proofs.«128425_j26603027432197_1_alg».proof.Proof.Gen.ReferenceIdeal.Run
import proofs.«128425_j26603027432197_1_alg».proof.Proof.Gen.Pre_finite_inputs

set_option maxRecDepth 16384

noncomputable section

namespace Cert.Assemble

open Idealize.ShloMosaic Idealize.ShloMosaic.TcCoe Idealize.SL.Sem

/-- The arguments of the two programs read at the ideal values agree on device `c`. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Fr in
/-- Both programs read at the ideal values run, and end with the same result, given that the kernel program's final contents of its
    result buffer are the reference's term. -/
theorem algebraic_of
    (hres : ∀ (m : (ℓ : Loc Cert.KernelIdeal.nD Cert.KernelIdeal.τ Cert.KernelIdeal.sig) → Buf (Elt Ideal) ℓ) (ρ : Dev Cert.KernelIdeal.nD → PrngReg)
      (m' : (ℓ : Loc Cert.ReferenceIdeal.nD Cert.ReferenceIdeal.τ Cert.ReferenceIdeal.sig) → Buf (Elt Ideal) ℓ) (c : Dev Cert.KernelIdeal.nD),
      Agree m m' c →
      Cert.KernelIdeal.Fr.W9 m ρ c (Proc.devRef .tc Cert.KernelIdeal.main_v162)
        = Cert.ReferenceIdeal.Value.res_main_v199 (F := Ideal) (StableHlo.launchContents m' c)) :
    Cert.algebraic_KernelIdeal_ReferenceIdeal := by
  intro m ρ m' ρ' _ hagree
  refine ⟨fun c => Cert.KernelIdeal.Fr.W9 m ρ c (Proc.devRef .tc Cert.KernelIdeal.main_v162), ?_, ?_⟩
  · refine (θ_run Cert.KernelIdeal.defs _ _).mono (fun r h c => ?_) (Cert.KernelIdeal.Fr.run_main m ρ)
    exact ⟨h c _ (mem_uc main_v162 (by decide)),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c),
      (h c _ (mem_uc main_arg11 (by decide))).trans (W9_main_arg11 m ρ c),
      (h c _ (mem_uc main_arg12 (by decide))).trans (W9_main_arg12 m ρ c)⟩
  · refine (θ_run Cert.ReferenceIdeal.defs _ _).mono (fun r h c => ⟨(h c).1.trans (hres m ρ m' c (hagree c)).symm, (h c).2⟩)
      (Cert.ReferenceIdeal.Value.run (F := Ideal) m' ρ')

end Cert.Assemble

end
-- ==== Proof.KI.Final0.lean ====
/-
  Region 0's output array after its ten grid points: point t writes back rows 5000·t … 5000·t + 4999, so the
  blocks tile the 50000 rows and the array ends as ONE function of the arrays the region was entered with — at row r
  the body's result block of the input blocks at point r / 5000, read at row r % 5000.
-/
import proofs.«128425_j26603027432197_1_alg».proof.Proof.KI.R0Data
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

theorem hz2 : (![0, 0] : Fin 2 → Nat) = fun _ => 0 := funext fun a => by fin_cases a <;> rfl

/-- The grid point whose row block holds row `r`. -/
def pt0 (i : S50000x256.Idx) : Fin cfg0.N := ⟨(i 0).val / 5000, by show (i 0).val / 5000 < grid0.N; rw [N_0]; have : (i 0).val < 50000 := (i 0).isLt; omega⟩

theorem pt0_val (i : S50000x256.Idx) : (pt0 i).val = (i 0).val / 5000 := rfl

/-- Row `r` inside its block. -/
def loc0 (i : S50000x256.Idx) : S5000x256.Idx := ix2 (⟨(i 0).val % 5000, Nat.mod_lt _ (by decide)⟩ : Fin 5000) (i 1)

/-- What the output array ends holding: at (r, q) the body's result of the blocks at point r / 5000, at (r % 5000, q). -/
def G0 (c : Dev nD) : S50000x256.Idx → Elt F .f32 := fun i =>
  out0_3 (iblk0 V c 0 (pt0 i)) (iblk0 V c 1 (pt0 i)) (iblk0 V c 2 (pt0 i)) (loc0 i)

/-- The printed index maps, decided over the grid: the row windows sit at block (t, 0), the weight and bias at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Reading a whole-array function through point `t`'s output block is the function at the block element's position. -/
theorem read_blk0 (t : Fin cfg0.N) (G : S50000x256.Idx → Elt F .f32) (j : ((cfg0.win 3).xblock (grid0.coords t)).Idx) :
    ((cfg0.win 3).blk t).view.read (Elt F) G j = G (((cfg0.win 3).blk t).view.emb j) := rfl

/-- What point `t` writes back is block `t` of `G0`. -/
theorem flushed0 (c : Dev nD) (t : Fin cfg0.N) :
    (dat0 V c).flushed 3 t = ((cfg0.win 3).blk t).view.read (Elt F) (G0 V c) := by
  show (cfg0.win 3).cut (grid0.coords t) ((dat0 V c).after 3 t) = _
  rw [after0_3]
  funext j
  refine (show (cfg0.win 3).cut (grid0.coords t) (out0_3 (iblk0 V c 0 t) (iblk0 V c 1 t) (iblk0 V c 2 t)) j
      = out0_3 (iblk0 V c 0 t) (iblk0 V c 1 t) (iblk0 V c 2 t) ((cfg0.win 3).xinj (grid0.coords t) j) from rfl).trans ?_
  rw [read_blk0]
  obtain ⟨-, -, -, -, -, -, e6, e7⟩ := idx0 t
  have hj0 : (j 0).val < 5000 := (j 0).isLt
  have hj1 : (j 1).val < 256 := (j 1).isLt
  have v0 : ((((cfg0.win 3).blk t).view.emb j) 0).val = win0_3.index t (0 : Fin 2) * 5000 + (j 0).val := (cfg0.win 3).rect_emb_val t j 0
  have v1 : ((((cfg0.win 3).blk t).view.emb j) 1).val = win0_3.index t (1 : Fin 2) * 256 + (j 1).val := (cfg0.win 3).rect_emb_val t j 1
  have hpt : pt0 (((cfg0.win 3).blk t).view.emb j) = t := Fin.ext (by rw [pt0_val, v0, e6]; omega)
  have hloc : loc0 (((cfg0.win 3).blk t).view.emb j) = (cfg0.win 3).xinj (grid0.coords t) j := by
    funext a; apply Fin.ext
    match a with
    | ⟨0, _⟩ => show ((((cfg0.win 3).blk t).view.emb j) 0).val % 5000 = (j 0).val; rw [v0, e6]; omega
    | ⟨1, _⟩ => show ((((cfg0.win 3).blk t).view.emb j) 1).val = (j 1).val; rw [v1, e7]; omega
  unfold G0
  rw [hpt, hloc]

/-- An index of the array is in point `t`'s block iff each coordinate is in the block's range on its axis. -/
theorem mem_blk0 (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v1).slice (win0_3.rect t)).set ↔ _
  rw [View.set_slice_whole, Rect.mem_set_unit]
  exact Iff.rfl

/-- Every row is in the block of the point r / 5000. -/
theorem cover0 (i : S50000x256.Idx) : ∃ t : Fin cfg0.N, (cfg0.win 3).flush t = true ∧ i ∈ ((cfg0.win 3).blk t).view.set := by
  refine ⟨pt0 i, flush0_3 _, ?_⟩
  rw [mem_blk0]
  obtain ⟨-, -, -, -, -, -, e6, e7⟩ := idx0 (pt0 i)
  have hi0 : (i 0).val < 50000 := (i 0).isLt
  have hi1 : (i 1).val < 256 := (i 1).isLt
  intro a
  match a with
  | ⟨0, _⟩ =>
    show win0_3.index (pt0 i) (0 : Fin 2) * 5000 ≤ (i 0).val ∧ (i 0).val < win0_3.index (pt0 i) (0 : Fin 2) * 5000 + 5000
    rw [e6, pt0_val]; omega
  | ⟨1, _⟩ =>
    show win0_3.index (pt0 i) (1 : Fin 2) * 256 ≤ (i 1).val ∧ (i 1).val < win0_3.index (pt0 i) (1 : Fin 2) * 256 + 256
    rw [e7]; omega

/-- The output array after the region. -/
theorem final0 (c : Dev nD) : (dat0 V c).arrAt 3 cfg0.N = G0 V c :=
  (dat0 V c).arrAt_eq_of_cover 3 (G0 V c) (fun t _ => flushed0 V c t) cover0

/-! ## The input blocks read at an entry -/

theorem iblk0_0 (c : Dev nD) (t : Fin cfg0.N) (p : Fin 5000) (l : Fin 256) (r : Fin 50000) (hr : r.val = t.val * 5000 + p.val) :
    iblk0 V c 0 t (ix2 p l) = V c main_arg0 (ix2 r l) := by
  obtain ⟨e0, e1, -, -, -, -, -, -⟩ := idx0 t
  show V c main_arg0 (((cfg0.win 0).blk t).view.emb (ix2 p l)) = V c main_arg0 (ix2 r l)
  refine congrArg (V c main_arg0) ?_
  funext a; apply Fin.ext
  match a with
  | ⟨0, _⟩ => show win0_0.index t (0 : Fin 2) * 5000 + 1 * p.val = r.val; rw [e0]; omega
  | ⟨1, _⟩ => show win0_0.index t (1 : Fin 2) * 256 + 1 * l.val = l.val; rw [e1]; omega

theorem iblk0_1 (c : Dev nD) (t : Fin cfg0.N) (k l : Fin 256) :
    iblk0 V c 1 t (ix2 k l) = V c main_arg5 (ix2 k l) := by
  obtain ⟨-, -, e2, e3, -, -, -, -⟩ := idx0 t
  show V c main_arg5 (((cfg0.win 1).blk t).view.emb (ix2 k l)) = V c main_arg5 (ix2 k l)
  refine congrArg (V c main_arg5) ?_
  funext a; apply Fin.ext
  match a with
  | ⟨0, _⟩ => show win0_1.index t (0 : Fin 2) * 256 + 1 * k.val = k.val; rw [e2]; omega
  | ⟨1, _⟩ => show win0_1.index t (1 : Fin 2) * 256 + 1 * l.val = l.val; rw [e3]; omega

theorem iblk0_2 (c : Dev nD) (t : Fin cfg0.N) (z : Fin 1) (l : Fin 256) :
    iblk0 V c 2 t (ix2 z l) = V c main_v0 (ix2 z l) := by
  obtain ⟨-, -, -, -, e4, e5, -, -⟩ := idx0 t
  show V c main_v0 (((cfg0.win 2).blk t).view.emb (ix2 z l)) = V c main_v0 (ix2 z l)
  refine congrArg (V c main_v0) ?_
  funext a; apply Fin.ext
  match a with
  | ⟨0, _⟩ => show win0_2.index t (0 : Fin 2) * 1 + 1 * z.val = z.val; rw [e4]; omega
  | ⟨1, _⟩ => show win0_2.index t (1 : Fin 2) * 256 + 1 * l.val = l.val; rw [e5]; omega

/-- The body's result block is its payload of the three input blocks (each access is a whole block). -/
theorem out0_3_eq (x0 : Vec F S5000x256 .f32) (x1 : Vec F S256x256 .f32) (x2 : Vec F S1x256 .f32) :
    out0_3 x0 x1 x2 = k0_pay1 x0 x1 x2 := by
  unfold out0_3
  rw [View.canon_unit_zero hz2]
  simp only [View.ld_unit_zero (S := S5000x256) hz2, View.ld_unit_zero (S := S256x256) hz2, View.ld_unit_zero (S := S1x256) hz2]

end Cert.KernelIdeal.Fr

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.LibTransposedLayer.lean ====
/-
  An affine layer whose weight is stored transposed, read at one entry, at the ideal values.

  For an R×K matrix X, an N×K matrix W (one row per output feature) and a bias b the layer is

      (X · Wᵀ + b)(p, q) = (∑ c, X(p, c) · W(q, c)) + b(q)

  in the extended reals. The transpose of W holds at (c, q) what W holds at (q, c); the product of X with it, on
  the matrix unit into the zero accumulator or as the host's general dot product with the plain dimension
  numbers, is at (p, q) the sum over the contracted coordinate c of X(p, c) · W(q, c). Nothing but the renaming
  of the contraction index by its one coordinate is used, so no finiteness is asked.

  Two spellings of the layer are read here at an entry:

    * a kernel's: both operands after a change of float format (the identity on ideal values), the weight
      transposed after it; the bias a 1×N row, re-cast to its own shape, copied to every row and added;
    * a host's: the weight transposed; the bias a length-N vector broadcast to a 1×N row and then to every row,
      and added; and the same under the hyperbolic tangent.

  The dimension record of either product may be any record equal to the plain one (for a record written out with
  those lists the equality is `rfl`); N ≠ 1 so that the row's own axis is not one that a broadcast copies.
-/
import Idealize.ShloMosaic.PureOps.Ideal.Laws
import Idealize.ShloMosaic.Lib.Pipeline.Value
import Idealize.ShloMosaic.Lib.ValueIdx
import proofs.«128425_j26603027432197_1_alg».proof.Proof.LibPlainDot
import proofs.«128425_j26603027432197_1_alg».proof.Proof.LibRowVector
import proofs.«128425_j26603027432197_1_alg».proof.Proof.LibRowInDim
import proofs.«128425_j26603027432197_1_alg».proof.Proof.LibRowOfVector

noncomputable section

open scoped BigOperators

namespace Cert.TransposedLayer

open Idealize.ShloMosaic Idealize.ShloMosaic.ValueIdx

variable {R K N : Nat}

/-- The transpose of an N×K matrix, at (c, q): the matrix at (q, c). -/
theorem transpose_ix2 {α : Type} (W : (⟨2, ![N, K]⟩ : Shape).Idx → α)
    (h : (⟨2, ![N, K]⟩ : Shape).Transposes [1, 0] ⟨2, ![K, N]⟩) (c : Fin K) (q : Fin N) :
    transpose ⟨2, ![K, N]⟩ [1, 0] W h (ix2 c q) = W (ix2 q c) :=
  transpose_apply [1, 0] W h (ix2 c q) (ix2 q c) (fun b => match b with
    | ⟨0, _⟩ => rfl
    | ⟨1, _⟩ => rfl)

/-- The product on the matrix unit, into the zero accumulator, of X with the transpose of W, at (p, q):
    the sum over c of X(p, c) · W(q, c). -/
theorem matmul_transposed_apply {φ₁ φ₂ : FTy} (D : DotDims ⟨2, ![R, K]⟩ ⟨2, ![K, N]⟩ ⟨2, ![R, N]⟩)
    (hD : D = DotDims.plain R K N) (prec : Option ContractPrecision) (X : FVec Ideal ⟨2, ![R, K]⟩ φ₁)
    (W : FVec Ideal ⟨2, ![N, K]⟩ φ₂) (htr : (⟨2, ![N, K]⟩ : Shape).Transposes [1, 0] ⟨2, ![K, N]⟩)
    (p : Fin R) (q : Fin N) :
    matmul D prec X (transpose ⟨2, ![K, N]⟩ [1, 0] W htr) (constant (F := Ideal) ⟨2, ![R, N]⟩ .f32 0x00000000#32) (ix2 p q)
      = ∑ c : Fin K, X (ix2 p c) * W (ix2 q c) := by
  refine (PlainDot.matmul_zero_apply D hD prec X (transpose ⟨2, ![K, N]⟩ [1, 0] W htr) p q).trans ?_
  refine Finset.sum_congr rfl fun c _ => ?_
  rw [transpose_ix2]

/-- The host's general dot product of X with the transpose of W, at (r, q): the same sum. -/
theorem dotGeneral_transposed_apply {φ₁ φ₂ : FTy} (D : DotDims ⟨2, ![R, K]⟩ ⟨2, ![K, N]⟩ ⟨2, ![R, N]⟩)
    (hD : D = DotDims.plain R K N) (prec : Option ContractPrecision) (X : FVec Ideal ⟨2, ![R, K]⟩ φ₁)
    (W : FVec Ideal ⟨2, ![N, K]⟩ φ₂) (htr : (⟨2, ![N, K]⟩ : Shape).Transposes [1, 0] ⟨2, ![K, N]⟩)
    (r : Fin R) (q : Fin N) :
    Host.dotGeneral D prec X (transpose ⟨2, ![K, N]⟩ [1, 0] W htr) (ix2 r q)
      = ∑ c : Fin K, X (ix2 r c) * W (ix2 q c) := by
  refine (PlainDot.dotGeneral_apply D hD prec .single X (transpose ⟨2, ![K, N]⟩ [1, 0] W htr) r q).trans ?_
  refine Finset.sum_congr rfl fun c _ => ?_
  rw [transpose_ix2]

/-- A 1×N row re-cast to its own shape and copied to every row of an R×N matrix, at (p, q): the row at (0, q). -/
theorem broadcastTo_cast_row {α : Type} (hN : N ≠ 1) (brow : (⟨2, ![1, N]⟩ : Shape).Idx → α)
    (hsc : (⟨2, ![1, N]⟩ : Shape).ShapeCasts ⟨2, ![1, N]⟩) (hbc : (⟨2, ![1, N]⟩ : Shape).Broadcasts ⟨2, ![R, N]⟩)
    (p : Fin R) (q : Fin N) :
    broadcastTo ⟨2, ![R, N]⟩ (shapeCast ⟨2, ![1, N]⟩ brow hsc) hbc (ix2 p q) = brow (ix2 0 q) := by
  rw [RowVector.broadcastTo_row hN, shapeCast_self]

/-- A kernel's spelling of the layer, at entry (p, q). -/
theorem kernel_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![N, K]⟩ .f32)
    (brow : FVec Ideal ⟨2, ![1, N]⟩ .f32) (hlt : FTy.bf16.bits < FTy.f32.bits)
    (htr : (⟨2, ![N, K]⟩ : Shape).Transposes [1, 0] ⟨2, ![K, N]⟩)
    (hsc : (⟨2, ![1, N]⟩ : Shape).ShapeCasts ⟨2, ![1, N]⟩) (hbc : (⟨2, ![1, N]⟩ : Shape).Broadcasts ⟨2, ![R, N]⟩)
    (p : Fin R) (q : Fin N) :
    addf (matmul D prec (truncf .bf16 X hlt) (transpose ⟨2, ![K, N]⟩ [1, 0] (truncf .bf16 W hlt) htr)
          (constant (F := Ideal) ⟨2, ![R, N]⟩ .f32 0x00000000#32))
        (broadcastTo ⟨2, ![R, N]⟩ (shapeCast ⟨2, ![1, N]⟩ brow hsc) hbc) (ix2 p q)
      = (∑ c : Fin K, X (ix2 p c) * W (ix2 q c)) + brow (ix2 0 q) := by
  show matmul D prec (truncf .bf16 X hlt) (transpose ⟨2, ![K, N]⟩ [1, 0] (truncf .bf16 W hlt) htr)
        (constant (F := Ideal) ⟨2, ![R, N]⟩ .f32 0x00000000#32) (ix2 p q)
      + broadcastTo ⟨2, ![R, N]⟩ (shapeCast ⟨2, ![1, N]⟩ brow hsc) hbc (ix2 p q) = _
  rw [broadcastTo_cast_row hN]
  exact congrArg (· + brow (ix2 0 q))
    (matmul_transposed_apply D hD prec (truncf .bf16 X hlt) (truncf .bf16 W hlt) htr p q)

/-- The same with both operands first re-cast to their own shapes. -/
theorem kernel_cast_apply (D : DotDims ⟨2, ![R, K]⟩ ⟨2, ![K, N]⟩ ⟨2, ![R, N]⟩) (hD : D = DotDims.plain R K N)
    (hN : N ≠ 1) (prec : Option ContractPrecision) (X : FVec Ideal ⟨2, ![R, K]⟩ .f32) (W : FVec Ideal ⟨2, ![N, K]⟩ .f32)
    (brow : FVec Ideal ⟨2, ![1, N]⟩ .f32) (hlt : FTy.bf16.bits < FTy.f32.bits)
    (hX : (⟨2, ![R, K]⟩ : Shape).ShapeCasts ⟨2, ![R, K]⟩) (hW : (⟨2, ![N, K]⟩ : Shape).ShapeCasts ⟨2, ![N, K]⟩)
    (htr : (⟨2, ![N, K]⟩ : Shape).Transposes [1, 0] ⟨2, ![K, N]⟩)
    (hsc : (⟨2, ![1, N]⟩ : Shape).ShapeCasts ⟨2, ![1, N]⟩) (hbc : (⟨2, ![1, N]⟩ : Shape).Broadcasts ⟨2, ![R, N]⟩)
    (p : Fin R) (q : Fin N) :
    addf (matmul D prec (truncf .bf16 (shapeCast ⟨2, ![R, K]⟩ X hX) hlt)
          (transpose ⟨2, ![K, N]⟩ [1, 0] (truncf .bf16 (shapeCast ⟨2, ![N, K]⟩ W hW) hlt) htr)
          (constant (F := Ideal) ⟨2, ![R, N]⟩ .f32 0x00000000#32))
        (broadcastTo ⟨2, ![R, N]⟩ (shapeCast ⟨2, ![1, N]⟩ brow hsc) hbc) (ix2 p q)
      = (∑ c : Fin K, X (ix2 p c) * W (ix2 q c)) + brow (ix2 0 q) := by
  rw [shapeCast_self X hX, shapeCast_self W hW]
  exact kernel_apply D hD hN prec X W brow hlt htr hsc hbc p q

/-- A host's spelling of the layer, at entry (r, q). -/
theorem host_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![N, K]⟩ .f32)
    (b : FVec Ideal ⟨1, ![N]⟩ .f32) (htr : (⟨2, ![N, K]⟩ : Shape).Transposes [1, 0] ⟨2, ![K, N]⟩)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (r : Fin R) (q : Fin N) :
    addf (Host.dotGeneral D prec X (transpose ⟨2, ![K, N]⟩ [1, 0] W htr))
        (broadcastInDim ⟨2, ![R, N]⟩ ![0, 1] h2 (broadcastInDim ⟨2, ![1, N]⟩ ![1] h1 b)) (ix2 r q)
      = (∑ c : Fin K, X (ix2 r c) * W (ix2 q c)) + b (ix1 q) := by
  show Host.dotGeneral D prec X (transpose ⟨2, ![K, N]⟩ [1, 0] W htr) (ix2 r q)
      + broadcastInDim ⟨2, ![R, N]⟩ ![0, 1] h2 (broadcastInDim ⟨2, ![1, N]⟩ ![1] h1 b) (ix2 r q) = _
  rw [RowInDim.broadcastInDim_rows hN, RowOfVector.broadcastInDim_row hN, dotGeneral_transposed_apply D hD]

/-- A host's spelling of the layer under the hyperbolic tangent, at entry (r, q). -/
theorem host_tanh_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![N, K]⟩ .f32)
    (b : FVec Ideal ⟨1, ![N]⟩ .f32) (htr : (⟨2, ![N, K]⟩ : Shape).Transposes [1, 0] ⟨2, ![K, N]⟩)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (r : Fin R) (q : Fin N) :
    Host.tanh (addf (Host.dotGeneral D prec X (transpose ⟨2, ![K, N]⟩ [1, 0] W htr))
        (broadcastInDim ⟨2, ![R, N]⟩ ![0, 1] h2 (broadcastInDim ⟨2, ![1, N]⟩ ![1] h1 b))) (ix2 r q)
      = Ideal.tanh ((∑ c : Fin K, X (ix2 r c) * W (ix2 q c)) + b (ix1 q)) :=
  congrArg Ideal.tanh (host_apply D hD hN prec X W b htr h1 h2 r q)

end Cert.TransposedLayer

end
-- ==== Proof.LibFusedHop.lean ====
/-
  A fused hop layer read at one entry, at the ideal values.

  Two R×M arrays P and N are each multiplied by its own N×M weight stored transposed, the two products are added
  and a bias is added to the sum, under the hyperbolic tangent:

      tanh((P · Wfpᵀ + N · Wfnᵀ) + bf)(p, q)
        = tanh(((∑ k, P(p, k) · Wfp(q, k)) + (∑ k, N(p, k) · Wfn(q, k))) + bf(q))

  in the extended reals. Two spellings are read here at an entry:

    * a kernel's, where P and N are themselves affine layers with transposed weights, P = hp · Wpᵀ + bp and
      N = hn · Wnᵀ + bn (biases 1×M rows), each of the two products is taken on the matrix unit into the zero
      accumulator, and bf is a row copied to every row;
    * a host's, where P and N are joined side by side into one R×(M+M) array and multiplied by ONE N×(M+M) weight
      Wf stored transposed: the sum over the M+M contracted coordinates splits into the sum over the first M, which
      read P and the columns k of Wf, and the sum over the last M, which read N and the columns M + k of Wf.

  The extended reals are an additive commutative monoid, so the split of the sum asks no finiteness; no product is
  distributed over a sum anywhere.

  The dimension record of a product may be any record equal to the plain one; the lengths M ≠ 1 and N ≠ 1 so that
  a row's own axis is not one that a broadcast copies.
-/
import Idealize.ShloMosaic.PureOps.Ideal.Laws
import Idealize.ShloMosaic.Lib.Pipeline.Value
import Idealize.ShloMosaic.Lib.ValueIdx
import proofs.«128425_j26603027432197_1_alg».proof.Proof.LibTransposedLayer

noncomputable section

open scoped BigOperators

namespace Cert.FusedHop

open Idealize.ShloMosaic Idealize.ShloMosaic.ValueIdx

variable {R K M N : Nat}

/-! ### A kernel's spelling -/

/-- One branch: an affine layer with transposed weight (operands re-cast to their own shapes), multiplied on the
    matrix unit by a second transposed weight, at (p, q). -/
theorem kernel_branch_apply (D1 : DotDims ⟨2, ![R, K]⟩ ⟨2, ![K, M]⟩ ⟨2, ![R, M]⟩) (hD1 : D1 = DotDims.plain R K M)
    (D2 : DotDims ⟨2, ![R, M]⟩ ⟨2, ![M, N]⟩ ⟨2, ![R, N]⟩) (hD2 : D2 = DotDims.plain R M N) (hM : M ≠ 1)
    (prec1 prec2 : Option ContractPrecision)
    (X : FVec Ideal ⟨2, ![R, K]⟩ .f32) (W : FVec Ideal ⟨2, ![M, K]⟩ .f32) (b : FVec Ideal ⟨2, ![1, M]⟩ .f32)
    (Wf : FVec Ideal ⟨2, ![N, M]⟩ .f32) (hlt : FTy.bf16.bits < FTy.f32.bits)
    (hX : (⟨2, ![R, K]⟩ : Shape).ShapeCasts ⟨2, ![R, K]⟩) (hW : (⟨2, ![M, K]⟩ : Shape).ShapeCasts ⟨2, ![M, K]⟩)
    (hWf : (⟨2, ![N, M]⟩ : Shape).ShapeCasts ⟨2, ![N, M]⟩)
    (htr1 : (⟨2, ![M, K]⟩ : Shape).Transposes [1, 0] ⟨2, ![K, M]⟩)
    (htr2 : (⟨2, ![N, M]⟩ : Shape).Transposes [1, 0] ⟨2, ![M, N]⟩)
    (hsc : (⟨2, ![1, M]⟩ : Shape).ShapeCasts ⟨2, ![1, M]⟩) (hbc : (⟨2, ![1, M]⟩ : Shape).Broadcasts ⟨2, ![R, M]⟩)
    (p : Fin R) (q : Fin N) :
    matmul D2 prec2
        (truncf .bf16
          (addf (matmul D1 prec1 (truncf .bf16 (shapeCast ⟨2, ![R, K]⟩ X hX) hlt)
                  (transpose ⟨2, ![K, M]⟩ [1, 0] (truncf .bf16 (shapeCast ⟨2, ![M, K]⟩ W hW) hlt) htr1)
                  (constant (F := Ideal) ⟨2, ![R, M]⟩ .f32 0x00000000#32))
                (broadcastTo ⟨2, ![R, M]⟩ (shapeCast ⟨2, ![1, M]⟩ b hsc) hbc)) hlt)
        (transpose ⟨2, ![M, N]⟩ [1, 0] (truncf .bf16 (shapeCast ⟨2, ![N, M]⟩ Wf hWf) hlt) htr2)
        (constant (F := Ideal) ⟨2, ![R, N]⟩ .f32 0x00000000#32) (ix2 p q)
      = ∑ k : Fin M, ((∑ l : Fin K, X (ix2 p l) * W (ix2 k l)) + b (ix2 0 k)) * Wf (ix2 q k) := by
  refine (TransposedLayer.matmul_transposed_apply D2 hD2 prec2 _ _ htr2 p q).trans ?_
  refine Finset.sum_congr rfl fun k _ => ?_
  rw [shapeCast_self Wf hWf]
  exact congrArg (· * Wf (ix2 q k))
    (TransposedLayer.kernel_cast_apply D1 hD1 hM prec1 X W b hlt hX hW htr1 hsc hbc p k)

/-- A kernel's spelling of the fused hop before the hyperbolic tangent, at (p, q). -/
theorem kernel_apply (D1 : DotDims ⟨2, ![R, K]⟩ ⟨2, ![K, M]⟩ ⟨2, ![R, M]⟩) (hD1 : D1 = DotDims.plain R K M)
    (D2 : DotDims ⟨2, ![R, M]⟩ ⟨2, ![M, N]⟩ ⟨2, ![R, N]⟩) (hD2 : D2 = DotDims.plain R M N) (hM : M ≠ 1) (hN : N ≠ 1)
    (prec1 prec2 : Option ContractPrecision)
    (Xp Xn : FVec Ideal ⟨2, ![R, K]⟩ .f32) (Wp Wn : FVec Ideal ⟨2, ![M, K]⟩ .f32)
    (bp bn : FVec Ideal ⟨2, ![1, M]⟩ .f32) (Wfp Wfn : FVec Ideal ⟨2, ![N, M]⟩ .f32) (bf : FVec Ideal ⟨2, ![1, N]⟩ .f32)
    (hlt : FTy.bf16.bits < FTy.f32.bits)
    (hX : (⟨2, ![R, K]⟩ : Shape).ShapeCasts ⟨2, ![R, K]⟩) (hW : (⟨2, ![M, K]⟩ : Shape).ShapeCasts ⟨2, ![M, K]⟩)
    (hWf : (⟨2, ![N, M]⟩ : Shape).ShapeCasts ⟨2, ![N, M]⟩)
    (htr1 : (⟨2, ![M, K]⟩ : Shape).Transposes [1, 0] ⟨2, ![K, M]⟩)
    (htr2 : (⟨2, ![N, M]⟩ : Shape).Transposes [1, 0] ⟨2, ![M, N]⟩)
    (hsc : (⟨2, ![1, M]⟩ : Shape).ShapeCasts ⟨2, ![1, M]⟩) (hbc : (⟨2, ![1, M]⟩ : Shape).Broadcasts ⟨2, ![R, M]⟩)
    (hscf : (⟨2, ![1, N]⟩ : Shape).ShapeCasts ⟨2, ![1, N]⟩) (hbcf : (⟨2, ![1, N]⟩ : Shape).Broadcasts ⟨2, ![R, N]⟩)
    (p : Fin R) (q : Fin N) :
    addf
        (addf
          (matmul D2 prec2
            (truncf .bf16
              (addf (matmul D1 prec1 (truncf .bf16 (shapeCast ⟨2, ![R, K]⟩ Xp hX) hlt)
                      (transpose ⟨2, ![K, M]⟩ [1, 0] (truncf .bf16 (shapeCast ⟨2, ![M, K]⟩ Wp hW) hlt) htr1)
                      (constant (F := Ideal) ⟨2, ![R, M]⟩ .f32 0x00000000#32))
                    (broadcastTo ⟨2, ![R, M]⟩ (shapeCast ⟨2, ![1, M]⟩ bp hsc) hbc)) hlt)
            (transpose ⟨2, ![M, N]⟩ [1, 0] (truncf .bf16 (shapeCast ⟨2, ![N, M]⟩ Wfp hWf) hlt) htr2)
            (constant (F := Ideal) ⟨2, ![R, N]⟩ .f32 0x00000000#32))
          (matmul D2 prec2
            (truncf .bf16
              (addf (matmul D1 prec1 (truncf .bf16 (shapeCast ⟨2, ![R, K]⟩ Xn hX) hlt)
                      (transpose ⟨2, ![K, M]⟩ [1, 0] (truncf .bf16 (shapeCast ⟨2, ![M, K]⟩ Wn hW) hlt) htr1)
                      (constant (F := Ideal) ⟨2, ![R, M]⟩ .f32 0x00000000#32))
                    (broadcastTo ⟨2, ![R, M]⟩ (shapeCast ⟨2, ![1, M]⟩ bn hsc) hbc)) hlt)
            (transpose ⟨2, ![M, N]⟩ [1, 0] (truncf .bf16 (shapeCast ⟨2, ![N, M]⟩ Wfn hWf) hlt) htr2)
            (constant (F := Ideal) ⟨2, ![R, N]⟩ .f32 0x00000000#32)))
        (broadcastTo ⟨2, ![R, N]⟩ (shapeCast ⟨2, ![1, N]⟩ bf hscf) hbcf) (ix2 p q)
      = ((∑ k : Fin M, ((∑ l : Fin K, Xp (ix2 p l) * Wp (ix2 k l)) + bp (ix2 0 k)) * Wfp (ix2 q k))
          + (∑ k : Fin M, ((∑ l : Fin K, Xn (ix2 p l) * Wn (ix2 k l)) + bn (ix2 0 k)) * Wfn (ix2 q k)))
        + bf (ix2 0 q) := by
  rw [addf_apply, addf_apply, TransposedLayer.broadcastTo_cast_row hN,
    kernel_branch_apply D1 hD1 D2 hD2 hM prec1 prec2 Xp Wp bp Wfp hlt hX hW hWf htr1 htr2 hsc hbc p q,
    kernel_branch_apply D1 hD1 D2 hD2 hM prec1 prec2 Xn Wn bn Wfn hlt hX hW hWf htr1 htr2 hsc hbc p q]

/-! ### A host's spelling -/

/-- Two R×M arrays joined side by side, at a column among the first M: the first array. -/
theorem concat_left {α : Type} (A B : (⟨2, ![R, M]⟩ : Shape).Idx → α)
    (h : Shape.Concatenates [(⟨2, ![R, M]⟩ : Shape), (⟨2, ![R, M]⟩ : Shape)] (⟨2, ![R, M + M]⟩ : Shape) 1)
    (r : Fin R) (k : Fin M) :
    concatenate (⟨2, ![R, M + M]⟩ : Shape) 1 [⟨(⟨2, ![R, M]⟩ : Shape), A⟩, ⟨(⟨2, ![R, M]⟩ : Shape), B⟩] h
        (ix2 r (Fin.castAdd M k)) = A (ix2 r k) :=
  concatenate_pair_apply_left 1 A B h (ix2 r (Fin.castAdd M k)) rfl (ix2 r k) (fun b => by
    match b with
    | ⟨0, _⟩ => rfl
    | ⟨1, _⟩ => rfl)

/-- Two R×M arrays joined side by side, at a column among the last M: the second array, the column M less. -/
theorem concat_right {α : Type} (A B : (⟨2, ![R, M]⟩ : Shape).Idx → α)
    (h : Shape.Concatenates [(⟨2, ![R, M]⟩ : Shape), (⟨2, ![R, M]⟩ : Shape)] (⟨2, ![R, M + M]⟩ : Shape) 1)
    (r : Fin R) (k : Fin M) :
    concatenate (⟨2, ![R, M + M]⟩ : Shape) 1 [⟨(⟨2, ![R, M]⟩ : Shape), A⟩, ⟨(⟨2, ![R, M]⟩ : Shape), B⟩] h
        (ix2 r (Fin.natAdd M k)) = B (ix2 r k) :=
  concatenate_pair_apply_right 1 A B h (ix2 r (Fin.natAdd M k)) rfl rfl (ix2 r k)
    (fun b hb => by
      match b with
      | ⟨0, _⟩ => rfl
      | ⟨1, _⟩ => exact absurd rfl hb)
    (by show k.val + M = M + k.val; omega)

/-- The sum over the M + M contracted coordinates of the joined array against one weight: the sum over the first
    M, which read the first array, plus the sum over the last M, which read the second. -/
theorem sum_concat (A B : (⟨2, ![R, M]⟩ : Shape).Idx → EReal) (Wf : (⟨2, ![N, M + M]⟩ : Shape).Idx → EReal)
    (h : Shape.Concatenates [(⟨2, ![R, M]⟩ : Shape), (⟨2, ![R, M]⟩ : Shape)] (⟨2, ![R, M + M]⟩ : Shape) 1)
    (r : Fin R) (q : Fin N) :
    (∑ c : Fin (M + M),
        concatenate (⟨2, ![R, M + M]⟩ : Shape) 1 [⟨(⟨2, ![R, M]⟩ : Shape), A⟩, ⟨(⟨2, ![R, M]⟩ : Shape), B⟩] h (ix2 r c)
          * Wf (ix2 q c))
      = (∑ k : Fin M, A (ix2 r k) * Wf (ix2 q (Fin.castAdd M k)))
        + (∑ k : Fin M, B (ix2 r k) * Wf (ix2 q (Fin.natAdd M k))) := by
  rw [Fin.sum_univ_add]
  refine congrArg₂ (· + ·) (Finset.sum_congr rfl fun k _ => ?_) (Finset.sum_congr rfl fun k _ => ?_)
  · rw [concat_left]
  · rw [concat_right]

/-- A host's spelling of the fused hop before the hyperbolic tangent, at (r, q). The contracted length is any K
    equal to M + M (for literals the equality is `rfl`). -/
theorem host_apply (hK : M + M = K) (D : DotDims ⟨2, ![R, K]⟩ ⟨2, ![K, N]⟩ ⟨2, ![R, N]⟩)
    (hD : D = DotDims.plain R K N) (hN : N ≠ 1) (prec : Option ContractPrecision)
    (A B : FVec Ideal ⟨2, ![R, M]⟩ .f32) (Wf : FVec Ideal ⟨2, ![N, K]⟩ .f32) (bf : FVec Ideal ⟨1, ![N]⟩ .f32)
    (hcat : Shape.Concatenates [(⟨2, ![R, M]⟩ : Shape), (⟨2, ![R, M]⟩ : Shape)] (⟨2, ![R, K]⟩ : Shape) 1)
    (htr : (⟨2, ![N, K]⟩ : Shape).Transposes [1, 0] ⟨2, ![K, N]⟩)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (r : Fin R) (q : Fin N) :
    addf (Host.dotGeneral D prec
          (concatenate (⟨2, ![R, K]⟩ : Shape) 1 [⟨(⟨2, ![R, M]⟩ : Shape), A⟩, ⟨(⟨2, ![R, M]⟩ : Shape), B⟩] hcat)
          (transpose ⟨2, ![K, N]⟩ [1, 0] Wf htr))
        (broadcastInDim ⟨2, ![R, N]⟩ ![0, 1] h2 (broadcastInDim ⟨2, ![1, N]⟩ ![1] h1 bf)) (ix2 r q)
      = ((∑ k : Fin M, A (ix2 r k) * Wf (ix2 q ⟨k.val, by have := k.isLt; omega⟩))
          + (∑ k : Fin M, B (ix2 r k) * Wf (ix2 q ⟨M + k.val, by have := k.isLt; omega⟩)))
        + bf (ix1 q) := by
  subst hK
  rw [TransposedLayer.host_apply D hD hN prec _ Wf bf htr h1 h2 r q, sum_concat A B Wf hcat r q]
  rfl

/-- A host's spelling of the fused hop, at (r, q). -/
theorem host_tanh_apply (hK : M + M = K) (D : DotDims ⟨2, ![R, K]⟩ ⟨2, ![K, N]⟩ ⟨2, ![R, N]⟩)
    (hD : D = DotDims.plain R K N) (hN : N ≠ 1) (prec : Option ContractPrecision)
    (A B : FVec Ideal ⟨2, ![R, M]⟩ .f32) (Wf : FVec Ideal ⟨2, ![N, K]⟩ .f32) (bf : FVec Ideal ⟨1, ![N]⟩ .f32)
    (hcat : Shape.Concatenates [(⟨2, ![R, M]⟩ : Shape), (⟨2, ![R, M]⟩ : Shape)] (⟨2, ![R, K]⟩ : Shape) 1)
    (htr : (⟨2, ![N, K]⟩ : Shape).Transposes [1, 0] ⟨2, ![K, N]⟩)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (r : Fin R) (q : Fin N) :
    Host.tanh (addf (Host.dotGeneral D prec
          (concatenate (⟨2, ![R, K]⟩ : Shape) 1 [⟨(⟨2, ![R, M]⟩ : Shape), A⟩, ⟨(⟨2, ![R, M]⟩ : Shape), B⟩] hcat)
          (transpose ⟨2, ![K, N]⟩ [1, 0] Wf htr))
        (broadcastInDim ⟨2, ![R, N]⟩ ![0, 1] h2 (broadcastInDim ⟨2, ![1, N]⟩ ![1] h1 bf))) (ix2 r q)
      = Ideal.tanh (((∑ k : Fin M, A (ix2 r k) * Wf (ix2 q ⟨k.val, by have := k.isLt; omega⟩))
          + (∑ k : Fin M, B (ix2 r k) * Wf (ix2 q ⟨M + k.val, by have := k.isLt; omega⟩)))
        + bf (ix1 q)) :=
  congrArg Ideal.tanh (host_apply hK D hD hN prec A B Wf bf hcat htr h1 h2 r q)

end Cert.FusedHop

end
-- ==== Proof.KI.Payloads.lean ====
/-
  What the kernel's stored values are, entry by entry, at the ideal values.

  The dense kernel stores tanh(x · Wᵀ + b): at (p, q) the hyperbolic tangent of (∑ c, x(p, c) · W(q, c)) + b(0, q).
  A hop kernel stores tanh((P · Wfpᵀ + N · Wfnᵀ) + bf) with P = hp · Wpᵀ + bp and N = hn · Wnᵀ + bn, the biases
  1×256 rows: at (p, q) the hyperbolic tangent of

      ((∑ k, ((∑ l, hp(p, l) · Wp(k, l)) + bp(0, k)) · Wfp(q, k))
         + (∑ k, ((∑ l, hn(p, l) · Wn(k, l)) + bn(0, k)) · Wfn(q, k))) + bf(0, q)

  in the extended reals. Each is the printed value read through the entry lemmas for a product with a transposed
  weight and for a row copied to every row; a change of float format and a re-cast of an array to its own shape
  are the identity on ideal values. No product is distributed over a sum, so no finiteness is asked.
-/
import Idealize.ShloMosaic.PureOps.Ideal.Laws
import Idealize.ShloMosaic.Lib.Pipeline.Value
import Idealize.ShloMosaic.Lib.ValueIdx
import proofs.«128425_j26603027432197_1_alg».proof.Proof.Gen.KernelIdeal.Skeleton
import proofs.«128425_j26603027432197_1_alg».proof.Proof.LibTransposedLayer
import proofs.«128425_j26603027432197_1_alg».proof.Proof.LibFusedHop

noncomputable section

open scoped BigOperators

namespace Cert.KernelPayloads

open Idealize.ShloMosaic Idealize.ShloMosaic.ValueIdx Cert.KernelIdeal Cert.KernelIdeal.Gen

/-- The dense kernel's stored value at (p, q). -/
theorem k0_pay1_apply (x : Vec Ideal S5000x256 .f32) (w : Vec Ideal S256x256 .f32) (b : Vec Ideal S1x256 .f32)
    (p : Fin 5000) (q : Fin 256) :
    k0_pay1 (F := Ideal) x w b (ix2 p q)
      = Ideal.tanh ((∑ c : Fin 256, x (ix2 p c) * w (ix2 q c)) + b (ix2 0 q)) := by
  unfold k0_pay1
  exact congrArg Ideal.tanh (TransposedLayer.kernel_apply (R := 5000) (K := 256) (N := 256)
    dot_S5000x256_S256x256_S5000x256_1_0_0_1_n_n rfl (by decide) none x w b bitsLt_bf16_f32
    transposes_S256x256_p1_0_S256x256 shapeCasts_S1x256_S1x256 broadcasts_S1x256_S5000x256 p q)

/-- Hop kernel 1's stored value at (p, q). -/
theorem k1_pay_apply (v0 v3 : Vec Ideal S5000x256 .f32) (v6 v9 : Vec Ideal S256x256 .f32)
    (v14 v20 : Vec Ideal S1x256 .f32) (v24 v27 : Vec Ideal S256x256 .f32) (v37 : Vec Ideal S1x256 .f32)
    (p : Fin 5000) (q : Fin 256) :
    k1_pay1 (F := Ideal) (k1_pay2 v0 v3 v6 v9 v14 v20 v24 v27) v37 (ix2 p q)
      = Ideal.tanh (((∑ k : Fin 256, ((∑ l : Fin 256, v0 (ix2 p l) * v6 (ix2 k l)) + v14 (ix2 0 k)) * v24 (ix2 q k))
                    + (∑ k : Fin 256, ((∑ l : Fin 256, v3 (ix2 p l) * v9 (ix2 k l)) + v20 (ix2 0 k)) * v27 (ix2 q k)))
                  + v37 (ix2 0 q)) := by
  unfold k1_pay1 k1_pay2
  exact congrArg Ideal.tanh (FusedHop.kernel_apply (R := 5000) (K := 256) (M := 256) (N := 256)
    dot_S5000x256_S256x256_S5000x256_1_0_0_1_n_n rfl dot_S5000x256_S256x256_S5000x256_1_0_0_1_n_n rfl
    (by decide) (by decide) none none v0 v3 v6 v9 v14 v20 v24 v27 v37 bitsLt_bf16_f32
    shapeCasts_S5000x256_S5000x256 shapeCasts_S256x256_S256x256 shapeCasts_S256x256_S256x256
    transposes_S256x256_p1_0_S256x256 transposes_S256x256_p1_0_S256x256
    shapeCasts_S1x256_S1x256 broadcasts_S1x256_S5000x256 shapeCasts_S1x256_S1x256 broadcasts_S1x256_S5000x256 p q)

/-- Hop kernel 2's stored value at (p, q). -/
theorem k2_pay_apply (v0 v3 : Vec Ideal S5000x256 .f32) (v6 v9 : Vec Ideal S256x256 .f32)
    (v14 v20 : Vec Ideal S1x256 .f32) (v24 v27 : Vec Ideal S256x256 .f32) (v37 : Vec Ideal S1x256 .f32)
    (p : Fin 5000) (q : Fin 256) :
    k2_pay1 (F := Ideal) (k2_pay2 v0 v3 v6 v9 v14 v20 v24 v27) v37 (ix2 p q)
      = Ideal.tanh (((∑ k : Fin 256, ((∑ l : Fin 256, v0 (ix2 p l) * v6 (ix2 k l)) + v14 (ix2 0 k)) * v24 (ix2 q k))
                    + (∑ k : Fin 256, ((∑ l : Fin 256, v3 (ix2 p l) * v9 (ix2 k l)) + v20 (ix2 0 k)) * v27 (ix2 q k)))
                  + v37 (ix2 0 q)) := by
  unfold k2_pay1 k2_pay2
  exact congrArg Ideal.tanh (FusedHop.kernel_apply (R := 5000) (K := 256) (M := 256) (N := 256)
    dot_S5000x256_S256x256_S5000x256_1_0_0_1_n_n rfl dot_S5000x256_S256x256_S5000x256_1_0_0_1_n_n rfl
    (by decide) (by decide) none none v0 v3 v6 v9 v14 v20 v24 v27 v37 bitsLt_bf16_f32
    shapeCasts_S5000x256_S5000x256 shapeCasts_S256x256_S256x256 shapeCasts_S256x256_S256x256
    transposes_S256x256_p1_0_S256x256 transposes_S256x256_p1_0_S256x256
    shapeCasts_S1x256_S1x256 broadcasts_S1x256_S5000x256 shapeCasts_S1x256_S1x256 broadcasts_S1x256_S5000x256 p q)

/-- Hop kernel 3's stored value at (p, q). -/
theorem k3_pay_apply (v0 v3 : Vec Ideal S5000x256 .f32) (v6 v9 : Vec Ideal S256x256 .f32)
    (v14 v20 : Vec Ideal S1x256 .f32) (v24 v27 : Vec Ideal S256x256 .f32) (v37 : Vec Ideal S1x256 .f32)
    (p : Fin 5000) (q : Fin 256) :
    k3_pay1 (F := Ideal) (k3_pay2 v0 v3 v6 v9 v14 v20 v24 v27) v37 (ix2 p q)
      = Ideal.tanh (((∑ k : Fin 256, ((∑ l : Fin 256, v0 (ix2 p l) * v6 (ix2 k l)) + v14 (ix2 0 k)) * v24 (ix2 q k))
                    + (∑ k : Fin 256, ((∑ l : Fin 256, v3 (ix2 p l) * v9 (ix2 k l)) + v20 (ix2 0 k)) * v27 (ix2 q k)))
                  + v37 (ix2 0 q)) := by
  unfold k3_pay1 k3_pay2
  exact congrArg Ideal.tanh (FusedHop.kernel_apply (R := 5000) (K := 256) (M := 256) (N := 256)
    dot_S5000x256_S256x256_S5000x256_1_0_0_1_n_n rfl dot_S5000x256_S256x256_S5000x256_1_0_0_1_n_n rfl
    (by decide) (by decide) none none v0 v3 v6 v9 v14 v20 v24 v27 v37 bitsLt_bf16_f32
    shapeCasts_S5000x256_S5000x256 shapeCasts_S256x256_S256x256 shapeCasts_S256x256_S256x256
    transposes_S256x256_p1_0_S256x256 transposes_S256x256_p1_0_S256x256
    shapeCasts_S1x256_S1x256 broadcasts_S1x256_S5000x256 shapeCasts_S1x256_S1x256 broadcasts_S1x256_S5000x256 p q)

end Cert.KernelPayloads

end
-- ==== Proof.Spec.lean ====
/-
  The network's two layers as functions of an entry, over the extended reals.

  The input projection at (r, q) is tanh(∑ₗ x(r, l)·w(q, l) + b(q)). A hop's fused update at (r, q) is
  tanh((∑ₖ P(r, k)·Wfp(q, k) + ∑ₖ N(r, k)·Wfn(q, k)) + bf(q)) with P(r, k) = ∑ₗ hp(r, l)·Wp(k, l) + bp(k) and
  N(r, k) = ∑ₗ hn(r, l)·Wn(k, l) + bn(k): the two halves of the 512-long contraction of the concatenated projections
  against the fusing weight, kept as two sums. Weights and biases are plain functions of their coordinates, so that the
  two programs' different layouts of them (stacked, sliced, laid out as rows) all read as arguments of ONE function.
-/
import Idealize.ShloMosaic.PureOps.Ideal
import Idealize.ShloMosaic.Lib.ValueIdx

noncomputable section

open scoped BigOperators

namespace Cert.Spec

open Idealize.ShloMosaic Idealize.ShloMosaic.ValueIdx

/-- tanh(x·Wᵀ + b) at (r, q). -/
def denseF {R : Nat} (x : (⟨2, ![R, 256]⟩ : Shape).Idx → EReal) (w : Fin 256 → Fin 256 → EReal) (b : Fin 256 → EReal)
    (r : Fin R) (q : Fin 256) : EReal :=
  Ideal.tanh ((∑ l : Fin 256, x (ix2 r l) * w q l) + b q)

/-- tanh((hp·Wpᵀ + bp)·Wfpᵀ + (hn·Wnᵀ + bn)·Wfnᵀ + bf) at (r, q). -/
def hopF {R : Nat} (hp hn : (⟨2, ![R, 256]⟩ : Shape).Idx → EReal) (wp : Fin 256 → Fin 256 → EReal) (bp : Fin 256 → EReal)
    (wn : Fin 256 → Fin 256 → EReal) (bn : Fin 256 → EReal) (wfp wfn : Fin 256 → Fin 256 → EReal) (bf : Fin 256 → EReal)
    (r : Fin R) (q : Fin 256) : EReal :=
  Ideal.tanh (((∑ k : Fin 256, ((∑ l : Fin 256, hp (ix2 r l) * wp k l) + bp k) * wfp q k)
      + (∑ k : Fin 256, ((∑ l : Fin 256, hn (ix2 r l) * wn k l) + bn k) * wfn q k)) + bf q)

end Cert.Spec

end
-- ==== Proof.KI.Value0.lean ====
/-
  Region 0's output array at an entry, at the ideal values: row r is in the block of point r / 5000 at local row
  r % 5000, that block's rows are rows 5000·(r / 5000) … of x, and the weight and bias blocks are the whole arrays; so
  the array at (r, q) is tanh(∑ₗ x(r, l)·W(q, l) + b(0, q)) of the arrays the region was entered with.
-/
import proofs.«128425_j26603027432197_1_alg».proof.Proof.KI.Final0
import proofs.«128425_j26603027432197_1_alg».proof.Proof.KI.Payloads
import proofs.«128425_j26603027432197_1_alg».proof.Proof.Spec

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

theorem G0_apply (c : Dev nD) (r : Fin 50000) (q : Fin 256) :
    G0 V c (ix2 r q) = Cert.Spec.denseF (R := 50000) (V c main_arg0) (fun q l => V c main_arg5 (ix2 q l))
      (fun q => V c main_v0 (ix2 0 q)) r q := by
  have hr5 : r.val % 5000 < 5000 := Nat.mod_lt _ (by decide)
  have hloc : loc0 (ix2 r q) = ix2 (⟨r.val % 5000, hr5⟩ : Fin 5000) q := rfl
  have hptv : (pt0 (ix2 r q)).val = r.val / 5000 := rfl
  have hr : r.val = (pt0 (ix2 r q)).val * 5000 + (⟨r.val % 5000, hr5⟩ : Fin 5000).val := by
    rw [hptv]; show r.val = r.val / 5000 * 5000 + r.val % 5000; omega
  unfold G0
  rw [out0_3_eq, hloc]
  refine (Cert.KernelPayloads.k0_pay1_apply _ _ _ ⟨r.val % 5000, hr5⟩ q).trans ?_
  unfold Cert.Spec.denseF
  refine congrArg Ideal.tanh (congrArg₂ (· + ·) (Finset.sum_congr rfl fun l _ => ?_) ?_)
  · rw [iblk0_0 V c (pt0 (ix2 r q)) ⟨r.val % 5000, hr5⟩ l r hr, iblk0_1]
  · exact iblk0_2 V c (pt0 (ix2 r q)) 0 q

end Cert.KernelIdeal.Fr

end
-- ==== Proof.KI.FoldArgs.lean ====
/-
  More read-backs through the fold of buffer contents: every argument array holds its launch contents at each region's
  exit (so each later host stretch reads the launch values), and each region's output array is still what that region
  left when the last stretch stacks the four layers.
-/
import proofs.«128425_j26603027432197_1_alg».proof.Proof.Gen.KernelIdeal.Launch
import proofs.«128425_j26603027432197_1_alg».proof.Proof.Gen.KernelIdeal.Skeleton
import proofs.«128425_j26603027432197_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128425_j26603027432197_1_alg».proof.Proof.KI.Fold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W1_main_arg0 (c : Dev nD) : W1 m ρ c (Proc.devRef .tc main_arg0) = m ((c : Thread nD τ).loc main_arg0) :=
  (W1_of m ρ c main_arg0 (by decide)).trans rfl
theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_main_arg0 m ρ c)
theorem W4_main_arg0 (c : Dev nD) : W4 m ρ c (Proc.devRef .tc main_arg0) = m ((c : Thread nD τ).loc main_arg0) :=
  (W4_of_ne m ρ c main_arg0 (by decide)).trans ((W3_of m ρ c main_arg0 (by decide)).trans (W2_main_arg0 m ρ c))
theorem W6_main_arg0 (c : Dev nD) : W6 m ρ c (Proc.devRef .tc main_arg0) = m ((c : Thread nD τ).loc main_arg0) :=
  (W6_of_ne m ρ c main_arg0 (by decide)).trans ((W5_of m ρ c main_arg0 (by decide)).trans (W4_main_arg0 m ρ c))

theorem W1_main_arg1 (c : Dev nD) : W1 m ρ c (Proc.devRef .tc main_arg1) = m ((c : Thread nD τ).loc main_arg1) :=
  (W1_of m ρ c main_arg1 (by decide)).trans rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W4_main_arg1 (c : Dev nD) : W4 m ρ c (Proc.devRef .tc main_arg1) = m ((c : Thread nD τ).loc main_arg1) :=
  (W4_of_ne m ρ c main_arg1 (by decide)).trans ((W3_of m ρ c main_arg1 (by decide)).trans (W2_main_arg1 m ρ c))
theorem W6_main_arg1 (c : Dev nD) : W6 m ρ c (Proc.devRef .tc main_arg1) = m ((c : Thread nD τ).loc main_arg1) :=
  (W6_of_ne m ρ c main_arg1 (by decide)).trans ((W5_of m ρ c main_arg1 (by decide)).trans (W4_main_arg1 m ρ c))

theorem W1_main_arg2 (c : Dev nD) : W1 m ρ c (Proc.devRef .tc main_arg2) = m ((c : Thread nD τ).loc main_arg2) :=
  (W1_of m ρ c main_arg2 (by decide)).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W4_main_arg2 (c : Dev nD) : W4 m ρ c (Proc.devRef .tc main_arg2) = m ((c : Thread nD τ).loc main_arg2) :=
  (W4_of_ne m ρ c main_arg2 (by decide)).trans ((W3_of m ρ c main_arg2 (by decide)).trans (W2_main_arg2 m ρ c))
theorem W6_main_arg2 (c : Dev nD) : W6 m ρ c (Proc.devRef .tc main_arg2) = m ((c : Thread nD τ).loc main_arg2) :=
  (W6_of_ne m ρ c main_arg2 (by decide)).trans ((W5_of m ρ c main_arg2 (by decide)).trans (W4_main_arg2 m ρ c))

theorem W1_main_arg3 (c : Dev nD) : W1 m ρ c (Proc.devRef .tc main_arg3) = m ((c : Thread nD τ).loc main_arg3) :=
  (W1_of m ρ c main_arg3 (by decide)).trans rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W4_main_arg3 (c : Dev nD) : W4 m ρ c (Proc.devRef .tc main_arg3) = m ((c : Thread nD τ).loc main_arg3) :=
  (W4_of_ne m ρ c main_arg3 (by decide)).trans ((W3_of m ρ c main_arg3 (by decide)).trans (W2_main_arg3 m ρ c))
theorem W6_main_arg3 (c : Dev nD) : W6 m ρ c (Proc.devRef .tc main_arg3) = m ((c : Thread nD τ).loc main_arg3) :=
  (W6_of_ne m ρ c main_arg3 (by decide)).trans ((W5_of m ρ c main_arg3 (by decide)).trans (W4_main_arg3 m ρ c))

theorem W1_main_arg4 (c : Dev nD) : W1 m ρ c (Proc.devRef .tc main_arg4) = m ((c : Thread nD τ).loc main_arg4) :=
  (W1_of m ρ c main_arg4 (by decide)).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W4_main_arg4 (c : Dev nD) : W4 m ρ c (Proc.devRef .tc main_arg4) = m ((c : Thread nD τ).loc main_arg4) :=
  (W4_of_ne m ρ c main_arg4 (by decide)).trans ((W3_of m ρ c main_arg4 (by decide)).trans (W2_main_arg4 m ρ c))
theorem W6_main_arg4 (c : Dev nD) : W6 m ρ c (Proc.devRef .tc main_arg4) = m ((c : Thread nD τ).loc main_arg4) :=
  (W6_of_ne m ρ c main_arg4 (by decide)).trans ((W5_of m ρ c main_arg4 (by decide)).trans (W4_main_arg4 m ρ c))

theorem W1_main_arg5 (c : Dev nD) : W1 m ρ c (Proc.devRef .tc main_arg5) = m ((c : Thread nD τ).loc main_arg5) :=
  (W1_of m ρ c main_arg5 (by decide)).trans rfl
theorem W2_main_arg5 (c : Dev nD) : W2 m ρ c (Proc.devRef .tc main_arg5) = m ((c : Thread nD τ).loc main_arg5) :=
  ((W2_arr m ρ c 1).trans (((dat0 (V1 m ρ) c).arrAt_in 1 rfl _).trans (A_eq0 (V1 m ρ) c 1))).trans (W1_main_arg5 m ρ c)
theorem W4_main_arg5 (c : Dev nD) : W4 m ρ c (Proc.devRef .tc main_arg5) = m ((c : Thread nD τ).loc main_arg5) :=
  (W4_of_ne m ρ c main_arg5 (by decide)).trans ((W3_of m ρ c main_arg5 (by decide)).trans (W2_main_arg5 m ρ c))
theorem W6_main_arg5 (c : Dev nD) : W6 m ρ c (Proc.devRef .tc main_arg5) = m ((c : Thread nD τ).loc main_arg5) :=
  (W6_of_ne m ρ c main_arg5 (by decide)).trans ((W5_of m ρ c main_arg5 (by decide)).trans (W4_main_arg5 m ρ c))

theorem W1_main_arg6 (c : Dev nD) : W1 m ρ c (Proc.devRef .tc main_arg6) = m ((c : Thread nD τ).loc main_arg6) :=
  (W1_of m ρ c main_arg6 (by decide)).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W4_main_arg6 (c : Dev nD) : W4 m ρ c (Proc.devRef .tc main_arg6) = m ((c : Thread nD τ).loc main_arg6) :=
  (W4_of_ne m ρ c main_arg6 (by decide)).trans ((W3_of m ρ c main_arg6 (by decide)).trans (W2_main_arg6 m ρ c))
theorem W6_main_arg6 (c : Dev nD) : W6 m ρ c (Proc.devRef .tc main_arg6) = m ((c : Thread nD τ).loc main_arg6) :=
  (W6_of_ne m ρ c main_arg6 (by decide)).trans ((W5_of m ρ c main_arg6 (by decide)).trans (W4_main_arg6 m ρ c))

theorem W1_main_arg7 (c : Dev nD) : W1 m ρ c (Proc.devRef .tc main_arg7) = m ((c : Thread nD τ).loc main_arg7) :=
  (W1_of m ρ c main_arg7 (by decide)).trans rfl
theorem W2_main_arg7 (c : Dev nD) : W2 m ρ c (Proc.devRef .tc main_arg7) = m ((c : Thread nD τ).loc main_arg7) :=
  (W2_of_ne m ρ c main_arg7 (by decide)).trans (W1_main_arg7 m ρ c)
theorem W4_main_arg7 (c : Dev nD) : W4 m ρ c (Proc.devRef .tc main_arg7) = m ((c : Thread nD τ).loc main_arg7) :=
  (W4_of_ne m ρ c main_arg7 (by decide)).trans ((W3_of m ρ c main_arg7 (by decide)).trans (W2_main_arg7 m ρ c))
theorem W6_main_arg7 (c : Dev nD) : W6 m ρ c (Proc.devRef .tc main_arg7) = m ((c : Thread nD τ).loc main_arg7) :=
  (W6_of_ne m ρ c main_arg7 (by decide)).trans ((W5_of m ρ c main_arg7 (by decide)).trans (W4_main_arg7 m ρ c))

theorem W1_main_arg8 (c : Dev nD) : W1 m ρ c (Proc.devRef .tc main_arg8) = m ((c : Thread nD τ).loc main_arg8) :=
  (W1_of m ρ c main_arg8 (by decide)).trans rfl
theorem W2_main_arg8 (c : Dev nD) : W2 m ρ c (Proc.devRef .tc main_arg8) = m ((c : Thread nD τ).loc main_arg8) :=
  (W2_of_ne m ρ c main_arg8 (by decide)).trans (W1_main_arg8 m ρ c)
theorem W4_main_arg8 (c : Dev nD) : W4 m ρ c (Proc.devRef .tc main_arg8) = m ((c : Thread nD τ).loc main_arg8) :=
  (W4_of_ne m ρ c main_arg8 (by decide)).trans ((W3_of m ρ c main_arg8 (by decide)).trans (W2_main_arg8 m ρ c))
theorem W6_main_arg8 (c : Dev nD) : W6 m ρ c (Proc.devRef .tc main_arg8) = m ((c : Thread nD τ).loc main_arg8) :=
  (W6_of_ne m ρ c main_arg8 (by decide)).trans ((W5_of m ρ c main_arg8 (by decide)).trans (W4_main_arg8 m ρ c))

theorem W1_main_arg9 (c : Dev nD) : W1 m ρ c (Proc.devRef .tc main_arg9) = m ((c : Thread nD τ).loc main_arg9) :=
  (W1_of m ρ c main_arg9 (by decide)).trans rfl
theorem W2_main_arg9 (c : Dev nD) : W2 m ρ c (Proc.devRef .tc main_arg9) = m ((c : Thread nD τ).loc main_arg9) :=
  (W2_of_ne m ρ c main_arg9 (by decide)).trans (W1_main_arg9 m ρ c)
theorem W4_main_arg9 (c : Dev nD) : W4 m ρ c (Proc.devRef .tc main_arg9) = m ((c : Thread nD τ).loc main_arg9) :=
  (W4_of_ne m ρ c main_arg9 (by decide)).trans ((W3_of m ρ c main_arg9 (by decide)).trans (W2_main_arg9 m ρ c))
theorem W6_main_arg9 (c : Dev nD) : W6 m ρ c (Proc.devRef .tc main_arg9) = m ((c : Thread nD τ).loc main_arg9) :=
  (W6_of_ne m ρ c main_arg9 (by decide)).trans ((W5_of m ρ c main_arg9 (by decide)).trans (W4_main_arg9 m ρ c))

theorem W1_main_arg10 (c : Dev nD) : W1 m ρ c (Proc.devRef .tc main_arg10) = m ((c : Thread nD τ).loc main_arg10) :=
  (W1_of m ρ c main_arg10 (by decide)).trans rfl
theorem W2_main_arg10 (c : Dev nD) : W2 m ρ c (Proc.devRef .tc main_arg10) = m ((c : Thread nD τ).loc main_arg10) :=
  (W2_of_ne m ρ c main_arg10 (by decide)).trans (W1_main_arg10 m ρ c)
theorem W4_main_arg10 (c : Dev nD) : W4 m ρ c (Proc.devRef .tc main_arg10) = m ((c : Thread nD τ).loc main_arg10) :=
  (W4_of_ne m ρ c main_arg10 (by decide)).trans ((W3_of m ρ c main_arg10 (by decide)).trans (W2_main_arg10 m ρ c))
theorem W6_main_arg10 (c : Dev nD) : W6 m ρ c (Proc.devRef .tc main_arg10) = m ((c : Thread nD τ).loc main_arg10) :=
  (W6_of_ne m ρ c main_arg10 (by decide)).trans ((W5_of m ρ c main_arg10 (by decide)).trans (W4_main_arg10 m ρ c))

theorem W1_main_arg11 (c : Dev nD) : W1 m ρ c (Proc.devRef .tc main_arg11) = m ((c : Thread nD τ).loc main_arg11) :=
  (W1_of m ρ c main_arg11 (by decide)).trans rfl
theorem W2_main_arg11 (c : Dev nD) : W2 m ρ c (Proc.devRef .tc main_arg11) = m ((c : Thread nD τ).loc main_arg11) :=
  (W2_of_ne m ρ c main_arg11 (by decide)).trans (W1_main_arg11 m ρ c)
theorem W4_main_arg11 (c : Dev nD) : W4 m ρ c (Proc.devRef .tc main_arg11) = m ((c : Thread nD τ).loc main_arg11) :=
  (W4_of_ne m ρ c main_arg11 (by decide)).trans ((W3_of m ρ c main_arg11 (by decide)).trans (W2_main_arg11 m ρ c))
theorem W6_main_arg11 (c : Dev nD) : W6 m ρ c (Proc.devRef .tc main_arg11) = m ((c : Thread nD τ).loc main_arg11) :=
  (W6_of_ne m ρ c main_arg11 (by decide)).trans ((W5_of m ρ c main_arg11 (by decide)).trans (W4_main_arg11 m ρ c))

theorem W1_main_arg12 (c : Dev nD) : W1 m ρ c (Proc.devRef .tc main_arg12) = m ((c : Thread nD τ).loc main_arg12) :=
  (W1_of m ρ c main_arg12 (by decide)).trans rfl
theorem W2_main_arg12 (c : Dev nD) : W2 m ρ c (Proc.devRef .tc main_arg12) = m ((c : Thread nD τ).loc main_arg12) :=
  (W2_of_ne m ρ c main_arg12 (by decide)).trans (W1_main_arg12 m ρ c)
theorem W4_main_arg12 (c : Dev nD) : W4 m ρ c (Proc.devRef .tc main_arg12) = m ((c : Thread nD τ).loc main_arg12) :=
  (W4_of_ne m ρ c main_arg12 (by decide)).trans ((W3_of m ρ c main_arg12 (by decide)).trans (W2_main_arg12 m ρ c))
theorem W6_main_arg12 (c : Dev nD) : W6 m ρ c (Proc.devRef .tc main_arg12) = m ((c : Thread nD τ).loc main_arg12) :=
  (W6_of_ne m ρ c main_arg12 (by decide)).trans ((W5_of m ρ c main_arg12 (by decide)).trans (W4_main_arg12 m ρ c))

/-! ## Each region's output array at the end -/

/-- Region 0's output (the input projection) when the layers are stacked. -/
theorem W8_main_v1 (c : Dev nD) : W8 m ρ c (Proc.devRef .tc main_v1) = (dat0 (V1 m ρ) c).arrAt 3 cfg0.N :=
  calc W8 m ρ c (Proc.devRef .tc main_v1)
    _ = W7 m ρ c (Proc.devRef .tc main_v1) := W8_of_ne m ρ c main_v1 (by decide)
    _ = W6 m ρ c (Proc.devRef .tc main_v1) := W7_of m ρ c main_v1 (by decide)
    _ = W5 m ρ c (Proc.devRef .tc main_v1) := W6_of_ne m ρ c main_v1 (by decide)
    _ = W4 m ρ c (Proc.devRef .tc main_v1) := W5_of m ρ c main_v1 (by decide)
    _ = W3 m ρ c (Proc.devRef .tc main_v1) := W4_of_ne m ρ c main_v1 (by decide)
    _ = W2 m ρ c (Proc.devRef .tc main_v1) := W3_of m ρ c main_v1 (by decide)
    _ = (dat0 (V1 m ρ) c).arrAt 3 cfg0.N := W2_arr m ρ c 3
/-- Hop 1's output when the layers are stacked. -/
theorem W8_main_v53 (c : Dev nD) : W8 m ρ c (Proc.devRef .tc main_v53) = (dat1 (V3 m ρ) c).arrAt 9 cfg1.N :=
  calc W8 m ρ c (Proc.devRef .tc main_v53)
    _ = W7 m ρ c (Proc.devRef .tc main_v53) := W8_of_ne m ρ c main_v53 (by decide)
    _ = W6 m ρ c (Proc.devRef .tc main_v53) := W7_of m ρ c main_v53 (by decide)
    _ = W5 m ρ c (Proc.devRef .tc main_v53) := W6_of_ne m ρ c main_v53 (by decide)
    _ = W4 m ρ c (Proc.devRef .tc main_v53) := W5_of m ρ c main_v53 (by decide)
    _ = (dat1 (V3 m ρ) c).arrAt 9 cfg1.N := W4_arr m ρ c 9
/-- Hop 2's output when the layers are stacked. -/
theorem W8_main_v105 (c : Dev nD) : W8 m ρ c (Proc.devRef .tc main_v105) = (dat2 (V5 m ρ) c).arrAt 9 cfg2.N :=
  calc W8 m ρ c (Proc.devRef .tc main_v105)
    _ = W7 m ρ c (Proc.devRef .tc main_v105) := W8_of_ne m ρ c main_v105 (by decide)
    _ = W6 m ρ c (Proc.devRef .tc main_v105) := W7_of m ρ c main_v105 (by decide)
    _ = (dat2 (V5 m ρ) c).arrAt 9 cfg2.N := W6_arr m ρ c 9
/-- Hop 3's output when the layers are stacked. -/
theorem W8_main_v157 (c : Dev nD) : W8 m ρ c (Proc.devRef .tc main_v157) = (dat3 (V7 m ρ) c).arrAt 9 cfg3.N :=
  W8_arr m ρ c 9

end Cert.KernelIdeal.Fr

end
-- ==== Proof.LibStackedWeights.lean ====
/-
  GENERAL LEMMAS: a stack of matrices (and a stack of rows) read one layer at a time.

  * A [n0, n1, n2] stack's layer o, cut out as a [1, n1, n2] slab and viewed as an [n1, n2] matrix, reads at (a, b) the
    stack at (o, a, b): dropping a leading axis of extent one moves no element.
  * An [n0, n] matrix's row o, cut out as a [1, n] slab and viewed as a length-n vector, reads at k the matrix at (o, k).
  * The same row laid out again as a 1×n row reads at (0, k) the matrix at (o, k).
  * Lanes [c, c + w) of a layer viewed as a matrix read at (q, k) the stack at (o, q, c + k).
  Nothing here depends on a program.
-/
import Idealize.ShloMosaic.Lib.Pipeline.Value
import Idealize.ShloMosaic.Lib.ValueIdx

noncomputable section

namespace Cert.StackedWeights

open Idealize.ShloMosaic Idealize.ShloMosaic.ValueIdx

variable {α : Type}

/-- Layer o of a stack as a matrix, at (a, b): the stack at (o, a, b). -/
theorem layer_matrix_apply {n0 n1 n2 : ℕ} (o : ℕ) (A : (⟨3, ![n0, n1, n2]⟩ : Shape).Idx → α)
    (hs : (⟨3, ![n0, n1, n2]⟩ : Shape).Slices ![o, 0, 0] ⟨3, ![1, n1, n2]⟩)
    (hc : (⟨3, ![1, n1, n2]⟩ : Shape).ShapeCasts ⟨2, ![n1, n2]⟩) (l : Fin n0) (hl : l.val = o) (a : Fin n1) (b : Fin n2) :
    shapeCast ⟨2, ![n1, n2]⟩ (extractStridedSlice ⟨3, ![1, n1, n2]⟩ ![o, 0, 0] A hs) hc (ix2 a b) = A (ix3 l a b) := by
  refine (shapeCast_apply _ hc (ix2 a b) (ix3 (0 : Fin 1) a b) ?_).trans ?_
  · rw [Shape.rowMajor_val_three, Shape.rowMajor_val_two]
    show ((0 : Fin 1).val * n1 + a.val) * n2 + b.val = a.val * n2 + b.val
    simp
  · exact extractStridedSlice_apply _ A hs _ _ (fun ax => by
      match ax with
      | ⟨0, _⟩ =>
        show l.val = o + 0
        omega
      | ⟨1, _⟩ => exact (Nat.zero_add _).symm
      | ⟨2, _⟩ => exact (Nat.zero_add _).symm)

/-- Row o of a matrix as a vector, at k: the matrix at (o, k). -/
theorem row_vector_apply {n0 n : ℕ} (o : ℕ) (B : (⟨2, ![n0, n]⟩ : Shape).Idx → α)
    (hs : (⟨2, ![n0, n]⟩ : Shape).Slices ![o, 0] ⟨2, ![1, n]⟩)
    (hc : (⟨2, ![1, n]⟩ : Shape).ShapeCasts ⟨1, ![n]⟩) (l : Fin n0) (hl : l.val = o) (k : Fin n) :
    shapeCast ⟨1, ![n]⟩ (extractStridedSlice ⟨2, ![1, n]⟩ ![o, 0] B hs) hc (ix1 k) = B (ix2 l k) := by
  refine (shapeCast_apply _ hc (ix1 k) (ix2 (0 : Fin 1) k) ?_).trans ?_
  · rw [Shape.rowMajor_val_two, Shape.rowMajor_val_one]
    show (0 : Fin 1).val * n + k.val = k.val
    simp
  · exact extractStridedSlice_apply _ B hs _ _ (fun ax => by
      match ax with
      | ⟨0, _⟩ =>
        show l.val = o + 0
        omega
      | ⟨1, _⟩ => exact (Nat.zero_add _).symm)

/-- Row o of a matrix, taken as a vector and laid out again as a 1×n row, at (z, k): the matrix at (o, k). -/
theorem row_row_apply {n0 n : ℕ} (o : ℕ) (B : (⟨2, ![n0, n]⟩ : Shape).Idx → α)
    (hs : (⟨2, ![n0, n]⟩ : Shape).Slices ![o, 0] ⟨2, ![1, n]⟩)
    (hc : (⟨2, ![1, n]⟩ : Shape).ShapeCasts ⟨1, ![n]⟩) (hc' : (⟨1, ![n]⟩ : Shape).ShapeCasts ⟨2, ![1, n]⟩)
    (l : Fin n0) (hl : l.val = o) (z : Fin 1) (k : Fin n) :
    shapeCast ⟨2, ![1, n]⟩ (shapeCast ⟨1, ![n]⟩ (extractStridedSlice ⟨2, ![1, n]⟩ ![o, 0] B hs) hc) hc' (ix2 z k) = B (ix2 l k) := by
  refine (shapeCast_apply _ hc' (ix2 z k) (ix1 k) ?_).trans (row_vector_apply o B hs hc l hl k)
  rw [Shape.rowMajor_val_one, Shape.rowMajor_val_two]
  show k.val = z.val * n + k.val
  have hz : z.val = 0 := by have := z.isLt; omega
  rw [hz]; omega

/-- Lanes [c, c + w) of layer o of a stack viewed as a matrix, at (q, k): the stack at (o, q, c + k). -/
theorem layer_lanes_apply {n0 n1 n2 w : ℕ} (o c : ℕ) (A : (⟨3, ![n0, n1, n2]⟩ : Shape).Idx → α)
    (hs : (⟨3, ![n0, n1, n2]⟩ : Shape).Slices ![o, 0, 0] ⟨3, ![1, n1, n2]⟩)
    (hc : (⟨3, ![1, n1, n2]⟩ : Shape).ShapeCasts ⟨2, ![n1, n2]⟩)
    (hw : (⟨2, ![n1, n2]⟩ : Shape).Slices ![0, c] ⟨2, ![n1, w]⟩)
    (l : Fin n0) (hl : l.val = o) (q : Fin n1) (k : Fin w) (m : Fin n2) (hm : m.val = c + k.val) :
    extractStridedSlice ⟨2, ![n1, w]⟩ ![0, c]
        (shapeCast ⟨2, ![n1, n2]⟩ (extractStridedSlice ⟨3, ![1, n1, n2]⟩ ![o, 0, 0] A hs) hc) hw (ix2 q k)
      = A (ix3 l q m) := by
  refine (extractStridedSlice_apply _ _ hw (ix2 q k) (ix2 q m) (fun ax => by
    match ax with
    | ⟨0, _⟩ => exact (Nat.zero_add _).symm
    | ⟨1, _⟩ => exact hm)).trans (layer_matrix_apply o A hs hc l hl q m)

end Cert.StackedWeights

end
-- ==== Proof.KI.HostReads.lean ====
/-
  What the host stretches of @main leave in the buffers the four regions read, as functions of an ARBITRARY valuation X
  of the buffers before the stretch: the two aggregated row operands of each hop as the sparse aggregation `spmm` of
  the previous layer, the seven weight and bias windows of each hop as one layer of the stacked arguments (read at an
  entry), the input projection's bias row, and the result array as the four layers stacked.
-/
import proofs.«128425_j26603027432197_1_alg».proof.Proof.Gen.KernelIdeal.Launch
import Idealize.ShloMosaic.Lib.Pipeline.Value
import Idealize.ShloMosaic.Lib.ValueIdx
import Idealize.ShloMosaic.Lib.StableHlo.Run
import proofs.«128425_j26603027432197_1_alg».proof.Proof.LibStackedWeights
import proofs.«128425_j26603027432197_1_alg».proof.Proof.LibRowOfVector

set_option maxRecDepth 16384

noncomputable section

namespace Cert.KernelIdeal.Fr

open Cert.KernelIdeal Cert.KernelIdeal.Gen
open Idealize.ShloMosaic Idealize.ShloMosaic.TcCoe Idealize.ShloMosaic.Tactic
open Idealize.ShloMosaic.ValueIdx Idealize.ShloMosaic.StableHlo

variable {F : FTy → Type} [FloatOps F]

/-! ## The sparse aggregation -/

/-- The sparse aggregation A·z of a matrix given in coordinate form: entry e carries the row idx[0, e], the column
    idx[1, e] (a negative column counted from the end) and the weight val[e]; row r of the result is the sum over the
    entries e of row r of val[e] · z[column e, ·], accumulated onto zero. -/
def spmm (idx : (⟨S2x300000, .i32⟩ : BufTy).Contents (Elt F)) (val : (⟨S300000, .f32⟩ : BufTy).Contents (Elt F))
    (z : (⟨S50000x256, .f32⟩ : BufTy).Contents (Elt F)) : (⟨S50000x256, .f32⟩ : BufTy).Contents (Elt F) :=
  Host.scatterAdd scatter_S50000x256_S300000x1_S300000x256_1_0_0_1
    (broadcastInDim S50000x256 ![] bcast_S_S50000x256 (constant S_ .f32 0x00000000#32))
    (broadcastInDim S300000x1 ![0] bcast_S300000_S300000x1_0
      (shapeCast _ (extractStridedSlice S1x300000 ![0, 0] idx slices_S2x300000_S1x300000_0_0) shapeCasts_S1x300000_S300000))
    (mulf (broadcastInDim S300000x256 ![0, 1] bcast_S300000x1_S300000x256_0_1 (broadcastInDim S300000x1 ![0] bcast_S300000_S300000x1_0 val))
      (Host.gather gather_S50000x256_S300000x1_S300000x256_1_0_n_n_0_1_1256 z
        (broadcastInDim S300000x1 ![0] bcast_S300000_S300000x1_0
          (select (cmpi .slt (shapeCast _ (extractStridedSlice S1x300000 ![1, 0] idx slices_S2x300000_S1x300000_1_0) shapeCasts_S1x300000_S300000) (broadcastInDim S300000 ![] bcast_S_S300000 (constantI S_ 32 0#32)))
            (addi (shapeCast _ (extractStridedSlice S1x300000 ![1, 0] idx slices_S2x300000_S1x300000_1_0) shapeCasts_S1x300000_S300000) (broadcastInDim S300000 ![] bcast_S_S300000 (constantI S_ 32 50000#32)))
            (shapeCast _ (extractStridedSlice S1x300000 ![1, 0] idx slices_S2x300000_S1x300000_1_0) shapeCasts_S1x300000_S300000)))))

/-! ## The stretch before region 0: the bias as a row -/

set_option maxRecDepth 8192 in
set_option maxHeartbeats 2000000 in
/-- Region 0's bias window: the length-256 bias reshaped to a 1×256 row. -/
theorem host0_b_arr (X : Valuation τ sig (Elt F)) :
    StableHlo.after hostOps0 X (Proc.devRef .tc main_v0) = shapeCast S1x256 (X (Proc.devRef .tc main_arg6)) shapeCasts_S256_S1x256 := by
  show StableHlo.after hostOps0 X (Proc.devRef .tc main_v0) = _
  after_results
  rfl

/-- At an entry: the bias at k. -/
theorem host0_b (X : Valuation τ sig (Elt F)) (z : Fin 1) (k : Fin 256) :
    StableHlo.after hostOps0 X (Proc.devRef .tc main_v0) (ix2 z k) = X (Proc.devRef .tc main_arg6) (ix1 k) := by
  rw [host0_b_arr]
  exact Cert.RowOfVector.shapeCast_row _ _ z k

/-! ## The stretch before region 1 (hop 0) -/

set_option maxRecDepth 8192 in
set_option maxHeartbeats 2000000 in
/-- Region 1's first row operand: the first adjacency's aggregation of the previous layer. -/
theorem host1_hp (X : Valuation τ sig (Elt F)) :
    StableHlo.after hostOps1 X (Proc.devRef .tc main_v18)
      = spmm (X (Proc.devRef .tc main_arg1)) (X (Proc.devRef .tc main_arg2)) (X (Proc.devRef .tc main_v1)) := by
  show StableHlo.after hostOps1 X (Proc.devRef .tc main_v18) = _
  after_results_simp
  rfl

set_option maxRecDepth 8192 in
set_option maxHeartbeats 2000000 in
/-- Region 1's second row operand: the second adjacency's aggregation of the previous layer. -/
theorem host1_hn (X : Valuation τ sig (Elt F)) :
    StableHlo.after hostOps1 X (Proc.devRef .tc main_v35)
      = spmm (X (Proc.devRef .tc main_arg3)) (X (Proc.devRef .tc main_arg4)) (X (Proc.devRef .tc main_v1)) := by
  show StableHlo.after hostOps1 X (Proc.devRef .tc main_v35) = _
  after_results_simp
  rfl

set_option maxRecDepth 8192 in
set_option maxHeartbeats 2000000 in
/-- Window 2 of region 1: layer 0 of the first projection's weights, as a matrix. -/
theorem host1_wp_arr (X : Valuation τ sig (Elt F)) :
    StableHlo.after hostOps1 X (Proc.devRef .tc main_v37)
      = shapeCast S256x256 (extractStridedSlice S1x256x256 ![0, 0, 0] (X (Proc.devRef .tc main_arg7)) slices_S3x256x256_S1x256x256_0_0_0) shapeCasts_S1x256x256_S256x256 := by
  show StableHlo.after hostOps1 X (Proc.devRef .tc main_v37) = _
  after_results_simp
  rfl

/-- Window 2, at an entry: layer 0 of the stacked argument. -/
theorem host1_wp (X : Valuation τ sig (Elt F)) (k l : Fin 256) :
    StableHlo.after hostOps1 X (Proc.devRef .tc main_v37) (ix2 k l) = X (Proc.devRef .tc main_arg7) (ix3 (0 : Fin 3) k l) := by
  rw [host1_wp_arr]
  exact Cert.StackedWeights.layer_matrix_apply 0 _ _ _ (0 : Fin 3) rfl k l

set_option maxRecDepth 8192 in
set_option maxHeartbeats 2000000 in
/-- Window 3 of region 1: row 0 of the first projection's biases, as a 1×256 row. -/
theorem host1_bp_arr (X : Valuation τ sig (Elt F)) :
    StableHlo.after hostOps1 X (Proc.devRef .tc main_v50)
      = shapeCast S1x256 (shapeCast S256 (extractStridedSlice S1x256 ![0, 0] (X (Proc.devRef .tc main_arg8)) slices_S3x256_S1x256_0_0) shapeCasts_S1x256_S256) shapeCasts_S256_S1x256 := by
  show StableHlo.after hostOps1 X (Proc.devRef .tc main_v50) = _
  after_results_simp
  rfl

/-- Window 3, at an entry: row 0 of the stacked argument. -/
theorem host1_bp (X : Valuation τ sig (Elt F)) (z : Fin 1) (k : Fin 256) :
    StableHlo.after hostOps1 X (Proc.devRef .tc main_v50) (ix2 z k) = X (Proc.devRef .tc main_arg8) (ix2 (0 : Fin 3) k) := by
  rw [host1_bp_arr]
  exact Cert.StackedWeights.row_row_apply 0 _ _ _ _ (0 : Fin 3) rfl z k

set_option maxRecDepth 8192 in
set_option maxHeartbeats 2000000 in
/-- Window 4 of region 1: layer 0 of the second projection's weights, as a matrix. -/
theorem host1_wn_arr (X : Valuation τ sig (Elt F)) :
    StableHlo.after hostOps1 X (Proc.devRef .tc main_v41)
      = shapeCast S256x256 (extractStridedSlice S1x256x256 ![0, 0, 0] (X (Proc.devRef .tc main_arg9)) slices_S3x256x256_S1x256x256_0_0_0) shapeCasts_S1x256x256_S256x256 := by
  show StableHlo.after hostOps1 X (Proc.devRef .tc main_v41) = _
  after_results_simp
  rfl

/-- Window 4, at an entry: layer 0 of the stacked argument. -/
theorem host1_wn (X : Valuation τ sig (Elt F)) (k l : Fin 256) :
    StableHlo.after hostOps1 X (Proc.devRef .tc main_v41) (ix2 k l) = X (Proc.devRef .tc main_arg9) (ix3 (0 : Fin 3) k l) := by
  rw [host1_wn_arr]
  exact Cert.StackedWeights.layer_matrix_apply 0 _ _ _ (0 : Fin 3) rfl k l

set_option maxRecDepth 8192 in
set_option maxHeartbeats 2000000 in
/-- Window 5 of region 1: row 0 of the second projection's biases, as a 1×256 row. -/
theorem host1_bn_arr (X : Valuation τ sig (Elt F)) :
    StableHlo.after hostOps1 X (Proc.devRef .tc main_v51)
      = shapeCast S1x256 (shapeCast S256 (extractStridedSlice S1x256 ![0, 0] (X (Proc.devRef .tc main_arg10)) slices_S3x256_S1x256_0_0) shapeCasts_S1x256_S256) shapeCasts_S256_S1x256 := by
  show StableHlo.after hostOps1 X (Proc.devRef .tc main_v51) = _
  after_results_simp
  rfl

/-- Window 5, at an entry: row 0 of the stacked argument. -/
theorem host1_bn (X : Valuation τ sig (Elt F)) (z : Fin 1) (k : Fin 256) :
    StableHlo.after hostOps1 X (Proc.devRef .tc main_v51) (ix2 z k) = X (Proc.devRef .tc main_arg10) (ix2 (0 : Fin 3) k) := by
  rw [host1_bn_arr]
  exact Cert.StackedWeights.row_row_apply 0 _ _ _ _ (0 : Fin 3) rfl z k

set_option maxRecDepth 8192 in
set_option maxHeartbeats 2000000 in
/-- Window 6 of region 1: lanes 0–255 of layer 0 of the fusing weights. -/
theorem host1_wfp_arr (X : Valuation τ sig (Elt F)) :
    StableHlo.after hostOps1 X (Proc.devRef .tc main_v48)
      = extractStridedSlice S256x256 ![0, 0] (shapeCast S256x512 (extractStridedSlice S1x256x512 ![0, 0, 0] (X (Proc.devRef .tc main_arg11)) slices_S3x256x512_S1x256x512_0_0_0) shapeCasts_S1x256x512_S256x512) slices_S256x512_S256x256_0_0 := by
  show StableHlo.after hostOps1 X (Proc.devRef .tc main_v48) = _
  after_results_simp
  rfl

/-- Window 6, at an entry: layer 0 of the fusing weights at lane k. -/
theorem host1_wfp (X : Valuation τ sig (Elt F)) (q k : Fin 256) :
    StableHlo.after hostOps1 X (Proc.devRef .tc main_v48) (ix2 q k)
      = X (Proc.devRef .tc main_arg11) (ix3 (0 : Fin 3) q (⟨k.val, Nat.lt_trans k.isLt (by decide)⟩ : Fin 512)) := by
  rw [host1_wfp_arr]
  exact Cert.StackedWeights.layer_lanes_apply 0 0 _ _ _ _ (0 : Fin 3) rfl q k _ (Nat.zero_add _).symm

set_option maxRecDepth 8192 in
set_option maxHeartbeats 2000000 in
/-- Window 7 of region 1: lanes 256–511 of layer 0 of the fusing weights. -/
theorem host1_wfn_arr (X : Valuation τ sig (Elt F)) :
    StableHlo.after hostOps1 X (Proc.devRef .tc main_v49)
      = extractStridedSlice S256x256 ![0, 256] (shapeCast S256x512 (extractStridedSlice S1x256x512 ![0, 0, 0] (X (Proc.devRef .tc main_arg11)) slices_S3x256x512_S1x256x512_0_0_0) shapeCasts_S1x256x512_S256x512) slices_S256x512_S256x256_0_256 := by
  show StableHlo.after hostOps1 X (Proc.devRef .tc main_v49) = _
  after_results_simp
  rfl

/-- Window 7, at an entry: layer 0 of the fusing weights at lane 256 + k. -/
theorem host1_wfn (X : Valuation τ sig (Elt F)) (q k : Fin 256) :
    StableHlo.after hostOps1 X (Proc.devRef .tc main_v49) (ix2 q k)
      = X (Proc.devRef .tc main_arg11) (ix3 (0 : Fin 3) q (⟨256 + k.val, by have := k.isLt; omega⟩ : Fin 512)) := by
  rw [host1_wfn_arr]
  exact Cert.StackedWeights.layer_lanes_apply 0 256 _ _ _ _ (0 : Fin 3) rfl q k _ rfl

set_option maxRecDepth 8192 in
set_option maxHeartbeats 2000000 in
/-- Window 8 of region 1: row 0 of the fusing biases, as a 1×256 row. -/
theorem host1_bf_arr (X : Valuation τ sig (Elt F)) :
    StableHlo.after hostOps1 X (Proc.devRef .tc main_v52)
      = shapeCast S1x256 (shapeCast S256 (extractStridedSlice S1x256 ![0, 0] (X (Proc.devRef .tc main_arg12)) slices_S3x256_S1x256_0_0) shapeCasts_S1x256_S256) shapeCasts_S256_S1x256 := by
  show StableHlo.after hostOps1 X (Proc.devRef .tc main_v52) = _
  after_results_simp
  rfl

/-- Window 8, at an entry: row 0 of the stacked argument. -/
theorem host1_bf (X : Valuation τ sig (Elt F)) (z : Fin 1) (k : Fin 256) :
    StableHlo.after hostOps1 X (Proc.devRef .tc main_v52) (ix2 z k) = X (Proc.devRef .tc main_arg12) (ix2 (0 : Fin 3) k) := by
  rw [host1_bf_arr]
  exact Cert.StackedWeights.row_row_apply 0 _ _ _ _ (0 : Fin 3) rfl z k

/-! ## The stretch before region 2 (hop 1) -/

set_option maxRecDepth 8192 in
set_option maxHeartbeats 2000000 in
/-- Region 2's first row operand: the first adjacency's aggregation of the previous layer. -/
theorem host2_hp (X : Valuation τ sig (Elt F)) :
    StableHlo.after hostOps2 X (Proc.devRef .tc main_v70)
      = spmm (X (Proc.devRef .tc main_arg1)) (X (Proc.devRef .tc main_arg2)) (X (Proc.devRef .tc main_v53)) := by
  show StableHlo.after hostOps2 X (Proc.devRef .tc main_v70) = _
  after_results_simp
  rfl

set_option maxRecDepth 8192 in
set_option maxHeartbeats 2000000 in
/-- Region 2's second row operand: the second adjacency's aggregation of the previous layer. -/
theorem host2_hn (X : Valuation τ sig (Elt F)) :
    StableHlo.after hostOps2 X (Proc.devRef .tc main_v87)
      = spmm (X (Proc.devRef .tc main_arg3)) (X (Proc.devRef .tc main_arg4)) (X (Proc.devRef .tc main_v53)) := by
  show StableHlo.after hostOps2 X (Proc.devRef .tc main_v87) = _
  after_results_simp
  rfl

set_option maxRecDepth 8192 in
set_option maxHeartbeats 2000000 in
/-- Window 2 of region 2: layer 1 of the first projection's weights, as a matrix. -/
theorem host2_wp_arr (X : Valuation τ sig (Elt F)) :
    StableHlo.after hostOps2 X (Proc.devRef .tc main_v89)
      = shapeCast S256x256 (extractStridedSlice S1x256x256 ![1, 0, 0] (X (Proc.devRef .tc main_arg7)) slices_S3x256x256_S1x256x256_1_0_0) shapeCasts_S1x256x256_S256x256 := by
  show StableHlo.after hostOps2 X (Proc.devRef .tc main_v89) = _
  after_results_simp
  rfl

/-- Window 2, at an entry: layer 1 of the stacked argument. -/
theorem host2_wp (X : Valuation τ sig (Elt F)) (k l : Fin 256) :
    StableHlo.after hostOps2 X (Proc.devRef .tc main_v89) (ix2 k l) = X (Proc.devRef .tc main_arg7) (ix3 (1 : Fin 3) k l) := by
  rw [host2_wp_arr]
  exact Cert.StackedWeights.layer_matrix_apply 1 _ _ _ (1 : Fin 3) rfl k l

set_option maxRecDepth 8192 in
set_option maxHeartbeats 2000000 in
/-- Window 3 of region 2: row 1 of the first projection's biases, as a 1×256 row. -/
theorem host2_bp_arr (X : Valuation τ sig (Elt F)) :
    StableHlo.after hostOps2 X (Proc.devRef .tc main_v102)
      = shapeCast S1x256 (shapeCast S256 (extractStridedSlice S1x256 ![1, 0] (X (Proc.devRef .tc main_arg8)) slices_S3x256_S1x256_1_0) shapeCasts_S1x256_S256) shapeCasts_S256_S1x256 := by
  show StableHlo.after hostOps2 X (Proc.devRef .tc main_v102) = _
  after_results_simp
  rfl

/-- Window 3, at an entry: row 1 of the stacked argument. -/
theorem host2_bp (X : Valuation τ sig (Elt F)) (z : Fin 1) (k : Fin 256) :
    StableHlo.after hostOps2 X (Proc.devRef .tc main_v102) (ix2 z k) = X (Proc.devRef .tc main_arg8) (ix2 (1 : Fin 3) k) := by
  rw [host2_bp_arr]
  exact Cert.StackedWeights.row_row_apply 1 _ _ _ _ (1 : Fin 3) rfl z k

set_option maxRecDepth 8192 in
set_option maxHeartbeats 2000000 in
/-- Window 4 of region 2: layer 1 of the second projection's weights, as a matrix. -/
theorem host2_wn_arr (X : Valuation τ sig (Elt F)) :
    StableHlo.after hostOps2 X (Proc.devRef .tc main_v93)
      = shapeCast S256x256 (extractStridedSlice S1x256x256 ![1, 0, 0] (X (Proc.devRef .tc main_arg9)) slices_S3x256x256_S1x256x256_1_0_0) shapeCasts_S1x256x256_S256x256 := by
  show StableHlo.after hostOps2 X (Proc.devRef .tc main_v93) = _
  after_results_simp
  rfl

/-- Window 4, at an entry: layer 1 of the stacked argument. -/
theorem host2_wn (X : Valuation τ sig (Elt F)) (k l : Fin 256) :
    StableHlo.after hostOps2 X (Proc.devRef .tc main_v93) (ix2 k l) = X (Proc.devRef .tc main_arg9) (ix3 (1 : Fin 3) k l) := by
  rw [host2_wn_arr]
  exact Cert.StackedWeights.layer_matrix_apply 1 _ _ _ (1 : Fin 3) rfl k l

set_option maxRecDepth 8192 in
set_option maxHeartbeats 2000000 in
/-- Window 5 of region 2: row 1 of the second projection's biases, as a 1×256 row. -/
theorem host2_bn_arr (X : Valuation τ sig (Elt F)) :
    StableHlo.after hostOps2 X (Proc.devRef .tc main_v103)
      = shapeCast S1x256 (shapeCast S256 (extractStridedSlice S1x256 ![1, 0] (X (Proc.devRef .tc main_arg10)) slices_S3x256_S1x256_1_0) shapeCasts_S1x256_S256) shapeCasts_S256_S1x256 := by
  show StableHlo.after hostOps2 X (Proc.devRef .tc main_v103) = _
  after_results_simp
  rfl

/-- Window 5, at an entry: row 1 of the stacked argument. -/
theorem host2_bn (X : Valuation τ sig (Elt F)) (z : Fin 1) (k : Fin 256) :
    StableHlo.after hostOps2 X (Proc.devRef .tc main_v103) (ix2 z k) = X (Proc.devRef .tc main_arg10) (ix2 (1 : Fin 3) k) := by
  rw [host2_bn_arr]
  exact Cert.StackedWeights.row_row_apply 1 _ _ _ _ (1 : Fin 3) rfl z k

set_option maxRecDepth 8192 in
set_option maxHeartbeats 2000000 in
/-- Window 6 of region 2: lanes 0–255 of layer 1 of the fusing weights. -/
theorem host2_wfp_arr (X : Valuation τ sig (Elt F)) :
    StableHlo.after hostOps2 X (Proc.devRef .tc main_v100)
      = extractStridedSlice S256x256 ![0, 0] (shapeCast S256x512 (extractStridedSlice S1x256x512 ![1, 0, 0] (X (Proc.devRef .tc main_arg11)) slices_S3x256x512_S1x256x512_1_0_0) shapeCasts_S1x256x512_S256x512) slices_S256x512_S256x256_0_0 := by
  show StableHlo.after hostOps2 X (Proc.devRef .tc main_v100) = _
  after_results_simp
  rfl

/-- Window 6, at an entry: layer 1 of the fusing weights at lane k. -/
theorem host2_wfp (X : Valuation τ sig (Elt F)) (q k : Fin 256) :
    StableHlo.after hostOps2 X (Proc.devRef .tc main_v100) (ix2 q k)
      = X (Proc.devRef .tc main_arg11) (ix3 (1 : Fin 3) q (⟨k.val, Nat.lt_trans k.isLt (by decide)⟩ : Fin 512)) := by
  rw [host2_wfp_arr]
  exact Cert.StackedWeights.layer_lanes_apply 1 0 _ _ _ _ (1 : Fin 3) rfl q k _ (Nat.zero_add _).symm

set_option maxRecDepth 8192 in
set_option maxHeartbeats 2000000 in
/-- Window 7 of region 2: lanes 256–511 of layer 1 of the fusing weights. -/
theorem host2_wfn_arr (X : Valuation τ sig (Elt F)) :
    StableHlo.after hostOps2 X (Proc.devRef .tc main_v101)
      = extractStridedSlice S256x256 ![0, 256] (shapeCast S256x512 (extractStridedSlice S1x256x512 ![1, 0, 0] (X (Proc.devRef .tc main_arg11)) slices_S3x256x512_S1x256x512_1_0_0) shapeCasts_S1x256x512_S256x512) slices_S256x512_S256x256_0_256 := by
  show StableHlo.after hostOps2 X (Proc.devRef .tc main_v101) = _
  after_results_simp
  rfl

/-- Window 7, at an entry: layer 1 of the fusing weights at lane 256 + k. -/
theorem host2_wfn (X : Valuation τ sig (Elt F)) (q k : Fin 256) :
    StableHlo.after hostOps2 X (Proc.devRef .tc main_v101) (ix2 q k)
      = X (Proc.devRef .tc main_arg11) (ix3 (1 : Fin 3) q (⟨256 + k.val, by have := k.isLt; omega⟩ : Fin 512)) := by
  rw [host2_wfn_arr]
  exact Cert.StackedWeights.layer_lanes_apply 1 256 _ _ _ _ (1 : Fin 3) rfl q k _ rfl

set_option maxRecDepth 8192 in
set_option maxHeartbeats 2000000 in
/-- Window 8 of region 2: row 1 of the fusing biases, as a 1×256 row. -/
theorem host2_bf_arr (X : Valuation τ sig (Elt F)) :
    StableHlo.after hostOps2 X (Proc.devRef .tc main_v104)
      = shapeCast S1x256 (shapeCast S256 (extractStridedSlice S1x256 ![1, 0] (X (Proc.devRef .tc main_arg12)) slices_S3x256_S1x256_1_0) shapeCasts_S1x256_S256) shapeCasts_S256_S1x256 := by
  show StableHlo.after hostOps2 X (Proc.devRef .tc main_v104) = _
  after_results_simp
  rfl

/-- Window 8, at an entry: row 1 of the stacked argument. -/
theorem host2_bf (X : Valuation τ sig (Elt F)) (z : Fin 1) (k : Fin 256) :
    StableHlo.after hostOps2 X (Proc.devRef .tc main_v104) (ix2 z k) = X (Proc.devRef .tc main_arg12) (ix2 (1 : Fin 3) k) := by
  rw [host2_bf_arr]
  exact Cert.StackedWeights.row_row_apply 1 _ _ _ _ (1 : Fin 3) rfl z k

/-! ## The stretch before region 3 (hop 2) -/

set_option maxRecDepth 8192 in
set_option maxHeartbeats 2000000 in
/-- Region 3's first row operand: the first adjacency's aggregation of the previous layer. -/
theorem host3_hp (X : Valuation τ sig (Elt F)) :
    StableHlo.after hostOps3 X (Proc.devRef .tc main_v122)
      = spmm (X (Proc.devRef .tc main_arg1)) (X (Proc.devRef .tc main_arg2)) (X (Proc.devRef .tc main_v105)) := by
  show StableHlo.after hostOps3 X (Proc.devRef .tc main_v122) = _
  after_results_simp
  rfl

set_option maxRecDepth 8192 in
set_option maxHeartbeats 2000000 in
/-- Region 3's second row operand: the second adjacency's aggregation of the previous layer. -/
theorem host3_hn (X : Valuation τ sig (Elt F)) :
    StableHlo.after hostOps3 X (Proc.devRef .tc main_v139)
      = spmm (X (Proc.devRef .tc main_arg3)) (X (Proc.devRef .tc main_arg4)) (X (Proc.devRef .tc main_v105)) := by
  show StableHlo.after hostOps3 X (Proc.devRef .tc main_v139) = _
  after_results_simp
  rfl

set_option maxRecDepth 8192 in
set_option maxHeartbeats 2000000 in
/-- Window 2 of region 3: layer 2 of the first projection's weights, as a matrix. -/
theorem host3_wp_arr (X : Valuation τ sig (Elt F)) :
    StableHlo.after hostOps3 X (Proc.devRef .tc main_v141)
      = shapeCast S256x256 (extractStridedSlice S1x256x256 ![2, 0, 0] (X (Proc.devRef .tc main_arg7)) slices_S3x256x256_S1x256x256_2_0_0) shapeCasts_S1x256x256_S256x256 := by
  show StableHlo.after hostOps3 X (Proc.devRef .tc main_v141) = _
  after_results_simp
  rfl

/-- Window 2, at an entry: layer 2 of the stacked argument. -/
theorem host3_wp (X : Valuation τ sig (Elt F)) (k l : Fin 256) :
    StableHlo.after hostOps3 X (Proc.devRef .tc main_v141) (ix2 k l) = X (Proc.devRef .tc main_arg7) (ix3 (2 : Fin 3) k l) := by
  rw [host3_wp_arr]
  exact Cert.StackedWeights.layer_matrix_apply 2 _ _ _ (2 : Fin 3) rfl k l

set_option maxRecDepth 8192 in
set_option maxHeartbeats 2000000 in
/-- Window 3 of region 3: row 2 of the first projection's biases, as a 1×256 row. -/
theorem host3_bp_arr (X : Valuation τ sig (Elt F)) :
    StableHlo.after hostOps3 X (Proc.devRef .tc main_v154)
      = shapeCast S1x256 (shapeCast S256 (extractStridedSlice S1x256 ![2, 0] (X (Proc.devRef .tc main_arg8)) slices_S3x256_S1x256_2_0) shapeCasts_S1x256_S256) shapeCasts_S256_S1x256 := by
  show StableHlo.after hostOps3 X (Proc.devRef .tc main_v154) = _
  after_results_simp
  rfl

/-- Window 3, at an entry: row 2 of the stacked argument. -/
theorem host3_bp (X : Valuation τ sig (Elt F)) (z : Fin 1) (k : Fin 256) :
    StableHlo.after hostOps3 X (Proc.devRef .tc main_v154) (ix2 z k) = X (Proc.devRef .tc main_arg8) (ix2 (2 : Fin 3) k) := by
  rw [host3_bp_arr]
  exact Cert.StackedWeights.row_row_apply 2 _ _ _ _ (2 : Fin 3) rfl z k

set_option maxRecDepth 8192 in
set_option maxHeartbeats 2000000 in
/-- Window 4 of region 3: layer 2 of the second projection's weights, as a matrix. -/
theorem host3_wn_arr (X : Valuation τ sig (Elt F)) :
    StableHlo.after hostOps3 X (Proc.devRef .tc main_v145)
      = shapeCast S256x256 (extractStridedSlice S1x256x256 ![2, 0, 0] (X (Proc.devRef .tc main_arg9)) slices_S3x256x256_S1x256x256_2_0_0) shapeCasts_S1x256x256_S256x256 := by
  show StableHlo.after hostOps3 X (Proc.devRef .tc main_v145) = _
  after_results_simp
  rfl

/-- Window 4, at an entry: layer 2 of the stacked argument. -/
theorem host3_wn (X : Valuation τ sig (Elt F)) (k l : Fin 256) :
    StableHlo.after hostOps3 X (Proc.devRef .tc main_v145) (ix2 k l) = X (Proc.devRef .tc main_arg9) (ix3 (2 : Fin 3) k l) := by
  rw [host3_wn_arr]
  exact Cert.StackedWeights.layer_matrix_apply 2 _ _ _ (2 : Fin 3) rfl k l

set_option maxRecDepth 8192 in
set_option maxHeartbeats 2000000 in
/-- Window 5 of region 3: row 2 of the second projection's biases, as a 1×256 row. -/
theorem host3_bn_arr (X : Valuation τ sig (Elt F)) :
    StableHlo.after hostOps3 X (Proc.devRef .tc main_v155)
      = shapeCast S1x256 (shapeCast S256 (extractStridedSlice S1x256 ![2, 0] (X (Proc.devRef .tc main_arg10)) slices_S3x256_S1x256_2_0) shapeCasts_S1x256_S256) shapeCasts_S256_S1x256 := by
  show StableHlo.after hostOps3 X (Proc.devRef .tc main_v155) = _
  after_results_simp
  rfl

/-- Window 5, at an entry: row 2 of the stacked argument. -/
theorem host3_bn (X : Valuation τ sig (Elt F)) (z : Fin 1) (k : Fin 256) :
    StableHlo.after hostOps3 X (Proc.devRef .tc main_v155) (ix2 z k) = X (Proc.devRef .tc main_arg10) (ix2 (2 : Fin 3) k) := by
  rw [host3_bn_arr]
  exact Cert.StackedWeights.row_row_apply 2 _ _ _ _ (2 : Fin 3) rfl z k

set_option maxRecDepth 8192 in
set_option maxHeartbeats 2000000 in
/-- Window 6 of region 3: lanes 0–255 of layer 2 of the fusing weights. -/
theorem host3_wfp_arr (X : Valuation τ sig (Elt F)) :
    StableHlo.after hostOps3 X (Proc.devRef .tc main_v152)
      = extractStridedSlice S256x256 ![0, 0] (shapeCast S256x512 (extractStridedSlice S1x256x512 ![2, 0, 0] (X (Proc.devRef .tc main_arg11)) slices_S3x256x512_S1x256x512_2_0_0) shapeCasts_S1x256x512_S256x512) slices_S256x512_S256x256_0_0 := by
  show StableHlo.after hostOps3 X (Proc.devRef .tc main_v152) = _
  after_results_simp
  rfl

/-- Window 6, at an entry: layer 2 of the fusing weights at lane k. -/
theorem host3_wfp (X : Valuation τ sig (Elt F)) (q k : Fin 256) :
    StableHlo.after hostOps3 X (Proc.devRef .tc main_v152) (ix2 q k)
      = X (Proc.devRef .tc main_arg11) (ix3 (2 : Fin 3) q (⟨k.val, Nat.lt_trans k.isLt (by decide)⟩ : Fin 512)) := by
  rw [host3_wfp_arr]
  exact Cert.StackedWeights.layer_lanes_apply 2 0 _ _ _ _ (2 : Fin 3) rfl q k _ (Nat.zero_add _).symm

set_option maxRecDepth 8192 in
set_option maxHeartbeats 2000000 in
/-- Window 7 of region 3: lanes 256–511 of layer 2 of the fusing weights. -/
theorem host3_wfn_arr (X : Valuation τ sig (Elt F)) :
    StableHlo.after hostOps3 X (Proc.devRef .tc main_v153)
      = extractStridedSlice S256x256 ![0, 256] (shapeCast S256x512 (extractStridedSlice S1x256x512 ![2, 0, 0] (X (Proc.devRef .tc main_arg11)) slices_S3x256x512_S1x256x512_2_0_0) shapeCasts_S1x256x512_S256x512) slices_S256x512_S256x256_0_256 := by
  show StableHlo.after hostOps3 X (Proc.devRef .tc main_v153) = _
  after_results_simp
  rfl

/-- Window 7, at an entry: layer 2 of the fusing weights at lane 256 + k. -/
theorem host3_wfn (X : Valuation τ sig (Elt F)) (q k : Fin 256) :
    StableHlo.after hostOps3 X (Proc.devRef .tc main_v153) (ix2 q k)
      = X (Proc.devRef .tc main_arg11) (ix3 (2 : Fin 3) q (⟨256 + k.val, by have := k.isLt; omega⟩ : Fin 512)) := by
  rw [host3_wfn_arr]
  exact Cert.StackedWeights.layer_lanes_apply 2 256 _ _ _ _ (2 : Fin 3) rfl q k _ rfl

set_option maxRecDepth 8192 in
set_option maxHeartbeats 2000000 in
/-- Window 8 of region 3: row 2 of the fusing biases, as a 1×256 row. -/
theorem host3_bf_arr (X : Valuation τ sig (Elt F)) :
    StableHlo.after hostOps3 X (Proc.devRef .tc main_v156)
      = shapeCast S1x256 (shapeCast S256 (extractStridedSlice S1x256 ![2, 0] (X (Proc.devRef .tc main_arg12)) slices_S3x256_S1x256_2_0) shapeCasts_S1x256_S256) shapeCasts_S256_S1x256 := by
  show StableHlo.after hostOps3 X (Proc.devRef .tc main_v156) = _
  after_results_simp
  rfl

/-- Window 8, at an entry: row 2 of the stacked argument. -/
theorem host3_bf (X : Valuation τ sig (Elt F)) (z : Fin 1) (k : Fin 256) :
    StableHlo.after hostOps3 X (Proc.devRef .tc main_v156) (ix2 z k) = X (Proc.devRef .tc main_arg12) (ix2 (2 : Fin 3) k) := by
  rw [host3_bf_arr]
  exact Cert.StackedWeights.row_row_apply 2 _ _ _ _ (2 : Fin 3) rfl z k

/-! ## The last stretch: the four layers stacked -/

/-- A [50000, 256] layer given a leading axis of extent one reads, at (0, r, q), the layer at (r, q). -/
theorem layer_unsqueeze_apply (x : (⟨S50000x256, .f32⟩ : BufTy).Contents (Elt F)) (z : Fin 1) (r : Fin 50000) (q : Fin 256) :
    broadcastInDim S1x50000x256 ![1, 2] bcast_S50000x256_S1x50000x256_1_2 x (ix3 z r q) = x (ix2 r q) :=
  broadcastInDim_apply _ bcast_S50000x256_S1x50000x256_1_2 x (ix3 z r q) (ix2 r q) (fun a => match a with
    | ⟨0, _⟩ => by
      show r.val = if (50000 : Nat) = 1 then 0 else r.val
      rw [if_neg (by decide)]
    | ⟨1, _⟩ => by
      show q.val = if (256 : Nat) = 1 then 0 else q.val
      rw [if_neg (by decide)])

set_option maxRecDepth 8192 in
set_option maxHeartbeats 2000000 in
/-- The result array: the four layers, each as a [1, 50000, 256] slab, joined along the first axis. -/
theorem host4_out_arr (X : Valuation τ sig (Elt F)) :
    StableHlo.after hostOps4 X (Proc.devRef .tc main_v162)
      = concatenate S4x50000x256 0 [⟨S1x50000x256, broadcastInDim S1x50000x256 ![1, 2] bcast_S50000x256_S1x50000x256_1_2 (X (Proc.devRef .tc main_v1))⟩,
      ⟨S1x50000x256, broadcastInDim S1x50000x256 ![1, 2] bcast_S50000x256_S1x50000x256_1_2 (X (Proc.devRef .tc main_v53))⟩,
      ⟨S1x50000x256, broadcastInDim S1x50000x256 ![1, 2] bcast_S50000x256_S1x50000x256_1_2 (X (Proc.devRef .tc main_v105))⟩,
      ⟨S1x50000x256, broadcastInDim S1x50000x256 ![1, 2] bcast_S50000x256_S1x50000x256_1_2 (X (Proc.devRef .tc main_v157))⟩]
          concatenates_S1x50000x256_S1x50000x256_S1x50000x256_S1x50000x256_S4x50000x256_d0 := by
  show StableHlo.after hostOps4 X (Proc.devRef .tc main_v162) = _
  after_results
  rfl

/-- Layer 0 of the result array is the input projection's output. -/
theorem host4_out0 (X : Valuation τ sig (Elt F)) (r : Fin 50000) (q : Fin 256) :
    StableHlo.after hostOps4 X (Proc.devRef .tc main_v162) (ix3 (0 : Fin 4) r q) = X (Proc.devRef .tc main_v1) (ix2 r q) := by
  rw [host4_out_arr]
  refine (concatenate_apply_piece (t := S4x50000x256) (0 : Fin 3)
    [⟨S1x50000x256, broadcastInDim S1x50000x256 ![1, 2] bcast_S50000x256_S1x50000x256_1_2 (X (Proc.devRef .tc main_v1))⟩,
      ⟨S1x50000x256, broadcastInDim S1x50000x256 ![1, 2] bcast_S50000x256_S1x50000x256_1_2 (X (Proc.devRef .tc main_v53))⟩,
      ⟨S1x50000x256, broadcastInDim S1x50000x256 ![1, 2] bcast_S50000x256_S1x50000x256_1_2 (X (Proc.devRef .tc main_v105))⟩,
      ⟨S1x50000x256, broadcastInDim S1x50000x256 ![1, 2] bcast_S50000x256_S1x50000x256_1_2 (X (Proc.devRef .tc main_v157))⟩]
    concatenates_S1x50000x256_S1x50000x256_S1x50000x256_S1x50000x256_S4x50000x256_d0
    (ix3 (0 : Fin 4) r q) 0 (show (0 : Nat) < 4 by decide) S1x50000x256 (broadcastInDim S1x50000x256 ![1, 2] bcast_S50000x256_S1x50000x256_1_2 (X (Proc.devRef .tc main_v1))) rfl rfl 0 rfl
    (ix3 (0 : Fin 1) r q) (fun b hb => ?_) rfl).trans (layer_unsqueeze_apply _ _ r q)
  match b with
  | ⟨0, _⟩ => exact absurd rfl hb
  | ⟨1, _⟩ => rfl
  | ⟨2, _⟩ => rfl

/-- Layer 1 of the result array is hop 1's output. -/
theorem host4_out1 (X : Valuation τ sig (Elt F)) (r : Fin 50000) (q : Fin 256) :
    StableHlo.after hostOps4 X (Proc.devRef .tc main_v162) (ix3 (1 : Fin 4) r q) = X (Proc.devRef .tc main_v53) (ix2 r q) := by
  rw [host4_out_arr]
  refine (concatenate_apply_piece (t := S4x50000x256) (0 : Fin 3)
    [⟨S1x50000x256, broadcastInDim S1x50000x256 ![1, 2] bcast_S50000x256_S1x50000x256_1_2 (X (Proc.devRef .tc main_v1))⟩,
      ⟨S1x50000x256, broadcastInDim S1x50000x256 ![1, 2] bcast_S50000x256_S1x50000x256_1_2 (X (Proc.devRef .tc main_v53))⟩,
      ⟨S1x50000x256, broadcastInDim S1x50000x256 ![1, 2] bcast_S50000x256_S1x50000x256_1_2 (X (Proc.devRef .tc main_v105))⟩,
      ⟨S1x50000x256, broadcastInDim S1x50000x256 ![1, 2] bcast_S50000x256_S1x50000x256_1_2 (X (Proc.devRef .tc main_v157))⟩]
    concatenates_S1x50000x256_S1x50000x256_S1x50000x256_S1x50000x256_S4x50000x256_d0
    (ix3 (1 : Fin 4) r q) 1 (show (1 : Nat) < 4 by decide) S1x50000x256 (broadcastInDim S1x50000x256 ![1, 2] bcast_S50000x256_S1x50000x256_1_2 (X (Proc.devRef .tc main_v53))) rfl rfl 1 rfl
    (ix3 (0 : Fin 1) r q) (fun b hb => ?_) rfl).trans (layer_unsqueeze_apply _ _ r q)
  match b with
  | ⟨0, _⟩ => exact absurd rfl hb
  | ⟨1, _⟩ => rfl
  | ⟨2, _⟩ => rfl

/-- Layer 2 of the result array is hop 2's output. -/
theorem host4_out2 (X : Valuation τ sig (Elt F)) (r : Fin 50000) (q : Fin 256) :
    StableHlo.after hostOps4 X (Proc.devRef .tc main_v162) (ix3 (2 : Fin 4) r q) = X (Proc.devRef .tc main_v105) (ix2 r q) := by
  rw [host4_out_arr]
  refine (concatenate_apply_piece (t := S4x50000x256) (0 : Fin 3)
    [⟨S1x50000x256, broadcastInDim S1x50000x256 ![1, 2] bcast_S50000x256_S1x50000x256_1_2 (X (Proc.devRef .tc main_v1))⟩,
      ⟨S1x50000x256, broadcastInDim S1x50000x256 ![1, 2] bcast_S50000x256_S1x50000x256_1_2 (X (Proc.devRef .tc main_v53))⟩,
      ⟨S1x50000x256, broadcastInDim S1x50000x256 ![1, 2] bcast_S50000x256_S1x50000x256_1_2 (X (Proc.devRef .tc main_v105))⟩,
      ⟨S1x50000x256, broadcastInDim S1x50000x256 ![1, 2] bcast_S50000x256_S1x50000x256_1_2 (X (Proc.devRef .tc main_v157))⟩]
    concatenates_S1x50000x256_S1x50000x256_S1x50000x256_S1x50000x256_S4x50000x256_d0
    (ix3 (2 : Fin 4) r q) 2 (show (2 : Nat) < 4 by decide) S1x50000x256 (broadcastInDim S1x50000x256 ![1, 2] bcast_S50000x256_S1x50000x256_1_2 (X (Proc.devRef .tc main_v105))) rfl rfl 2 rfl
    (ix3 (0 : Fin 1) r q) (fun b hb => ?_) rfl).trans (layer_unsqueeze_apply _ _ r q)
  match b with
  | ⟨0, _⟩ => exact absurd rfl hb
  | ⟨1, _⟩ => rfl
  | ⟨2, _⟩ => rfl

/-- Layer 3 of the result array is hop 3's output. -/
theorem host4_out3 (X : Valuation τ sig (Elt F)) (r : Fin 50000) (q : Fin 256) :
    StableHlo.after hostOps4 X (Proc.devRef .tc main_v162) (ix3 (3 : Fin 4) r q) = X (Proc.devRef .tc main_v157) (ix2 r q) := by
  rw [host4_out_arr]
  refine (concatenate_apply_piece (t := S4x50000x256) (0 : Fin 3)
    [⟨S1x50000x256, broadcastInDim S1x50000x256 ![1, 2] bcast_S50000x256_S1x50000x256_1_2 (X (Proc.devRef .tc main_v1))⟩,
      ⟨S1x50000x256, broadcastInDim S1x50000x256 ![1, 2] bcast_S50000x256_S1x50000x256_1_2 (X (Proc.devRef .tc main_v53))⟩,
      ⟨S1x50000x256, broadcastInDim S1x50000x256 ![1, 2] bcast_S50000x256_S1x50000x256_1_2 (X (Proc.devRef .tc main_v105))⟩,
      ⟨S1x50000x256, broadcastInDim S1x50000x256 ![1, 2] bcast_S50000x256_S1x50000x256_1_2 (X (Proc.devRef .tc main_v157))⟩]
    concatenates_S1x50000x256_S1x50000x256_S1x50000x256_S1x50000x256_S4x50000x256_d0
    (ix3 (3 : Fin 4) r q) 3 (show (3 : Nat) < 4 by decide) S1x50000x256 (broadcastInDim S1x50000x256 ![1, 2] bcast_S50000x256_S1x50000x256_1_2 (X (Proc.devRef .tc main_v157))) rfl rfl 3 rfl
    (ix3 (0 : Fin 1) r q) (fun b hb => ?_) rfl).trans (layer_unsqueeze_apply _ _ r q)
  match b with
  | ⟨0, _⟩ => exact absurd rfl hb
  | ⟨1, _⟩ => rfl
  | ⟨2, _⟩ => rfl

/-- The result array at any entry: layer h is the h-th of the four outputs. -/
theorem host4_out (X : Valuation τ sig (Elt F)) (h : Fin 4) (r : Fin 50000) (q : Fin 256) :
    StableHlo.after hostOps4 X (Proc.devRef .tc main_v162) (ix3 h r q)
      = (match h with
          | 0 => X (Proc.devRef .tc main_v1)
          | 1 => X (Proc.devRef .tc main_v53)
          | 2 => X (Proc.devRef .tc main_v105)
          | 3 => X (Proc.devRef .tc main_v157)) (ix2 r q) := by
  match h with
  | 0 => exact host4_out0 X r q
  | 1 => exact host4_out1 X r q
  | 2 => exact host4_out2 X r q
  | 3 => exact host4_out3 X r q

end Cert.KernelIdeal.Fr

end
-- ==== Proof.KI.Layer0.lean ====
/-
  The first layer the kernel program leaves in `main_v1`, at an entry, as a function of the launch memory:
  tanh(∑ₗ x(r, l)·W(q, l) + b(q)) of the arguments x, W (the input weights) and b (the input bias, which the program
  lays out as a 1×256 row before the region).
-/
import proofs.«128425_j26603027432197_1_alg».proof.Proof.KI.Value0
import proofs.«128425_j26603027432197_1_alg».proof.Proof.KI.FoldArgs
import proofs.«128425_j26603027432197_1_alg».proof.Proof.KI.HostReads

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- Layer 0 as the kernel program computes it, at (r, q). -/
theorem layer0_apply (c : Dev nD) (r : Fin 50000) (q : Fin 256) :
    W2 m ρ c (Proc.devRef .tc main_v1) (ix2 r q)
      = Cert.Spec.denseF (R := 50000) (m ((c : Thread nD τ).loc main_arg0)) (fun q l => m ((c : Thread nD τ).loc main_arg5) (ix2 q l))
          (fun q => m ((c : Thread nD τ).loc main_arg6) (ix1 q)) r q := by
  rw [show W2 m ρ c (Proc.devRef .tc main_v1) = (dat0 (V1 m ρ) c).arrAt 3 cfg0.N from W2_arr m ρ c 3, final0, G0_apply]
  show Cert.Spec.denseF (R := 50000) (W1 m ρ c (Proc.devRef .tc main_arg0)) (fun q l => W1 m ρ c (Proc.devRef .tc main_arg5) (ix2 q l))
      (fun q => StableHlo.after hostOps0 (W0 m ρ c) (Proc.devRef .tc main_v0) (ix2 0 q)) r q = _
  rw [W1_main_arg0, W1_main_arg5]
  refine congrArg (fun b => Cert.Spec.denseF (R := 50000) _ _ b r q) (funext fun k => ?_)
  exact host0_b (W0 m ρ c) 0 k

end Cert.KernelIdeal.Fr

end
-- ==== Proof.KI.Final1.lean ====
/-
  Region 1's output array after its ten grid points: point t writes back rows 5000·t … 5000·t + 4999, so the
  blocks tile the 50000 rows and the array ends as ONE function of the arrays the region was entered with — at row r
  the body's result block of the nine input blocks at point r / 5000, read at row r % 5000. The two row windows sit at
  block (t, 0) like the output; the four weights and three bias rows are whole arrays at block (0, 0).
-/
import proofs.«128425_j26603027432197_1_alg».proof.Proof.KI.R1Data
import proofs.«128425_j26603027432197_1_alg».proof.Proof.KI.Final0
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The grid point whose row block holds row `r`. -/
def pt1 (i : S50000x256.Idx) : Fin cfg1.N := ⟨(i 0).val / 5000, by show (i 0).val / 5000 < grid1.N; rw [N_1]; have : (i 0).val < 50000 := (i 0).isLt; omega⟩

theorem pt1_val (i : S50000x256.Idx) : (pt1 i).val = (i 0).val / 5000 := rfl

/-- Row `r` inside its block. -/
def loc1 (i : S50000x256.Idx) : S5000x256.Idx := ix2 (⟨(i 0).val % 5000, Nat.mod_lt _ (by decide)⟩ : Fin 5000) (i 1)

/-- What the output array ends holding: at (r, q) the body's result of the nine blocks at point r / 5000, at (r % 5000, q). -/
def G1 (c : Dev nD) : S50000x256.Idx → Elt F .f32 := fun i =>
  out1_9 (iblk1 V c 0 (pt1 i)) (iblk1 V c 1 (pt1 i)) (iblk1 V c 2 (pt1 i)) (iblk1 V c 3 (pt1 i)) (iblk1 V c 4 (pt1 i)) (iblk1 V c 5 (pt1 i)) (iblk1 V c 6 (pt1 i)) (iblk1 V c 7 (pt1 i)) (iblk1 V c 8 (pt1 i)) (loc1 i)

/-- The printed index maps, decided over the grid: the row windows 0, 1 and 9 sit at block (t, 0), the weights and bias
    rows (windows 2–8) at (0, 0). -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0 :=
  (by decide +kernel : ∀ t : Fin grid1.N, _)

/-- Reading a whole-array function through point `t`'s output block is the function at the block element's position. -/
theorem read_blk1 (t : Fin cfg1.N) (G : S50000x256.Idx → Elt F .f32) (j : ((cfg1.win 9).xblock (grid1.coords t)).Idx) :
    ((cfg1.win 9).blk t).view.read (Elt F) G j = G (((cfg1.win 9).blk t).view.emb j) := rfl

/-- What point `t` writes back is block `t` of `G1`. -/
theorem flushed1 (c : Dev nD) (t : Fin cfg1.N) :
    (dat1 V c).flushed 9 t = ((cfg1.win 9).blk t).view.read (Elt F) (G1 V c) := by
  show (cfg1.win 9).cut (grid1.coords t) ((dat1 V c).after 9 t) = _
  rw [after1_9]
  funext j
  refine (show (cfg1.win 9).cut (grid1.coords t) (out1_9 (iblk1 V c 0 t) (iblk1 V c 1 t) (iblk1 V c 2 t) (iblk1 V c 3 t) (iblk1 V c 4 t) (iblk1 V c 5 t) (iblk1 V c 6 t) (iblk1 V c 7 t) (iblk1 V c 8 t)) j
      = out1_9 (iblk1 V c 0 t) (iblk1 V c 1 t) (iblk1 V c 2 t) (iblk1 V c 3 t) (iblk1 V c 4 t) (iblk1 V c 5 t) (iblk1 V c 6 t) (iblk1 V c 7 t) (iblk1 V c 8 t) ((cfg1.win 9).xinj (grid1.coords t) j) from rfl).trans ?_
  rw [read_blk1]
  obtain ⟨-, -, -, -, -, -, -, -, -, -, -, -, -, -, -, -, -, -, e90, e91⟩ := idx1 t
  have hj0 : (j 0).val < 5000 := (j 0).isLt
  have hj1 : (j 1).val < 256 := (j 1).isLt
  have v0 : ((((cfg1.win 9).blk t).view.emb j) 0).val = win1_9.index t (0 : Fin 2) * 5000 + (j 0).val := (cfg1.win 9).rect_emb_val t j 0
  have v1 : ((((cfg1.win 9).blk t).view.emb j) 1).val = win1_9.index t (1 : Fin 2) * 256 + (j 1).val := (cfg1.win 9).rect_emb_val t j 1
  have hpt : pt1 (((cfg1.win 9).blk t).view.emb j) = t := Fin.ext (by rw [pt1_val, v0, e90]; omega)
  have hloc : loc1 (((cfg1.win 9).blk t).view.emb j) = (cfg1.win 9).xinj (grid1.coords t) j := by
    funext a; apply Fin.ext
    match a with
    | ⟨0, _⟩ => show ((((cfg1.win 9).blk t).view.emb j) 0).val % 5000 = (j 0).val; rw [v0, e90]; omega
    | ⟨1, _⟩ => show ((((cfg1.win 9).blk t).view.emb j) 1).val = (j 1).val; rw [v1, e91]; omega
  unfold G1
  rw [hpt, hloc]

/-- An index of the array is in point `t`'s block iff each coordinate is in the block's range on its axis. -/
theorem mem_blk1 (t : Fin cfg1.N) (i : S50000x256.Idx) :
    i ∈ ((cfg1.win 9).blk t).view.set ↔ ∀ a : Fin 2, win1_9.index t a * S5000x256.size a ≤ (i a).val ∧ (i a).val < win1_9.index t a * S5000x256.size a + S5000x256.size a := by
  show i ∈ ((View.whole main_v53).slice (win1_9.rect t)).set ↔ _
  rw [View.set_slice_whole, Rect.mem_set_unit]
  exact Iff.rfl

/-- Every row is in the block of the point r / 5000. -/
theorem cover1 (i : S50000x256.Idx) : ∃ t : Fin cfg1.N, (cfg1.win 9).flush t = true ∧ i ∈ ((cfg1.win 9).blk t).view.set := by
  refine ⟨pt1 i, flush1_9 _, ?_⟩
  rw [mem_blk1]
  obtain ⟨-, -, -, -, -, -, -, -, -, -, -, -, -, -, -, -, -, -, e90, e91⟩ := idx1 (pt1 i)
  have hi0 : (i 0).val < 50000 := (i 0).isLt
  have hi1 : (i 1).val < 256 := (i 1).isLt
  intro a
  match a with
  | ⟨0, _⟩ =>
    show win1_9.index (pt1 i) (0 : Fin 2) * 5000 ≤ (i 0).val ∧ (i 0).val < win1_9.index (pt1 i) (0 : Fin 2) * 5000 + 5000
    rw [e90, pt1_val]; omega
  | ⟨1, _⟩ =>
    show win1_9.index (pt1 i) (1 : Fin 2) * 256 ≤ (i 1).val ∧ (i 1).val < win1_9.index (pt1 i) (1 : Fin 2) * 256 + 256
    rw [e91]; omega

/-- The output array after the region. -/
theorem final1 (c : Dev nD) : (dat1 V c).arrAt 9 cfg1.N = G1 V c :=
  (dat1 V c).arrAt_eq_of_cover 9 (G1 V c) (fun t _ => flushed1 V c t) cover1

/-! ## The input blocks read at an entry -/

theorem iblk1_0 (c : Dev nD) (t : Fin cfg1.N) (p : Fin 5000) (l : Fin 256) (r : Fin 50000) (hr : r.val = t.val * 5000 + p.val) :
    iblk1 V c 0 t (ix2 p l) = V c main_v18 (ix2 r l) := by
  obtain ⟨e00, e01, -, -, -, -, -, -, -, -, -, -, -, -, -, -, -, -, -, -⟩ := idx1 t
  show V c main_v18 (((cfg1.win 0).blk t).view.emb (ix2 p l)) = V c main_v18 (ix2 r l)
  refine congrArg (V c main_v18) ?_
  funext a; apply Fin.ext
  match a with
  | ⟨0, _⟩ => show win1_0.index t (0 : Fin 2) * 5000 + 1 * p.val = r.val; rw [e00]; omega
  | ⟨1, _⟩ => show win1_0.index t (1 : Fin 2) * 256 + 1 * l.val = l.val; rw [e01]; omega

theorem iblk1_1 (c : Dev nD) (t : Fin cfg1.N) (p : Fin 5000) (l : Fin 256) (r : Fin 50000) (hr : r.val = t.val * 5000 + p.val) :
    iblk1 V c 1 t (ix2 p l) = V c main_v35 (ix2 r l) := by
  obtain ⟨-, -, e10, e11, -, -, -, -, -, -, -, -, -, -, -, -, -, -, -, -⟩ := idx1 t
  show V c main_v35 (((cfg1.win 1).blk t).view.emb (ix2 p l)) = V c main_v35 (ix2 r l)
  refine congrArg (V c main_v35) ?_
  funext a; apply Fin.ext
  match a with
  | ⟨0, _⟩ => show win1_1.index t (0 : Fin 2) * 5000 + 1 * p.val = r.val; rw [e10]; omega
  | ⟨1, _⟩ => show win1_1.index t (1 : Fin 2) * 256 + 1 * l.val = l.val; rw [e11]; omega

theorem iblk1_2 (c : Dev nD) (t : Fin cfg1.N) (k l : Fin 256) :
    iblk1 V c 2 t (ix2 k l) = V c main_v37 (ix2 k l) := by
  obtain ⟨-, -, -, -, e20, e21, -, -, -, -, -, -, -, -, -, -, -, -, -, -⟩ := idx1 t
  show V c main_v37 (((cfg1.win 2).blk t).view.emb (ix2 k l)) = V c main_v37 (ix2 k l)
  refine congrArg (V c main_v37) ?_
  funext a; apply Fin.ext
  match a with
  | ⟨0, _⟩ => show win1_2.index t (0 : Fin 2) * 256 + 1 * k.val = k.val; rw [e20]; omega
  | ⟨1, _⟩ => show win1_2.index t (1 : Fin 2) * 256 + 1 * l.val = l.val; rw [e21]; omega

theorem iblk1_3 (c : Dev nD) (t : Fin cfg1.N) (z : Fin 1) (l : Fin 256) :
    iblk1 V c 3 t (ix2 z l) = V c main_v50 (ix2 z l) := by
  obtain ⟨-, -, -, -, -, -, e30, e31, -, -, -, -, -, -, -, -, -, -, -, -⟩ := idx1 t
  show V c main_v50 (((cfg1.win 3).blk t).view.emb (ix2 z l)) = V c main_v50 (ix2 z l)
  refine congrArg (V c main_v50) ?_
  funext a; apply Fin.ext
  match a with
  | ⟨0, _⟩ => show win1_3.index t (0 : Fin 2) * 1 + 1 * z.val = z.val; rw [e30]; omega
  | ⟨1, _⟩ => show win1_3.index t (1 : Fin 2) * 256 + 1 * l.val = l.val; rw [e31]; omega

theorem iblk1_4 (c : Dev nD) (t : Fin cfg1.N) (k l : Fin 256) :
    iblk1 V c 4 t (ix2 k l) = V c main_v41 (ix2 k l) := by
  obtain ⟨-, -, -, -, -, -, -, -, e40, e41, -, -, -, -, -, -, -, -, -, -⟩ := idx1 t
  show V c main_v41 (((cfg1.win 4).blk t).view.emb (ix2 k l)) = V c main_v41 (ix2 k l)
  refine congrArg (V c main_v41) ?_
  funext a; apply Fin.ext
  match a with
  | ⟨0, _⟩ => show win1_4.index t (0 : Fin 2) * 256 + 1 * k.val = k.val; rw [e40]; omega
  | ⟨1, _⟩ => show win1_4.index t (1 : Fin 2) * 256 + 1 * l.val = l.val; rw [e41]; omega

theorem iblk1_5 (c : Dev nD) (t : Fin cfg1.N) (z : Fin 1) (l : Fin 256) :
    iblk1 V c 5 t (ix2 z l) = V c main_v51 (ix2 z l) := by
  obtain ⟨-, -, -, -, -, -, -, -, -, -, e50, e51, -, -, -, -, -, -, -, -⟩ := idx1 t
  show V c main_v51 (((cfg1.win 5).blk t).view.emb (ix2 z l)) = V c main_v51 (ix2 z l)
  refine congrArg (V c main_v51) ?_
  funext a; apply Fin.ext
  match a with
  | ⟨0, _⟩ => show win1_5.index t (0 : Fin 2) * 1 + 1 * z.val = z.val; rw [e50]; omega
  | ⟨1, _⟩ => show win1_5.index t (1 : Fin 2) * 256 + 1 * l.val = l.val; rw [e51]; omega

theorem iblk1_6 (c : Dev nD) (t : Fin cfg1.N) (k l : Fin 256) :
    iblk1 V c 6 t (ix2 k l) = V c main_v48 (ix2 k l) := by
  obtain ⟨-, -, -, -, -, -, -, -, -, -, -, -, e60, e61, -, -, -, -, -, -⟩ := idx1 t
  show V c main_v48 (((cfg1.win 6).blk t).view.emb (ix2 k l)) = V c main_v48 (ix2 k l)
  refine congrArg (V c main_v48) ?_
  funext a; apply Fin.ext
  match a with
  | ⟨0, _⟩ => show win1_6.index t (0 : Fin 2) * 256 + 1 * k.val = k.val; rw [e60]; omega
  | ⟨1, _⟩ => show win1_6.index t (1 : Fin 2) * 256 + 1 * l.val = l.val; rw [e61]; omega

theorem iblk1_7 (c : Dev nD) (t : Fin cfg1.N) (k l : Fin 256) :
    iblk1 V c 7 t (ix2 k l) = V c main_v49 (ix2 k l) := by
  obtain ⟨-, -, -, -, -, -, -, -, -, -, -, -, -, -, e70, e71, -, -, -, -⟩ := idx1 t
  show V c main_v49 (((cfg1.win 7).blk t).view.emb (ix2 k l)) = V c main_v49 (ix2 k l)
  refine congrArg (V c main_v49) ?_
  funext a; apply Fin.ext
  match a with
  | ⟨0, _⟩ => show win1_7.index t (0 : Fin 2) * 256 + 1 * k.val = k.val; rw [e70]; omega
  | ⟨1, _⟩ => show win1_7.index t (1 : Fin 2) * 256 + 1 * l.val = l.val; rw [e71]; omega

theorem iblk1_8 (c : Dev nD) (t : Fin cfg1.N) (z : Fin 1) (l : Fin 256) :
    iblk1 V c 8 t (ix2 z l) = V c main_v52 (ix2 z l) := by
  obtain ⟨-, -, -, -, -, -, -, -, -, -, -, -, -, -, -, -, e80, e81, -, -⟩ := idx1 t
  show V c main_v52 (((cfg1.win 8).blk t).view.emb (ix2 z l)) = V c main_v52 (ix2 z l)
  refine congrArg (V c main_v52) ?_
  funext a; apply Fin.ext
  match a with
  | ⟨0, _⟩ => show win1_8.index t (0 : Fin 2) * 1 + 1 * z.val = z.val; rw [e80]; omega
  | ⟨1, _⟩ => show win1_8.index t (1 : Fin 2) * 256 + 1 * l.val = l.val; rw [e81]; omega

/-- The body's result block is its payload of the nine input blocks (each access is a whole block). -/
theorem out1_9_eq (x0 x1 : Vec F S5000x256 .f32) (x2 : Vec F S256x256 .f32) (x3 : Vec F S1x256 .f32) (x4 : Vec F S256x256 .f32)
    (x5 : Vec F S1x256 .f32) (x6 x7 : Vec F S256x256 .f32) (x8 : Vec F S1x256 .f32) :
    out1_9 x0 x1 x2 x3 x4 x5 x6 x7 x8 = k1_pay1 (k1_pay2 x0 x1 x2 x4 x3 x5 x6 x7) x8 := by
  unfold out1_9
  rw [View.canon_unit_zero hz2]
  simp only [View.ld_unit_zero (S := S5000x256) hz2, View.ld_unit_zero (S := S256x256) hz2, View.ld_unit_zero (S := S1x256) hz2]

end Cert.KernelIdeal.Fr

end
-- ==== Proof.KI.Value1.lean ====
/-
  Region 1's output array at an entry, at the ideal values: row r is in the block of point r / 5000 at local row
  r % 5000, the two row blocks there are rows 5000·(r / 5000) … of the two aggregated arrays, and the four weight and
  three bias blocks are the whole arrays; so the array at (r, q) is the fused update
  tanh((∑ₖ (∑ₗ hp(r, l)·Wp(k, l) + bp(0, k))·Wfp(q, k) + ∑ₖ (∑ₗ hn(r, l)·Wn(k, l) + bn(0, k))·Wfn(q, k)) + bf(0, q))
  of the nine arrays the region was entered with.
-/
import proofs.«128425_j26603027432197_1_alg».proof.Proof.KI.Final1
import proofs.«128425_j26603027432197_1_alg».proof.Proof.KI.Payloads
import proofs.«128425_j26603027432197_1_alg».proof.Proof.Spec

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

theorem G1_apply (c : Dev nD) (r : Fin 50000) (q : Fin 256) :
    G1 V c (ix2 r q) = Cert.Spec.hopF (R := 50000) (V c main_v18) (V c main_v35) (fun k l => V c main_v37 (ix2 k l)) (fun k => V c main_v50 (ix2 0 k)) (fun k l => V c main_v41 (ix2 k l)) (fun k => V c main_v51 (ix2 0 k)) (fun q k => V c main_v48 (ix2 q k)) (fun q k => V c main_v49 (ix2 q k)) (fun q => V c main_v52 (ix2 0 q)) r q := by
  have hr5 : r.val % 5000 < 5000 := Nat.mod_lt _ (by decide)
  have hloc : loc1 (ix2 r q) = ix2 (⟨r.val % 5000, hr5⟩ : Fin 5000) q := rfl
  have hptv : (pt1 (ix2 r q)).val = r.val / 5000 := rfl
  have hr : r.val = (pt1 (ix2 r q)).val * 5000 + (⟨r.val % 5000, hr5⟩ : Fin 5000).val := by
    rw [hptv]; show r.val = r.val / 5000 * 5000 + r.val % 5000; omega
  unfold G1
  rw [out1_9_eq, hloc]
  refine (Cert.KernelPayloads.k1_pay_apply _ _ _ _ _ _ _ _ _ ⟨r.val % 5000, hr5⟩ q).trans ?_
  unfold Cert.Spec.hopF
  refine congrArg Ideal.tanh (congrArg₂ (· + ·) (congrArg₂ (· + ·)
    (Finset.sum_congr rfl fun k _ => congrArg₂ (· * ·) (congrArg₂ (· + ·) (Finset.sum_congr rfl fun l _ => ?_) ?_) ?_)
    (Finset.sum_congr rfl fun k _ => congrArg₂ (· * ·) (congrArg₂ (· + ·) (Finset.sum_congr rfl fun l _ => ?_) ?_) ?_)) ?_)
  · rw [iblk1_0 V c (pt1 (ix2 r q)) ⟨r.val % 5000, hr5⟩ l r hr, iblk1_2]
  · exact iblk1_3 V c (pt1 (ix2 r q)) 0 k
  · exact iblk1_6 V c (pt1 (ix2 r q)) q k
  · rw [iblk1_1 V c (pt1 (ix2 r q)) ⟨r.val % 5000, hr5⟩ l r hr, iblk1_4]
  · exact iblk1_5 V c (pt1 (ix2 r q)) 0 k
  · exact iblk1_7 V c (pt1 (ix2 r q)) q k
  · exact iblk1_8 V c (pt1 (ix2 r q)) 0 q

end Cert.KernelIdeal.Fr

end
-- ==== Proof.KI.Layer1.lean ====
/-
  The layer the kernel program leaves in `main_v53` (hop 1), at an entry, as a function of the launch memory and of the
  previous layer: the fused update of the two sparse aggregations of the previous layer with layer 0 of the stacked
  weights and biases (the fusing weight's lanes 0–255 against the first projection, 256–511 against the second).
-/
import proofs.«128425_j26603027432197_1_alg».proof.Proof.KI.Value1
import proofs.«128425_j26603027432197_1_alg».proof.Proof.KI.FoldArgs
import proofs.«128425_j26603027432197_1_alg».proof.Proof.KI.HostReads

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- Layer 1 as the kernel program computes it, at (r, q). -/
theorem layer1_apply (c : Dev nD) (r : Fin 50000) (q : Fin 256) :
    W4 m ρ c (Proc.devRef .tc main_v53) (ix2 r q)
      = Cert.Spec.hopF (R := 50000)
          (spmm (m ((c : Thread nD τ).loc main_arg1)) (m ((c : Thread nD τ).loc main_arg2)) (W2 m ρ c (Proc.devRef .tc main_v1)))
          (spmm (m ((c : Thread nD τ).loc main_arg3)) (m ((c : Thread nD τ).loc main_arg4)) (W2 m ρ c (Proc.devRef .tc main_v1)))
          (fun k l => m ((c : Thread nD τ).loc main_arg7) (ix3 (0 : Fin 3) k l)) (fun k => m ((c : Thread nD τ).loc main_arg8) (ix2 (0 : Fin 3) k))
          (fun k l => m ((c : Thread nD τ).loc main_arg9) (ix3 (0 : Fin 3) k l)) (fun k => m ((c : Thread nD τ).loc main_arg10) (ix2 (0 : Fin 3) k))
          (fun q k => m ((c : Thread nD τ).loc main_arg11) (ix3 (0 : Fin 3) q (⟨k.val, Nat.lt_trans k.isLt (by decide)⟩ : Fin 512)))
          (fun q k => m ((c : Thread nD τ).loc main_arg11) (ix3 (0 : Fin 3) q (⟨256 + k.val, by have := k.isLt; omega⟩ : Fin 512)))
          (fun q => m ((c : Thread nD τ).loc main_arg12) (ix2 (0 : Fin 3) q)) r q := by
  rw [show W4 m ρ c (Proc.devRef .tc main_v53) = (dat1 (V3 m ρ) c).arrAt 9 cfg1.N from W4_arr m ρ c 9, final1, G1_apply]
  -- the nine arrays region 1 is entered with, read through the host stretch before it
  have e0 : StableHlo.after hostOps1 (W2 m ρ c) (Proc.devRef .tc main_v18) = spmm (m ((c : Thread nD τ).loc main_arg1)) (m ((c : Thread nD τ).loc main_arg2)) (W2 m ρ c (Proc.devRef .tc main_v1)) := by
    rw [host1_hp, W2_main_arg1, W2_main_arg2]
  have e1 : StableHlo.after hostOps1 (W2 m ρ c) (Proc.devRef .tc main_v35) = spmm (m ((c : Thread nD τ).loc main_arg3)) (m ((c : Thread nD τ).loc main_arg4)) (W2 m ρ c (Proc.devRef .tc main_v1)) := by
    rw [host1_hn, W2_main_arg3, W2_main_arg4]
  have e2 : (fun k l => StableHlo.after hostOps1 (W2 m ρ c) (Proc.devRef .tc main_v37) (ix2 k l)) = fun k l => m ((c : Thread nD τ).loc main_arg7) (ix3 (0 : Fin 3) k l) :=
    funext fun k => funext fun l => by rw [host1_wp, W2_main_arg7]
  have e3 : (fun k => StableHlo.after hostOps1 (W2 m ρ c) (Proc.devRef .tc main_v50) (ix2 0 k)) = fun k => m ((c : Thread nD τ).loc main_arg8) (ix2 (0 : Fin 3) k) :=
    funext fun k => by rw [host1_bp, W2_main_arg8]
  have e4 : (fun k l => StableHlo.after hostOps1 (W2 m ρ c) (Proc.devRef .tc main_v41) (ix2 k l)) = fun k l => m ((c : Thread nD τ).loc main_arg9) (ix3 (0 : Fin 3) k l) :=
    funext fun k => funext fun l => by rw [host1_wn, W2_main_arg9]
  have e5 : (fun k => StableHlo.after hostOps1 (W2 m ρ c) (Proc.devRef .tc main_v51) (ix2 0 k)) = fun k => m ((c : Thread nD τ).loc main_arg10) (ix2 (0 : Fin 3) k) :=
    funext fun k => by rw [host1_bn, W2_main_arg10]
  have e6 : (fun q k => StableHlo.after hostOps1 (W2 m ρ c) (Proc.devRef .tc main_v48) (ix2 q k)) = fun q k => m ((c : Thread nD τ).loc main_arg11) (ix3 (0 : Fin 3) q (⟨k.val, Nat.lt_trans k.isLt (by decide)⟩ : Fin 512)) :=
    funext fun q => funext fun k => by rw [host1_wfp, W2_main_arg11]
  have e7 : (fun q k => StableHlo.after hostOps1 (W2 m ρ c) (Proc.devRef .tc main_v49) (ix2 q k)) = fun q k => m ((c : Thread nD τ).loc main_arg11) (ix3 (0 : Fin 3) q (⟨256 + k.val, by have := k.isLt; omega⟩ : Fin 512)) :=
    funext fun q => funext fun k => by rw [host1_wfn, W2_main_arg11]
  have e8 : (fun q => StableHlo.after hostOps1 (W2 m ρ c) (Proc.devRef .tc main_v52) (ix2 0 q)) = fun q => m ((c : Thread nD τ).loc main_arg12) (ix2 (0 : Fin 3) q) :=
    funext fun q => by rw [host1_bf, W2_main_arg12]
  show Cert.Spec.hopF (R := 50000) (StableHlo.after hostOps1 (W2 m ρ c) (Proc.devRef .tc main_v18)) (StableHlo.after hostOps1 (W2 m ρ c) (Proc.devRef .tc main_v35))
      (fun k l => StableHlo.after hostOps1 (W2 m ρ c) (Proc.devRef .tc main_v37) (ix2 k l)) (fun k => StableHlo.after hostOps1 (W2 m ρ c) (Proc.devRef .tc main_v50) (ix2 0 k))
      (fun k l => StableHlo.after hostOps1 (W2 m ρ c) (Proc.devRef .tc main_v41) (ix2 k l)) (fun k => StableHlo.after hostOps1 (W2 m ρ c) (Proc.devRef .tc main_v51) (ix2 0 k))
      (fun q k => StableHlo.after hostOps1 (W2 m ρ c) (Proc.devRef .tc main_v48) (ix2 q k)) (fun q k => StableHlo.after hostOps1 (W2 m ρ c) (Proc.devRef .tc main_v49) (ix2 q k))
      (fun q => StableHlo.after hostOps1 (W2 m ρ c) (Proc.devRef .tc main_v52) (ix2 0 q)) r q = _
  rw [e0, e1, e2, e3, e4, e5, e6, e7, e8]

end Cert.KernelIdeal.Fr

end
-- ==== Proof.KI.Final2.lean ====
/-
  Region 2's output array after its ten grid points: point t writes back rows 5000·t … 5000·t + 4999, so the
  blocks tile the 50000 rows and the array ends as ONE function of the arrays the region was entered with — at row r
  the body's result block of the nine input blocks at point r / 5000, read at row r % 5000. The two row windows sit at
  block (t, 0) like the output; the four weights and three bias rows are whole arrays at block (0, 0).
-/
import proofs.«128425_j26603027432197_1_alg».proof.Proof.KI.R2Data
import proofs.«128425_j26603027432197_1_alg».proof.Proof.KI.Final0
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The grid point whose row block holds row `r`. -/
def pt2 (i : S50000x256.Idx) : Fin cfg2.N := ⟨(i 0).val / 5000, by show (i 0).val / 5000 < grid2.N; rw [N_2]; have : (i 0).val < 50000 := (i 0).isLt; omega⟩

theorem pt2_val (i : S50000x256.Idx) : (pt2 i).val = (i 0).val / 5000 := rfl

/-- Row `r` inside its block. -/
def loc2 (i : S50000x256.Idx) : S5000x256.Idx := ix2 (⟨(i 0).val % 5000, Nat.mod_lt _ (by decide)⟩ : Fin 5000) (i 1)

/-- What the output array ends holding: at (r, q) the body's result of the nine blocks at point r / 5000, at (r % 5000, q). -/
def G2 (c : Dev nD) : S50000x256.Idx → Elt F .f32 := fun i =>
  out2_9 (iblk2 V c 0 (pt2 i)) (iblk2 V c 1 (pt2 i)) (iblk2 V c 2 (pt2 i)) (iblk2 V c 3 (pt2 i)) (iblk2 V c 4 (pt2 i)) (iblk2 V c 5 (pt2 i)) (iblk2 V c 6 (pt2 i)) (iblk2 V c 7 (pt2 i)) (iblk2 V c 8 (pt2 i)) (loc2 i)

/-- The printed index maps, decided over the grid: the row windows 0, 1 and 9 sit at block (t, 0), the weights and bias
    rows (windows 2–8) at (0, 0). -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = t.val
    ∧ win2_9.index t (1 : Fin 2) = 0 :=
  (by decide +kernel : ∀ t : Fin grid2.N, _)

/-- Reading a whole-array function through point `t`'s output block is the function at the block element's position. -/
theorem read_blk2 (t : Fin cfg2.N) (G : S50000x256.Idx → Elt F .f32) (j : ((cfg2.win 9).xblock (grid2.coords t)).Idx) :
    ((cfg2.win 9).blk t).view.read (Elt F) G j = G (((cfg2.win 9).blk t).view.emb j) := rfl

/-- What point `t` writes back is block `t` of `G2`. -/
theorem flushed2 (c : Dev nD) (t : Fin cfg2.N) :
    (dat2 V c).flushed 9 t = ((cfg2.win 9).blk t).view.read (Elt F) (G2 V c) := by
  show (cfg2.win 9).cut (grid2.coords t) ((dat2 V c).after 9 t) = _
  rw [after2_9]
  funext j
  refine (show (cfg2.win 9).cut (grid2.coords t) (out2_9 (iblk2 V c 0 t) (iblk2 V c 1 t) (iblk2 V c 2 t) (iblk2 V c 3 t) (iblk2 V c 4 t) (iblk2 V c 5 t) (iblk2 V c 6 t) (iblk2 V c 7 t) (iblk2 V c 8 t)) j
      = out2_9 (iblk2 V c 0 t) (iblk2 V c 1 t) (iblk2 V c 2 t) (iblk2 V c 3 t) (iblk2 V c 4 t) (iblk2 V c 5 t) (iblk2 V c 6 t) (iblk2 V c 7 t) (iblk2 V c 8 t) ((cfg2.win 9).xinj (grid2.coords t) j) from rfl).trans ?_
  rw [read_blk2]
  obtain ⟨-, -, -, -, -, -, -, -, -, -, -, -, -, -, -, -, -, -, e90, e91⟩ := idx2 t
  have hj0 : (j 0).val < 5000 := (j 0).isLt
  have hj1 : (j 1).val < 256 := (j 1).isLt
  have v0 : ((((cfg2.win 9).blk t).view.emb j) 0).val = win2_9.index t (0 : Fin 2) * 5000 + (j 0).val := (cfg2.win 9).rect_emb_val t j 0
  have v1 : ((((cfg2.win 9).blk t).view.emb j) 1).val = win2_9.index t (1 : Fin 2) * 256 + (j 1).val := (cfg2.win 9).rect_emb_val t j 1
  have hpt : pt2 (((cfg2.win 9).blk t).view.emb j) = t := Fin.ext (by rw [pt2_val, v0, e90]; omega)
  have hloc : loc2 (((cfg2.win 9).blk t).view.emb j) = (cfg2.win 9).xinj (grid2.coords t) j := by
    funext a; apply Fin.ext
    match a with
    | ⟨0, _⟩ => show ((((cfg2.win 9).blk t).view.emb j) 0).val % 5000 = (j 0).val; rw [v0, e90]; omega
    | ⟨1, _⟩ => show ((((cfg2.win 9).blk t).view.emb j) 1).val = (j 1).val; rw [v1, e91]; omega
  unfold G2
  rw [hpt, hloc]

/-- An index of the array is in point `t`'s block iff each coordinate is in the block's range on its axis. -/
theorem mem_blk2 (t : Fin cfg2.N) (i : S50000x256.Idx) :
    i ∈ ((cfg2.win 9).blk t).view.set ↔ ∀ a : Fin 2, win2_9.index t a * S5000x256.size a ≤ (i a).val ∧ (i a).val < win2_9.index t a * S5000x256.size a + S5000x256.size a := by
  show i ∈ ((View.whole main_v105).slice (win2_9.rect t)).set ↔ _
  rw [View.set_slice_whole, Rect.mem_set_unit]
  exact Iff.rfl

/-- Every row is in the block of the point r / 5000. -/
theorem cover2 (i : S50000x256.Idx) : ∃ t : Fin cfg2.N, (cfg2.win 9).flush t = true ∧ i ∈ ((cfg2.win 9).blk t).view.set := by
  refine ⟨pt2 i, flush2_9 _, ?_⟩
  rw [mem_blk2]
  obtain ⟨-, -, -, -, -, -, -, -, -, -, -, -, -, -, -, -, -, -, e90, e91⟩ := idx2 (pt2 i)
  have hi0 : (i 0).val < 50000 := (i 0).isLt
  have hi1 : (i 1).val < 256 := (i 1).isLt
  intro a
  match a with
  | ⟨0, _⟩ =>
    show win2_9.index (pt2 i) (0 : Fin 2) * 5000 ≤ (i 0).val ∧ (i 0).val < win2_9.index (pt2 i) (0 : Fin 2) * 5000 + 5000
    rw [e90, pt2_val]; omega
  | ⟨1, _⟩ =>
    show win2_9.index (pt2 i) (1 : Fin 2) * 256 ≤ (i 1).val ∧ (i 1).val < win2_9.index (pt2 i) (1 : Fin 2) * 256 + 256
    rw [e91]; omega

/-- The output array after the region. -/
theorem final2 (c : Dev nD) : (dat2 V c).arrAt 9 cfg2.N = G2 V c :=
  (dat2 V c).arrAt_eq_of_cover 9 (G2 V c) (fun t _ => flushed2 V c t) cover2

/-! ## The input blocks read at an entry -/

theorem iblk2_0 (c : Dev nD) (t : Fin cfg2.N) (p : Fin 5000) (l : Fin 256) (r : Fin 50000) (hr : r.val = t.val * 5000 + p.val) :
    iblk2 V c 0 t (ix2 p l) = V c main_v70 (ix2 r l) := by
  obtain ⟨e00, e01, -, -, -, -, -, -, -, -, -, -, -, -, -, -, -, -, -, -⟩ := idx2 t
  show V c main_v70 (((cfg2.win 0).blk t).view.emb (ix2 p l)) = V c main_v70 (ix2 r l)
  refine congrArg (V c main_v70) ?_
  funext a; apply Fin.ext
  match a with
  | ⟨0, _⟩ => show win2_0.index t (0 : Fin 2) * 5000 + 1 * p.val = r.val; rw [e00]; omega
  | ⟨1, _⟩ => show win2_0.index t (1 : Fin 2) * 256 + 1 * l.val = l.val; rw [e01]; omega

theorem iblk2_1 (c : Dev nD) (t : Fin cfg2.N) (p : Fin 5000) (l : Fin 256) (r : Fin 50000) (hr : r.val = t.val * 5000 + p.val) :
    iblk2 V c 1 t (ix2 p l) = V c main_v87 (ix2 r l) := by
  obtain ⟨-, -, e10, e11, -, -, -, -, -, -, -, -, -, -, -, -, -, -, -, -⟩ := idx2 t
  show V c main_v87 (((cfg2.win 1).blk t).view.emb (ix2 p l)) = V c main_v87 (ix2 r l)
  refine congrArg (V c main_v87) ?_
  funext a; apply Fin.ext
  match a with
  | ⟨0, _⟩ => show win2_1.index t (0 : Fin 2) * 5000 + 1 * p.val = r.val; rw [e10]; omega
  | ⟨1, _⟩ => show win2_1.index t (1 : Fin 2) * 256 + 1 * l.val = l.val; rw [e11]; omega

theorem iblk2_2 (c : Dev nD) (t : Fin cfg2.N) (k l : Fin 256) :
    iblk2 V c 2 t (ix2 k l) = V c main_v89 (ix2 k l) := by
  obtain ⟨-, -, -, -, e20, e21, -, -, -, -, -, -, -, -, -, -, -, -, -, -⟩ := idx2 t
  show V c main_v89 (((cfg2.win 2).blk t).view.emb (ix2 k l)) = V c main_v89 (ix2 k l)
  refine congrArg (V c main_v89) ?_
  funext a; apply Fin.ext
  match a with
  | ⟨0, _⟩ => show win2_2.index t (0 : Fin 2) * 256 + 1 * k.val = k.val; rw [e20]; omega
  | ⟨1, _⟩ => show win2_2.index t (1 : Fin 2) * 256 + 1 * l.val = l.val; rw [e21]; omega

theorem iblk2_3 (c : Dev nD) (t : Fin cfg2.N) (z : Fin 1) (l : Fin 256) :
    iblk2 V c 3 t (ix2 z l) = V c main_v102 (ix2 z l) := by
  obtain ⟨-, -, -, -, -, -, e30, e31, -, -, -, -, -, -, -, -, -, -, -, -⟩ := idx2 t
  show V c main_v102 (((cfg2.win 3).blk t).view.emb (ix2 z l)) = V c main_v102 (ix2 z l)
  refine congrArg (V c main_v102) ?_
  funext a; apply Fin.ext
  match a with
  | ⟨0, _⟩ => show win2_3.index t (0 : Fin 2) * 1 + 1 * z.val = z.val; rw [e30]; omega
  | ⟨1, _⟩ => show win2_3.index t (1 : Fin 2) * 256 + 1 * l.val = l.val; rw [e31]; omega

theorem iblk2_4 (c : Dev nD) (t : Fin cfg2.N) (k l : Fin 256) :
    iblk2 V c 4 t (ix2 k l) = V c main_v93 (ix2 k l) := by
  obtain ⟨-, -, -, -, -, -, -, -, e40, e41, -, -, -, -, -, -, -, -, -, -⟩ := idx2 t
  show V c main_v93 (((cfg2.win 4).blk t).view.emb (ix2 k l)) = V c main_v93 (ix2 k l)
  refine congrArg (V c main_v93) ?_
  funext a; apply Fin.ext
  match a with
  | ⟨0, _⟩ => show win2_4.index t (0 : Fin 2) * 256 + 1 * k.val = k.val; rw [e40]; omega
  | ⟨1, _⟩ => show win2_4.index t (1 : Fin 2) * 256 + 1 * l.val = l.val; rw [e41]; omega

theorem iblk2_5 (c : Dev nD) (t : Fin cfg2.N) (z : Fin 1) (l : Fin 256) :
    iblk2 V c 5 t (ix2 z l) = V c main_v103 (ix2 z l) := by
  obtain ⟨-, -, -, -, -, -, -, -, -, -, e50, e51, -, -, -, -, -, -, -, -⟩ := idx2 t
  show V c main_v103 (((cfg2.win 5).blk t).view.emb (ix2 z l)) = V c main_v103 (ix2 z l)
  refine congrArg (V c main_v103) ?_
  funext a; apply Fin.ext
  match a with
  | ⟨0, _⟩ => show win2_5.index t (0 : Fin 2) * 1 + 1 * z.val = z.val; rw [e50]; omega
  | ⟨1, _⟩ => show win2_5.index t (1 : Fin 2) * 256 + 1 * l.val = l.val; rw [e51]; omega

theorem iblk2_6 (c : Dev nD) (t : Fin cfg2.N) (k l : Fin 256) :
    iblk2 V c 6 t (ix2 k l) = V c main_v100 (ix2 k l) := by
  obtain ⟨-, -, -, -, -, -, -, -, -, -, -, -, e60, e61, -, -, -, -, -, -⟩ := idx2 t
  show V c main_v100 (((cfg2.win 6).blk t).view.emb (ix2 k l)) = V c main_v100 (ix2 k l)
  refine congrArg (V c main_v100) ?_
  funext a; apply Fin.ext
  match a with
  | ⟨0, _⟩ => show win2_6.index t (0 : Fin 2) * 256 + 1 * k.val = k.val; rw [e60]; omega
  | ⟨1, _⟩ => show win2_6.index t (1 : Fin 2) * 256 + 1 * l.val = l.val; rw [e61]; omega

theorem iblk2_7 (c : Dev nD) (t : Fin cfg2.N) (k l : Fin 256) :
    iblk2 V c 7 t (ix2 k l) = V c main_v101 (ix2 k l) := by
  obtain ⟨-, -, -, -, -, -, -, -, -, -, -, -, -, -, e70, e71, -, -, -, -⟩ := idx2 t
  show V c main_v101 (((cfg2.win 7).blk t).view.emb (ix2 k l)) = V c main_v101 (ix2 k l)
  refine congrArg (V c main_v101) ?_
  funext a; apply Fin.ext
  match a with
  | ⟨0, _⟩ => show win2_7.index t (0 : Fin 2) * 256 + 1 * k.val = k.val; rw [e70]; omega
  | ⟨1, _⟩ => show win2_7.index t (1 : Fin 2) * 256 + 1 * l.val = l.val; rw [e71]; omega

theorem iblk2_8 (c : Dev nD) (t : Fin cfg2.N) (z : Fin 1) (l : Fin 256) :
    iblk2 V c 8 t (ix2 z l) = V c main_v104 (ix2 z l) := by
  obtain ⟨-, -, -, -, -, -, -, -, -, -, -, -, -, -, -, -, e80, e81, -, -⟩ := idx2 t
  show V c main_v104 (((cfg2.win 8).blk t).view.emb (ix2 z l)) = V c main_v104 (ix2 z l)
  refine congrArg (V c main_v104) ?_
  funext a; apply Fin.ext
  match a with
  | ⟨0, _⟩ => show win2_8.index t (0 : Fin 2) * 1 + 1 * z.val = z.val; rw [e80]; omega
  | ⟨1, _⟩ => show win2_8.index t (1 : Fin 2) * 256 + 1 * l.val = l.val; rw [e81]; omega

/-- The body's result block is its payload of the nine input blocks (each access is a whole block). -/
theorem out2_9_eq (x0 x1 : Vec F S5000x256 .f32) (x2 : Vec F S256x256 .f32) (x3 : Vec F S1x256 .f32) (x4 : Vec F S256x256 .f32)
    (x5 : Vec F S1x256 .f32) (x6 x7 : Vec F S256x256 .f32) (x8 : Vec F S1x256 .f32) :
    out2_9 x0 x1 x2 x3 x4 x5 x6 x7 x8 = k2_pay1 (k2_pay2 x0 x1 x2 x4 x3 x5 x6 x7) x8 := by
  unfold out2_9
  rw [View.canon_unit_zero hz2]
  simp only [View.ld_unit_zero (S := S5000x256) hz2, View.ld_unit_zero (S := S256x256) hz2, View.ld_unit_zero (S := S1x256) hz2]

end Cert.KernelIdeal.Fr

end
-- ==== Proof.KI.Value2.lean ====
/-
  Region 2's output array at an entry, at the ideal values: row r is in the block of point r / 5000 at local row
  r % 5000, the two row blocks there are rows 5000·(r / 5000) … of the two aggregated arrays, and the four weight and
  three bias blocks are the whole arrays; so the array at (r, q) is the fused update
  tanh((∑ₖ (∑ₗ hp(r, l)·Wp(k, l) + bp(0, k))·Wfp(q, k) + ∑ₖ (∑ₗ hn(r, l)·Wn(k, l) + bn(0, k))·Wfn(q, k)) + bf(0, q))
  of the nine arrays the region was entered with.
-/
import proofs.«128425_j26603027432197_1_alg».proof.Proof.KI.Final2
import proofs.«128425_j26603027432197_1_alg».proof.Proof.KI.Payloads
import proofs.«128425_j26603027432197_1_alg».proof.Proof.Spec

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

theorem G2_apply (c : Dev nD) (r : Fin 50000) (q : Fin 256) :
    G2 V c (ix2 r q) = Cert.Spec.hopF (R := 50000) (V c main_v70) (V c main_v87) (fun k l => V c main_v89 (ix2 k l)) (fun k => V c main_v102 (ix2 0 k)) (fun k l => V c main_v93 (ix2 k l)) (fun k => V c main_v103 (ix2 0 k)) (fun q k => V c main_v100 (ix2 q k)) (fun q k => V c main_v101 (ix2 q k)) (fun q => V c main_v104 (ix2 0 q)) r q := by
  have hr5 : r.val % 5000 < 5000 := Nat.mod_lt _ (by decide)
  have hloc : loc2 (ix2 r q) = ix2 (⟨r.val % 5000, hr5⟩ : Fin 5000) q := rfl
  have hptv : (pt2 (ix2 r q)).val = r.val / 5000 := rfl
  have hr : r.val = (pt2 (ix2 r q)).val * 5000 + (⟨r.val % 5000, hr5⟩ : Fin 5000).val := by
    rw [hptv]; show r.val = r.val / 5000 * 5000 + r.val % 5000; omega
  unfold G2
  rw [out2_9_eq, hloc]
  refine (Cert.KernelPayloads.k2_pay_apply _ _ _ _ _ _ _ _ _ ⟨r.val % 5000, hr5⟩ q).trans ?_
  unfold Cert.Spec.hopF
  refine congrArg Ideal.tanh (congrArg₂ (· + ·) (congrArg₂ (· + ·)
    (Finset.sum_congr rfl fun k _ => congrArg₂ (· * ·) (congrArg₂ (· + ·) (Finset.sum_congr rfl fun l _ => ?_) ?_) ?_)
    (Finset.sum_congr rfl fun k _ => congrArg₂ (· * ·) (congrArg₂ (· + ·) (Finset.sum_congr rfl fun l _ => ?_) ?_) ?_)) ?_)
  · rw [iblk2_0 V c (pt2 (ix2 r q)) ⟨r.val % 5000, hr5⟩ l r hr, iblk2_2]
  · exact iblk2_3 V c (pt2 (ix2 r q)) 0 k
  · exact iblk2_6 V c (pt2 (ix2 r q)) q k
  · rw [iblk2_1 V c (pt2 (ix2 r q)) ⟨r.val % 5000, hr5⟩ l r hr, iblk2_4]
  · exact iblk2_5 V c (pt2 (ix2 r q)) 0 k
  · exact iblk2_7 V c (pt2 (ix2 r q)) q k
  · exact iblk2_8 V c (pt2 (ix2 r q)) 0 q

end Cert.KernelIdeal.Fr

end
-- ==== Proof.KI.Layer2.lean ====
/-
  The layer the kernel program leaves in `main_v105` (hop 2), at an entry, as a function of the launch memory and of the
  previous layer: the fused update of the two sparse aggregations of the previous layer with layer 1 of the stacked
  weights and biases (the fusing weight's lanes 0–255 against the first projection, 256–511 against the second).
-/
import proofs.«128425_j26603027432197_1_alg».proof.Proof.KI.Value2
import proofs.«128425_j26603027432197_1_alg».proof.Proof.KI.FoldArgs
import proofs.«128425_j26603027432197_1_alg».proof.Proof.KI.HostReads

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- Layer 2 as the kernel program computes it, at (r, q). -/
theorem layer2_apply (c : Dev nD) (r : Fin 50000) (q : Fin 256) :
    W6 m ρ c (Proc.devRef .tc main_v105) (ix2 r q)
      = Cert.Spec.hopF (R := 50000)
          (spmm (m ((c : Thread nD τ).loc main_arg1)) (m ((c : Thread nD τ).loc main_arg2)) (W4 m ρ c (Proc.devRef .tc main_v53)))
          (spmm (m ((c : Thread nD τ).loc main_arg3)) (m ((c : Thread nD τ).loc main_arg4)) (W4 m ρ c (Proc.devRef .tc main_v53)))
          (fun k l => m ((c : Thread nD τ).loc main_arg7) (ix3 (1 : Fin 3) k l)) (fun k => m ((c : Thread nD τ).loc main_arg8) (ix2 (1 : Fin 3) k))
          (fun k l => m ((c : Thread nD τ).loc main_arg9) (ix3 (1 : Fin 3) k l)) (fun k => m ((c : Thread nD τ).loc main_arg10) (ix2 (1 : Fin 3) k))
          (fun q k => m ((c : Thread nD τ).loc main_arg11) (ix3 (1 : Fin 3) q (⟨k.val, Nat.lt_trans k.isLt (by decide)⟩ : Fin 512)))
          (fun q k => m ((c : Thread nD τ).loc main_arg11) (ix3 (1 : Fin 3) q (⟨256 + k.val, by have := k.isLt; omega⟩ : Fin 512)))
          (fun q => m ((c : Thread nD τ).loc main_arg12) (ix2 (1 : Fin 3) q)) r q := by
  rw [show W6 m ρ c (Proc.devRef .tc main_v105) = (dat2 (V5 m ρ) c).arrAt 9 cfg2.N from W6_arr m ρ c 9, final2, G2_apply]
  -- the nine arrays region 2 is entered with, read through the host stretch before it
  have e0 : StableHlo.after hostOps2 (W4 m ρ c) (Proc.devRef .tc main_v70) = spmm (m ((c : Thread nD τ).loc main_arg1)) (m ((c : Thread nD τ).loc main_arg2)) (W4 m ρ c (Proc.devRef .tc main_v53)) := by
    rw [host2_hp, W4_main_arg1, W4_main_arg2]
  have e1 : StableHlo.after hostOps2 (W4 m ρ c) (Proc.devRef .tc main_v87) = spmm (m ((c : Thread nD τ).loc main_arg3)) (m ((c : Thread nD τ).loc main_arg4)) (W4 m ρ c (Proc.devRef .tc main_v53)) := by
    rw [host2_hn, W4_main_arg3, W4_main_arg4]
  have e2 : (fun k l => StableHlo.after hostOps2 (W4 m ρ c) (Proc.devRef .tc main_v89) (ix2 k l)) = fun k l => m ((c : Thread nD τ).loc main_arg7) (ix3 (1 : Fin 3) k l) :=
    funext fun k => funext fun l => by rw [host2_wp, W4_main_arg7]
  have e3 : (fun k => StableHlo.after hostOps2 (W4 m ρ c) (Proc.devRef .tc main_v102) (ix2 0 k)) = fun k => m ((c : Thread nD τ).loc main_arg8) (ix2 (1 : Fin 3) k) :=
    funext fun k => by rw [host2_bp, W4_main_arg8]
  have e4 : (fun k l => StableHlo.after hostOps2 (W4 m ρ c) (Proc.devRef .tc main_v93) (ix2 k l)) = fun k l => m ((c : Thread nD τ).loc main_arg9) (ix3 (1 : Fin 3) k l) :=
    funext fun k => funext fun l => by rw [host2_wn, W4_main_arg9]
  have e5 : (fun k => StableHlo.after hostOps2 (W4 m ρ c) (Proc.devRef .tc main_v103) (ix2 0 k)) = fun k => m ((c : Thread nD τ).loc main_arg10) (ix2 (1 : Fin 3) k) :=
    funext fun k => by rw [host2_bn, W4_main_arg10]
  have e6 : (fun q k => StableHlo.after hostOps2 (W4 m ρ c) (Proc.devRef .tc main_v100) (ix2 q k)) = fun q k => m ((c : Thread nD τ).loc main_arg11) (ix3 (1 : Fin 3) q (⟨k.val, Nat.lt_trans k.isLt (by decide)⟩ : Fin 512)) :=
    funext fun q => funext fun k => by rw [host2_wfp, W4_main_arg11]
  have e7 : (fun q k => StableHlo.after hostOps2 (W4 m ρ c) (Proc.devRef .tc main_v101) (ix2 q k)) = fun q k => m ((c : Thread nD τ).loc main_arg11) (ix3 (1 : Fin 3) q (⟨256 + k.val, by have := k.isLt; omega⟩ : Fin 512)) :=
    funext fun q => funext fun k => by rw [host2_wfn, W4_main_arg11]
  have e8 : (fun q => StableHlo.after hostOps2 (W4 m ρ c) (Proc.devRef .tc main_v104) (ix2 0 q)) = fun q => m ((c : Thread nD τ).loc main_arg12) (ix2 (1 : Fin 3) q) :=
    funext fun q => by rw [host2_bf, W4_main_arg12]
  show Cert.Spec.hopF (R := 50000) (StableHlo.after hostOps2 (W4 m ρ c) (Proc.devRef .tc main_v70)) (StableHlo.after hostOps2 (W4 m ρ c) (Proc.devRef .tc main_v87))
      (fun k l => StableHlo.after hostOps2 (W4 m ρ c) (Proc.devRef .tc main_v89) (ix2 k l)) (fun k => StableHlo.after hostOps2 (W4 m ρ c) (Proc.devRef .tc main_v102) (ix2 0 k))
      (fun k l => StableHlo.after hostOps2 (W4 m ρ c) (Proc.devRef .tc main_v93) (ix2 k l)) (fun k => StableHlo.after hostOps2 (W4 m ρ c) (Proc.devRef .tc main_v103) (ix2 0 k))
      (fun q k => StableHlo.after hostOps2 (W4 m ρ c) (Proc.devRef .tc main_v100) (ix2 q k)) (fun q k => StableHlo.after hostOps2 (W4 m ρ c) (Proc.devRef .tc main_v101) (ix2 q k))
      (fun q => StableHlo.after hostOps2 (W4 m ρ c) (Proc.devRef .tc main_v104) (ix2 0 q)) r q = _
  rw [e0, e1, e2, e3, e4, e5, e6, e7, e8]

end Cert.KernelIdeal.Fr

end
-- ==== Proof.KI.Final3.lean ====
/-
  Region 3's output array after its ten grid points: point t writes back rows 5000·t … 5000·t + 4999, so the
  blocks tile the 50000 rows and the array ends as ONE function of the arrays the region was entered with — at row r
  the body's result block of the nine input blocks at point r / 5000, read at row r % 5000. The two row windows sit at
  block (t, 0) like the output; the four weights and three bias rows are whole arrays at block (0, 0).
-/
import proofs.«128425_j26603027432197_1_alg».proof.Proof.KI.R3Data
import proofs.«128425_j26603027432197_1_alg».proof.Proof.KI.Final0
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The grid point whose row block holds row `r`. -/
def pt3 (i : S50000x256.Idx) : Fin cfg3.N := ⟨(i 0).val / 5000, by show (i 0).val / 5000 < grid3.N; rw [N_3]; have : (i 0).val < 50000 := (i 0).isLt; omega⟩

theorem pt3_val (i : S50000x256.Idx) : (pt3 i).val = (i 0).val / 5000 := rfl

/-- Row `r` inside its block. -/
def loc3 (i : S50000x256.Idx) : S5000x256.Idx := ix2 (⟨(i 0).val % 5000, Nat.mod_lt _ (by decide)⟩ : Fin 5000) (i 1)

/-- What the output array ends holding: at (r, q) the body's result of the nine blocks at point r / 5000, at (r % 5000, q). -/
def G3 (c : Dev nD) : S50000x256.Idx → Elt F .f32 := fun i =>
  out3_9 (iblk3 V c 0 (pt3 i)) (iblk3 V c 1 (pt3 i)) (iblk3 V c 2 (pt3 i)) (iblk3 V c 3 (pt3 i)) (iblk3 V c 4 (pt3 i)) (iblk3 V c 5 (pt3 i)) (iblk3 V c 6 (pt3 i)) (iblk3 V c 7 (pt3 i)) (iblk3 V c 8 (pt3 i)) (loc3 i)

/-- The printed index maps, decided over the grid: the row windows 0, 1 and 9 sit at block (t, 0), the weights and bias
    rows (windows 2–8) at (0, 0). -/
theorem idx3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = t.val
    ∧ win3_9.index t (1 : Fin 2) = 0 :=
  (by decide +kernel : ∀ t : Fin grid3.N, _)

/-- Reading a whole-array function through point `t`'s output block is the function at the block element's position. -/
theorem read_blk3 (t : Fin cfg3.N) (G : S50000x256.Idx → Elt F .f32) (j : ((cfg3.win 9).xblock (grid3.coords t)).Idx) :
    ((cfg3.win 9).blk t).view.read (Elt F) G j = G (((cfg3.win 9).blk t).view.emb j) := rfl

/-- What point `t` writes back is block `t` of `G3`. -/
theorem flushed3 (c : Dev nD) (t : Fin cfg3.N) :
    (dat3 V c).flushed 9 t = ((cfg3.win 9).blk t).view.read (Elt F) (G3 V c) := by
  show (cfg3.win 9).cut (grid3.coords t) ((dat3 V c).after 9 t) = _
  rw [after3_9]
  funext j
  refine (show (cfg3.win 9).cut (grid3.coords t) (out3_9 (iblk3 V c 0 t) (iblk3 V c 1 t) (iblk3 V c 2 t) (iblk3 V c 3 t) (iblk3 V c 4 t) (iblk3 V c 5 t) (iblk3 V c 6 t) (iblk3 V c 7 t) (iblk3 V c 8 t)) j
      = out3_9 (iblk3 V c 0 t) (iblk3 V c 1 t) (iblk3 V c 2 t) (iblk3 V c 3 t) (iblk3 V c 4 t) (iblk3 V c 5 t) (iblk3 V c 6 t) (iblk3 V c 7 t) (iblk3 V c 8 t) ((cfg3.win 9).xinj (grid3.coords t) j) from rfl).trans ?_
  rw [read_blk3]
  obtain ⟨-, -, -, -, -, -, -, -, -, -, -, -, -, -, -, -, -, -, e90, e91⟩ := idx3 t
  have hj0 : (j 0).val < 5000 := (j 0).isLt
  have hj1 : (j 1).val < 256 := (j 1).isLt
  have v0 : ((((cfg3.win 9).blk t).view.emb j) 0).val = win3_9.index t (0 : Fin 2) * 5000 + (j 0).val := (cfg3.win 9).rect_emb_val t j 0
  have v1 : ((((cfg3.win 9).blk t).view.emb j) 1).val = win3_9.index t (1 : Fin 2) * 256 + (j 1).val := (cfg3.win 9).rect_emb_val t j 1
  have hpt : pt3 (((cfg3.win 9).blk t).view.emb j) = t := Fin.ext (by rw [pt3_val, v0, e90]; omega)
  have hloc : loc3 (((cfg3.win 9).blk t).view.emb j) = (cfg3.win 9).xinj (grid3.coords t) j := by
    funext a; apply Fin.ext
    match a with
    | ⟨0, _⟩ => show ((((cfg3.win 9).blk t).view.emb j) 0).val % 5000 = (j 0).val; rw [v0, e90]; omega
    | ⟨1, _⟩ => show ((((cfg3.win 9).blk t).view.emb j) 1).val = (j 1).val; rw [v1, e91]; omega
  unfold G3
  rw [hpt, hloc]

/-- An index of the array is in point `t`'s block iff each coordinate is in the block's range on its axis. -/
theorem mem_blk3 (t : Fin cfg3.N) (i : S50000x256.Idx) :
    i ∈ ((cfg3.win 9).blk t).view.set ↔ ∀ a : Fin 2, win3_9.index t a * S5000x256.size a ≤ (i a).val ∧ (i a).val < win3_9.index t a * S5000x256.size a + S5000x256.size a := by
  show i ∈ ((View.whole main_v157).slice (win3_9.rect t)).set ↔ _
  rw [View.set_slice_whole, Rect.mem_set_unit]
  exact Iff.rfl

/-- Every row is in the block of the point r / 5000. -/
theorem cover3 (i : S50000x256.Idx) : ∃ t : Fin cfg3.N, (cfg3.win 9).flush t = true ∧ i ∈ ((cfg3.win 9).blk t).view.set := by
  refine ⟨pt3 i, flush3_9 _, ?_⟩
  rw [mem_blk3]
  obtain ⟨-, -, -, -, -, -, -, -, -, -, -, -, -, -, -, -, -, -, e90, e91⟩ := idx3 (pt3 i)
  have hi0 : (i 0).val < 50000 := (i 0).isLt
  have hi1 : (i 1).val < 256 := (i 1).isLt
  intro a
  match a with
  | ⟨0, _⟩ =>
    show win3_9.index (pt3 i) (0 : Fin 2) * 5000 ≤ (i 0).val ∧ (i 0).val < win3_9.index (pt3 i) (0 : Fin 2) * 5000 + 5000
    rw [e90, pt3_val]; omega
  | ⟨1, _⟩ =>
    show win3_9.index (pt3 i) (1 : Fin 2) * 256 ≤ (i 1).val ∧ (i 1).val < win3_9.index (pt3 i) (1 : Fin 2) * 256 + 256
    rw [e91]; omega

/-- The output array after the region. -/
theorem final3 (c : Dev nD) : (dat3 V c).arrAt 9 cfg3.N = G3 V c :=
  (dat3 V c).arrAt_eq_of_cover 9 (G3 V c) (fun t _ => flushed3 V c t) cover3

/-! ## The input blocks read at an entry -/

theorem iblk3_0 (c : Dev nD) (t : Fin cfg3.N) (p : Fin 5000) (l : Fin 256) (r : Fin 50000) (hr : r.val = t.val * 5000 + p.val) :
    iblk3 V c 0 t (ix2 p l) = V c main_v122 (ix2 r l) := by
  obtain ⟨e00, e01, -, -, -, -, -, -, -, -, -, -, -, -, -, -, -, -, -, -⟩ := idx3 t
  show V c main_v122 (((cfg3.win 0).blk t).view.emb (ix2 p l)) = V c main_v122 (ix2 r l)
  refine congrArg (V c main_v122) ?_
  funext a; apply Fin.ext
  match a with
  | ⟨0, _⟩ => show win3_0.index t (0 : Fin 2) * 5000 + 1 * p.val = r.val; rw [e00]; omega
  | ⟨1, _⟩ => show win3_0.index t (1 : Fin 2) * 256 + 1 * l.val = l.val; rw [e01]; omega

theorem iblk3_1 (c : Dev nD) (t : Fin cfg3.N) (p : Fin 5000) (l : Fin 256) (r : Fin 50000) (hr : r.val = t.val * 5000 + p.val) :
    iblk3 V c 1 t (ix2 p l) = V c main_v139 (ix2 r l) := by
  obtain ⟨-, -, e10, e11, -, -, -, -, -, -, -, -, -, -, -, -, -, -, -, -⟩ := idx3 t
  show V c main_v139 (((cfg3.win 1).blk t).view.emb (ix2 p l)) = V c main_v139 (ix2 r l)
  refine congrArg (V c main_v139) ?_
  funext a; apply Fin.ext
  match a with
  | ⟨0, _⟩ => show win3_1.index t (0 : Fin 2) * 5000 + 1 * p.val = r.val; rw [e10]; omega
  | ⟨1, _⟩ => show win3_1.index t (1 : Fin 2) * 256 + 1 * l.val = l.val; rw [e11]; omega

theorem iblk3_2 (c : Dev nD) (t : Fin cfg3.N) (k l : Fin 256) :
    iblk3 V c 2 t (ix2 k l) = V c main_v141 (ix2 k l) := by
  obtain ⟨-, -, -, -, e20, e21, -, -, -, -, -, -, -, -, -, -, -, -, -, -⟩ := idx3 t
  show V c main_v141 (((cfg3.win 2).blk t).view.emb (ix2 k l)) = V c main_v141 (ix2 k l)
  refine congrArg (V c main_v141) ?_
  funext a; apply Fin.ext
  match a with
  | ⟨0, _⟩ => show win3_2.index t (0 : Fin 2) * 256 + 1 * k.val = k.val; rw [e20]; omega
  | ⟨1, _⟩ => show win3_2.index t (1 : Fin 2) * 256 + 1 * l.val = l.val; rw [e21]; omega

theorem iblk3_3 (c : Dev nD) (t : Fin cfg3.N) (z : Fin 1) (l : Fin 256) :
    iblk3 V c 3 t (ix2 z l) = V c main_v154 (ix2 z l) := by
  obtain ⟨-, -, -, -, -, -, e30, e31, -, -, -, -, -, -, -, -, -, -, -, -⟩ := idx3 t
  show V c main_v154 (((cfg3.win 3).blk t).view.emb (ix2 z l)) = V c main_v154 (ix2 z l)
  refine congrArg (V c main_v154) ?_
  funext a; apply Fin.ext
  match a with
  | ⟨0, _⟩ => show win3_3.index t (0 : Fin 2) * 1 + 1 * z.val = z.val; rw [e30]; omega
  | ⟨1, _⟩ => show win3_3.index t (1 : Fin 2) * 256 + 1 * l.val = l.val; rw [e31]; omega

theorem iblk3_4 (c : Dev nD) (t : Fin cfg3.N) (k l : Fin 256) :
    iblk3 V c 4 t (ix2 k l) = V c main_v145 (ix2 k l) := by
  obtain ⟨-, -, -, -, -, -, -, -, e40, e41, -, -, -, -, -, -, -, -, -, -⟩ := idx3 t
  show V c main_v145 (((cfg3.win 4).blk t).view.emb (ix2 k l)) = V c main_v145 (ix2 k l)
  refine congrArg (V c main_v145) ?_
  funext a; apply Fin.ext
  match a with
  | ⟨0, _⟩ => show win3_4.index t (0 : Fin 2) * 256 + 1 * k.val = k.val; rw [e40]; omega
  | ⟨1, _⟩ => show win3_4.index t (1 : Fin 2) * 256 + 1 * l.val = l.val; rw [e41]; omega

theorem iblk3_5 (c : Dev nD) (t : Fin cfg3.N) (z : Fin 1) (l : Fin 256) :
    iblk3 V c 5 t (ix2 z l) = V c main_v155 (ix2 z l) := by
  obtain ⟨-, -, -, -, -, -, -, -, -, -, e50, e51, -, -, -, -, -, -, -, -⟩ := idx3 t
  show V c main_v155 (((cfg3.win 5).blk t).view.emb (ix2 z l)) = V c main_v155 (ix2 z l)
  refine congrArg (V c main_v155) ?_
  funext a; apply Fin.ext
  match a with
  | ⟨0, _⟩ => show win3_5.index t (0 : Fin 2) * 1 + 1 * z.val = z.val; rw [e50]; omega
  | ⟨1, _⟩ => show win3_5.index t (1 : Fin 2) * 256 + 1 * l.val = l.val; rw [e51]; omega

theorem iblk3_6 (c : Dev nD) (t : Fin cfg3.N) (k l : Fin 256) :
    iblk3 V c 6 t (ix2 k l) = V c main_v152 (ix2 k l) := by
  obtain ⟨-, -, -, -, -, -, -, -, -, -, -, -, e60, e61, -, -, -, -, -, -⟩ := idx3 t
  show V c main_v152 (((cfg3.win 6).blk t).view.emb (ix2 k l)) = V c main_v152 (ix2 k l)
  refine congrArg (V c main_v152) ?_
  funext a; apply Fin.ext
  match a with
  | ⟨0, _⟩ => show win3_6.index t (0 : Fin 2) * 256 + 1 * k.val = k.val; rw [e60]; omega
  | ⟨1, _⟩ => show win3_6.index t (1 : Fin 2) * 256 + 1 * l.val = l.val; rw [e61]; omega

theorem iblk3_7 (c : Dev nD) (t : Fin cfg3.N) (k l : Fin 256) :
    iblk3 V c 7 t (ix2 k l) = V c main_v153 (ix2 k l) := by
  obtain ⟨-, -, -, -, -, -, -, -, -, -, -, -, -, -, e70, e71, -, -, -, -⟩ := idx3 t
  show V c main_v153 (((cfg3.win 7).blk t).view.emb (ix2 k l)) = V c main_v153 (ix2 k l)
  refine congrArg (V c main_v153) ?_
  funext a; apply Fin.ext
  match a with
  | ⟨0, _⟩ => show win3_7.index t (0 : Fin 2) * 256 + 1 * k.val = k.val; rw [e70]; omega
  | ⟨1, _⟩ => show win3_7.index t (1 : Fin 2) * 256 + 1 * l.val = l.val; rw [e71]; omega

theorem iblk3_8 (c : Dev nD) (t : Fin cfg3.N) (z : Fin 1) (l : Fin 256) :
    iblk3 V c 8 t (ix2 z l) = V c main_v156 (ix2 z l) := by
  obtain ⟨-, -, -, -, -, -, -, -, -, -, -, -, -, -, -, -, e80, e81, -, -⟩ := idx3 t
  show V c main_v156 (((cfg3.win 8).blk t).view.emb (ix2 z l)) = V c main_v156 (ix2 z l)
  refine congrArg (V c main_v156) ?_
  funext a; apply Fin.ext
  match a with
  | ⟨0, _⟩ => show win3_8.index t (0 : Fin 2) * 1 + 1 * z.val = z.val; rw [e80]; omega
  | ⟨1, _⟩ => show win3_8.index t (1 : Fin 2) * 256 + 1 * l.val = l.val; rw [e81]; omega

/-- The body's result block is its payload of the nine input blocks (each access is a whole block). -/
theorem out3_9_eq (x0 x1 : Vec F S5000x256 .f32) (x2 : Vec F S256x256 .f32) (x3 : Vec F S1x256 .f32) (x4 : Vec F S256x256 .f32)
    (x5 : Vec F S1x256 .f32) (x6 x7 : Vec F S256x256 .f32) (x8 : Vec F S1x256 .f32) :
    out3_9 x0 x1 x2 x3 x4 x5 x6 x7 x8 = k3_pay1 (k3_pay2 x0 x1 x2 x4 x3 x5 x6 x7) x8 := by
  unfold out3_9
  rw [View.canon_unit_zero hz2]
  simp only [View.ld_unit_zero (S := S5000x256) hz2, View.ld_unit_zero (S := S256x256) hz2, View.ld_unit_zero (S := S1x256) hz2]

end Cert.KernelIdeal.Fr

end
-- ==== Proof.KI.Value3.lean ====
/-
  Region 3's output array at an entry, at the ideal values: row r is in the block of point r / 5000 at local row
  r % 5000, the two row blocks there are rows 5000·(r / 5000) … of the two aggregated arrays, and the four weight and
  three bias blocks are the whole arrays; so the array at (r, q) is the fused update
  tanh((∑ₖ (∑ₗ hp(r, l)·Wp(k, l) + bp(0, k))·Wfp(q, k) + ∑ₖ (∑ₗ hn(r, l)·Wn(k, l) + bn(0, k))·Wfn(q, k)) + bf(0, q))
  of the nine arrays the region was entered with.
-/
import proofs.«128425_j26603027432197_1_alg».proof.Proof.KI.Final3
import proofs.«128425_j26603027432197_1_alg».proof.Proof.KI.Payloads
import proofs.«128425_j26603027432197_1_alg».proof.Proof.Spec

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

theorem G3_apply (c : Dev nD) (r : Fin 50000) (q : Fin 256) :
    G3 V c (ix2 r q) = Cert.Spec.hopF (R := 50000) (V c main_v122) (V c main_v139) (fun k l => V c main_v141 (ix2 k l)) (fun k => V c main_v154 (ix2 0 k)) (fun k l => V c main_v145 (ix2 k l)) (fun k => V c main_v155 (ix2 0 k)) (fun q k => V c main_v152 (ix2 q k)) (fun q k => V c main_v153 (ix2 q k)) (fun q => V c main_v156 (ix2 0 q)) r q := by
  have hr5 : r.val % 5000 < 5000 := Nat.mod_lt _ (by decide)
  have hloc : loc3 (ix2 r q) = ix2 (⟨r.val % 5000, hr5⟩ : Fin 5000) q := rfl
  have hptv : (pt3 (ix2 r q)).val = r.val / 5000 := rfl
  have hr : r.val = (pt3 (ix2 r q)).val * 5000 + (⟨r.val % 5000, hr5⟩ : Fin 5000).val := by
    rw [hptv]; show r.val = r.val / 5000 * 5000 + r.val % 5000; omega
  unfold G3
  rw [out3_9_eq, hloc]
  refine (Cert.KernelPayloads.k3_pay_apply _ _ _ _ _ _ _ _ _ ⟨r.val % 5000, hr5⟩ q).trans ?_
  unfold Cert.Spec.hopF
  refine congrArg Ideal.tanh (congrArg₂ (· + ·) (congrArg₂ (· + ·)
    (Finset.sum_congr rfl fun k _ => congrArg₂ (· * ·) (congrArg₂ (· + ·) (Finset.sum_congr rfl fun l _ => ?_) ?_) ?_)
    (Finset.sum_congr rfl fun k _ => congrArg₂ (· * ·) (congrArg₂ (· + ·) (Finset.sum_congr rfl fun l _ => ?_) ?_) ?_)) ?_)
  · rw [iblk3_0 V c (pt3 (ix2 r q)) ⟨r.val % 5000, hr5⟩ l r hr, iblk3_2]
  · exact iblk3_3 V c (pt3 (ix2 r q)) 0 k
  · exact iblk3_6 V c (pt3 (ix2 r q)) q k
  · rw [iblk3_1 V c (pt3 (ix2 r q)) ⟨r.val % 5000, hr5⟩ l r hr, iblk3_4]
  · exact iblk3_5 V c (pt3 (ix2 r q)) 0 k
  · exact iblk3_7 V c (pt3 (ix2 r q)) q k
  · exact iblk3_8 V c (pt3 (ix2 r q)) 0 q

end Cert.KernelIdeal.Fr

end
-- ==== Proof.KI.Layer3.lean ====
/-
  The layer the kernel program leaves in `main_v157` (hop 3), at an entry, as a function of the launch memory and of the
  previous layer: the fused update of the two sparse aggregations of the previous layer with layer 2 of the stacked
  weights and biases (the fusing weight's lanes 0–255 against the first projection, 256–511 against the second).
-/
import proofs.«128425_j26603027432197_1_alg».proof.Proof.KI.Value3
import proofs.«128425_j26603027432197_1_alg».proof.Proof.KI.FoldArgs
import proofs.«128425_j26603027432197_1_alg».proof.Proof.KI.HostReads

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- Layer 3 as the kernel program computes it, at (r, q). -/
theorem layer3_apply (c : Dev nD) (r : Fin 50000) (q : Fin 256) :
    W8 m ρ c (Proc.devRef .tc main_v157) (ix2 r q)
      = Cert.Spec.hopF (R := 50000)
          (spmm (m ((c : Thread nD τ).loc main_arg1)) (m ((c : Thread nD τ).loc main_arg2)) (W6 m ρ c (Proc.devRef .tc main_v105)))
          (spmm (m ((c : Thread nD τ).loc main_arg3)) (m ((c : Thread nD τ).loc main_arg4)) (W6 m ρ c (Proc.devRef .tc main_v105)))
          (fun k l => m ((c : Thread nD τ).loc main_arg7) (ix3 (2 : Fin 3) k l)) (fun k => m ((c : Thread nD τ).loc main_arg8) (ix2 (2 : Fin 3) k))
          (fun k l => m ((c : Thread nD τ).loc main_arg9) (ix3 (2 : Fin 3) k l)) (fun k => m ((c : Thread nD τ).loc main_arg10) (ix2 (2 : Fin 3) k))
          (fun q k => m ((c : Thread nD τ).loc main_arg11) (ix3 (2 : Fin 3) q (⟨k.val, Nat.lt_trans k.isLt (by decide)⟩ : Fin 512)))
          (fun q k => m ((c : Thread nD τ).loc main_arg11) (ix3 (2 : Fin 3) q (⟨256 + k.val, by have := k.isLt; omega⟩ : Fin 512)))
          (fun q => m ((c : Thread nD τ).loc main_arg12) (ix2 (2 : Fin 3) q)) r q := by
  rw [show W8 m ρ c (Proc.devRef .tc main_v157) = (dat3 (V7 m ρ) c).arrAt 9 cfg3.N from W8_arr m ρ c 9, final3, G3_apply]
  -- the nine arrays region 3 is entered with, read through the host stretch before it
  have e0 : StableHlo.after hostOps3 (W6 m ρ c) (Proc.devRef .tc main_v122) = spmm (m ((c : Thread nD τ).loc main_arg1)) (m ((c : Thread nD τ).loc main_arg2)) (W6 m ρ c (Proc.devRef .tc main_v105)) := by
    rw [host3_hp, W6_main_arg1, W6_main_arg2]
  have e1 : StableHlo.after hostOps3 (W6 m ρ c) (Proc.devRef .tc main_v139) = spmm (m ((c : Thread nD τ).loc main_arg3)) (m ((c : Thread nD τ).loc main_arg4)) (W6 m ρ c (Proc.devRef .tc main_v105)) := by
    rw [host3_hn, W6_main_arg3, W6_main_arg4]
  have e2 : (fun k l => StableHlo.after hostOps3 (W6 m ρ c) (Proc.devRef .tc main_v141) (ix2 k l)) = fun k l => m ((c : Thread nD τ).loc main_arg7) (ix3 (2 : Fin 3) k l) :=
    funext fun k => funext fun l => by rw [host3_wp, W6_main_arg7]
  have e3 : (fun k => StableHlo.after hostOps3 (W6 m ρ c) (Proc.devRef .tc main_v154) (ix2 0 k)) = fun k => m ((c : Thread nD τ).loc main_arg8) (ix2 (2 : Fin 3) k) :=
    funext fun k => by rw [host3_bp, W6_main_arg8]
  have e4 : (fun k l => StableHlo.after hostOps3 (W6 m ρ c) (Proc.devRef .tc main_v145) (ix2 k l)) = fun k l => m ((c : Thread nD τ).loc main_arg9) (ix3 (2 : Fin 3) k l) :=
    funext fun k => funext fun l => by rw [host3_wn, W6_main_arg9]
  have e5 : (fun k => StableHlo.after hostOps3 (W6 m ρ c) (Proc.devRef .tc main_v155) (ix2 0 k)) = fun k => m ((c : Thread nD τ).loc main_arg10) (ix2 (2 : Fin 3) k) :=
    funext fun k => by rw [host3_bn, W6_main_arg10]
  have e6 : (fun q k => StableHlo.after hostOps3 (W6 m ρ c) (Proc.devRef .tc main_v152) (ix2 q k)) = fun q k => m ((c : Thread nD τ).loc main_arg11) (ix3 (2 : Fin 3) q (⟨k.val, Nat.lt_trans k.isLt (by decide)⟩ : Fin 512)) :=
    funext fun q => funext fun k => by rw [host3_wfp, W6_main_arg11]
  have e7 : (fun q k => StableHlo.after hostOps3 (W6 m ρ c) (Proc.devRef .tc main_v153) (ix2 q k)) = fun q k => m ((c : Thread nD τ).loc main_arg11) (ix3 (2 : Fin 3) q (⟨256 + k.val, by have := k.isLt; omega⟩ : Fin 512)) :=
    funext fun q => funext fun k => by rw [host3_wfn, W6_main_arg11]
  have e8 : (fun q => StableHlo.after hostOps3 (W6 m ρ c) (Proc.devRef .tc main_v156) (ix2 0 q)) = fun q => m ((c : Thread nD τ).loc main_arg12) (ix2 (2 : Fin 3) q) :=
    funext fun q => by rw [host3_bf, W6_main_arg12]
  show Cert.Spec.hopF (R := 50000) (StableHlo.after hostOps3 (W6 m ρ c) (Proc.devRef .tc main_v122)) (StableHlo.after hostOps3 (W6 m ρ c) (Proc.devRef .tc main_v139))
      (fun k l => StableHlo.after hostOps3 (W6 m ρ c) (Proc.devRef .tc main_v141) (ix2 k l)) (fun k => StableHlo.after hostOps3 (W6 m ρ c) (Proc.devRef .tc main_v154) (ix2 0 k))
      (fun k l => StableHlo.after hostOps3 (W6 m ρ c) (Proc.devRef .tc main_v145) (ix2 k l)) (fun k => StableHlo.after hostOps3 (W6 m ρ c) (Proc.devRef .tc main_v155) (ix2 0 k))
      (fun q k => StableHlo.after hostOps3 (W6 m ρ c) (Proc.devRef .tc main_v152) (ix2 q k)) (fun q k => StableHlo.after hostOps3 (W6 m ρ c) (Proc.devRef .tc main_v153) (ix2 q k))
      (fun q => StableHlo.after hostOps3 (W6 m ρ c) (Proc.devRef .tc main_v156) (ix2 0 q)) r q = _
  rw [e0, e1, e2, e3, e4, e5, e6, e7, e8]

end Cert.KernelIdeal.Fr

end
-- ==== Proof.RefValue.lean ====
/-
  The reference's four layers as the two layer functions, entry by entry, at the ideal values.

  The reference computes z₀ = tanh(x · Wᵀ + b) and, three times, z' = tanh([P, N] · Wfᵀ + bf) with
  P = A₁(z) · Wpᵀ + bp and N = A₂(z) · Wnᵀ + bn, where A₁ and A₂ are the two sparse aggregations of the previous
  layer z (a gather of rows, a scaling by the edge values and a scatter-add into the destination rows), [P, N] joins
  the two side by side, and the weights and biases of hop s are layer s of a stack of three. At an entry (r, q):

    * z₀ is the input projection function of x and the coordinates of W and b;
    * each hop is the fused-update function of the two aggregations of the previous layer, with the weights read
      as layer s of their stacks, the fusing weight's columns k and 256 + k for the two halves of its 512-long
      contraction, and the biases as row s of their stacks.

  The aggregation is kept as one named function of the index array, the edge values and the previous layer; nothing
  is proved about it here. The sums are over the extended reals; no product is distributed over a sum and no
  finiteness is asked.
-/
import Idealize.ShloMosaic.PureOps.Ideal.Laws
import Idealize.ShloMosaic.Lib.Pipeline.Value
import Idealize.ShloMosaic.Lib.ValueIdx
import proofs.«128425_j26603027432197_1_alg».proof.Proof.Gen.ReferenceIdeal.Run
import proofs.«128425_j26603027432197_1_alg».proof.Proof.LibTransposedLayer
import proofs.«128425_j26603027432197_1_alg».proof.Proof.LibFusedHop
import proofs.«128425_j26603027432197_1_alg».proof.Proof.LibStackedWeights
import proofs.«128425_j26603027432197_1_alg».proof.Proof.Spec

noncomputable section

open scoped BigOperators

namespace Cert.RefValue

open Idealize.ShloMosaic Idealize.ShloMosaic.ValueIdx Idealize.SL.Sem
open Cert.ReferenceIdeal Cert.ReferenceIdeal.Gen Cert.ReferenceIdeal.Value

section Spelling

variable {F : FTy → Type} [FloatOps F]

/-- The sparse aggregation in the reference's spelling: row i of the result is the sum, over the edges e whose
    destination (row 0 of the index array) is i, of the edge value times row (source of e) of z, the source (row 1
    of the index array) wrapped when negative. -/
def spmmR (idx : (⟨S2x300000, .i32⟩ : BufTy).Contents (Elt F)) (val : (⟨S300000, .f32⟩ : BufTy).Contents (Elt F))
    (z : (⟨S50000x256, .f32⟩ : BufTy).Contents (Elt F)) : (⟨S50000x256, .f32⟩ : BufTy).Contents (Elt F) :=
  Host.scatterAdd scatter_S50000x256_S300000x1_S300000x256_1_0_0_1 (broadcastInDim S50000x256 ![] bcast_S_S50000x256
    (constant S_ .f32 0x00000000#32)) (broadcastInDim S300000x1 ![0] bcast_S300000_S300000x1_0 (shapeCast _
    (extractStridedSlice S1x300000 ![0, 0] idx slices_S2x300000_S1x300000_0_0) shapeCasts_S1x300000_S300000)) (mulf
    (broadcastInDim S300000x256 ![0, 1] bcast_S300000x1_S300000x256_0_1 (broadcastInDim S300000x1 ![0]
    bcast_S300000_S300000x1_0 val)) (Host.gather gather_S50000x256_S300000x1_S300000x256_1_0_n_n_0_1_1256 z
    (broadcastInDim S300000x1 ![0] bcast_S300000_S300000x1_0 (select (cmpi .slt (shapeCast _ (extractStridedSlice
    S1x300000 ![1, 0] idx slices_S2x300000_S1x300000_1_0) shapeCasts_S1x300000_S300000) (broadcastInDim S300000 ![]
    bcast_S_S300000 (constantI S_ 32 0#32))) (addi (shapeCast _ (extractStridedSlice S1x300000 ![1, 0] idx
    slices_S2x300000_S1x300000_1_0) shapeCasts_S1x300000_S300000) (broadcastInDim S300000 ![] bcast_S_S300000
    (constantI S_ 32 50000#32))) (shapeCast _ (extractStridedSlice S1x300000 ![1, 0] idx
    slices_S2x300000_S1x300000_1_0) shapeCasts_S1x300000_S300000)))))

/-- The reference's fourth layer, which its result spells in place. -/
def z3 (V0 : Valuation τ sig (Elt F)) : (⟨S50000x256, .f32⟩ : BufTy).Contents (Elt F) :=
  Host.tanh (addf (Host.dotGeneral dot_S50000x512_S512x256_S50000x256_1_0_0_1_n_n none (concatenate S50000x512 1
    [⟨S50000x256, (addf (Host.dotGeneral dot_S50000x256_S256x256_S50000x256_1_0_0_1_n_n none (Host.scatterAdd
    scatter_S50000x256_S300000x1_S300000x256_1_0_0_1 (broadcastInDim S50000x256 ![] bcast_S_S50000x256 (constant S_
    .f32 0x00000000#32)) (broadcastInDim S300000x1 ![0] bcast_S300000_S300000x1_0 (shapeCast _ (extractStridedSlice
    S1x300000 ![0, 0] (V0 (Proc.devRef .tc main_arg1)) slices_S2x300000_S1x300000_0_0) shapeCasts_S1x300000_S300000))
    (mulf (broadcastInDim S300000x256 ![0, 1] bcast_S300000x1_S300000x256_0_1 (broadcastInDim S300000x1 ![0]
    bcast_S300000_S300000x1_0 (V0 (Proc.devRef .tc main_arg2)))) (Host.gather
    gather_S50000x256_S300000x1_S300000x256_1_0_n_n_0_1_1256 (res_main_v131 V0) (broadcastInDim S300000x1 ![0]
    bcast_S300000_S300000x1_0 (select (cmpi .slt (res_main_v135 V0) (broadcastInDim S300000 ![] bcast_S_S300000
    (constantI S_ 32 0#32))) (addi (res_main_v135 V0) (broadcastInDim S300000 ![] bcast_S_S300000 (constantI S_ 32
    50000#32))) (res_main_v135 V0)))))) (transpose S256x256 [1, 0] (shapeCast _ (extractStridedSlice S1x256x256 ![2,
    0, 0] (V0 (Proc.devRef .tc main_arg7)) slices_S3x256x256_S1x256x256_2_0_0) shapeCasts_S1x256x256_S256x256)
    transposes_S256x256_S256x256_1_0)) (broadcastInDim S50000x256 ![0, 1] bcast_S1x256_S50000x256_0_1 (broadcastInDim
    S1x256 ![1] bcast_S256_S1x256_1 (shapeCast _ (extractStridedSlice S1x256 ![2, 0] (V0 (Proc.devRef .tc main_arg8))
    slices_S3x256_S1x256_2_0) shapeCasts_S1x256_S256))))⟩, ⟨S50000x256, (addf (Host.dotGeneral
    dot_S50000x256_S256x256_S50000x256_1_0_0_1_n_n none (Host.scatterAdd
    scatter_S50000x256_S300000x1_S300000x256_1_0_0_1 (broadcastInDim S50000x256 ![] bcast_S_S50000x256 (constant S_
    .f32 0x00000000#32)) (broadcastInDim S300000x1 ![0] bcast_S300000_S300000x1_0 (shapeCast _ (extractStridedSlice
    S1x300000 ![0, 0] (V0 (Proc.devRef .tc main_arg3)) slices_S2x300000_S1x300000_0_0) shapeCasts_S1x300000_S300000))
    (mulf (broadcastInDim S300000x256 ![0, 1] bcast_S300000x1_S300000x256_0_1 (broadcastInDim S300000x1 ![0]
    bcast_S300000_S300000x1_0 (V0 (Proc.devRef .tc main_arg4)))) (Host.gather
    gather_S50000x256_S300000x1_S300000x256_1_0_n_n_0_1_1256 (res_main_v131 V0) (broadcastInDim S300000x1 ![0]
    bcast_S300000_S300000x1_0 (select (cmpi .slt (res_main_v152 V0) (broadcastInDim S300000 ![] bcast_S_S300000
    (constantI S_ 32 0#32))) (addi (res_main_v152 V0) (broadcastInDim S300000 ![] bcast_S_S300000 (constantI S_ 32
    50000#32))) (res_main_v152 V0)))))) (transpose S256x256 [1, 0] (shapeCast _ (extractStridedSlice S1x256x256 ![2,
    0, 0] (V0 (Proc.devRef .tc main_arg9)) slices_S3x256x256_S1x256x256_2_0_0) shapeCasts_S1x256x256_S256x256)
    transposes_S256x256_S256x256_1_0)) (broadcastInDim S50000x256 ![0, 1] bcast_S1x256_S50000x256_0_1 (broadcastInDim
    S1x256 ![1] bcast_S256_S1x256_1 (shapeCast _ (extractStridedSlice S1x256 ![2, 0] (V0 (Proc.devRef .tc main_arg10))
    slices_S3x256_S1x256_2_0) shapeCasts_S1x256_S256))))⟩] concatenates_S50000x256_S50000x256_S50000x512_d1)
    (transpose S512x256 [1, 0] (shapeCast _ (extractStridedSlice S1x256x512 ![2, 0, 0] (V0 (Proc.devRef .tc
    main_arg11)) slices_S3x256x512_S1x256x512_2_0_0) shapeCasts_S1x256x512_S256x512)
    transposes_S256x512_S512x256_1_0)) (broadcastInDim S50000x256 ![0, 1] bcast_S1x256_S50000x256_0_1 (broadcastInDim
    S1x256 ![1] bcast_S256_S1x256_1 (shapeCast _ (extractStridedSlice S1x256 ![2, 0] (V0 (Proc.devRef .tc main_arg12))
    slices_S3x256_S1x256_2_0) shapeCasts_S1x256_S256))))

end Spelling

/-- One projection of a hop, P = h · Wᵀ + b with W layer s of a stack and b row s of a stack, at (r, k). -/
theorem proj_apply (o : Nat) (s : Fin 3) (hs : s.val = o) (h : FVec Ideal S50000x256 .f32)
    (W : FVec Ideal S3x256x256 .f32) (B : FVec Ideal S3x256 .f32)
    (hs7 : S3x256x256.Slices ![o, 0, 0] S1x256x256) (hs8 : S3x256.Slices ![o, 0] S1x256) (r : Fin 50000) (k : Fin 256) :
    (addf (Host.dotGeneral dot_S50000x256_S256x256_S50000x256_1_0_0_1_n_n none h (transpose S256x256 [1, 0] (shapeCast _
      (extractStridedSlice S1x256x256 ![o, 0, 0] W hs7) shapeCasts_S1x256x256_S256x256)
      transposes_S256x256_S256x256_1_0)) (broadcastInDim S50000x256 ![0, 1] bcast_S1x256_S50000x256_0_1
      (broadcastInDim S1x256 ![1] bcast_S256_S1x256_1 (shapeCast _ (extractStridedSlice S1x256 ![o, 0] B hs8)
      shapeCasts_S1x256_S256)))) (ix2 r k)
      = (∑ l : Fin 256, h (ix2 r l) * W (ix3 s k l)) + B (ix2 s k) := by
  refine (TransposedLayer.host_apply (R := 50000) (K := 256) (N := 256) _ rfl (by decide) none _ _ _ _ _ _ r k).trans ?_
  refine congrArg₂ (· + ·) (Finset.sum_congr rfl fun l _ => congrArg (h (ix2 r l) * ·) ?_) ?_
  · exact StackedWeights.layer_matrix_apply o W hs7 _ s hs k l
  · exact StackedWeights.row_vector_apply o B hs8 _ s hs k

/-- A hop of the reference over any two aggregated arrays, its weights layer s of their stacks, at (r, q): the
    fused-update function. -/
theorem hop_apply (o : Nat) (s : Fin 3) (hs : s.val = o) (hp hn : FVec Ideal S50000x256 .f32)
    (W7 : FVec Ideal S3x256x256 .f32) (B8 : FVec Ideal S3x256 .f32) (W9 : FVec Ideal S3x256x256 .f32)
    (B10 : FVec Ideal S3x256 .f32) (W11 : FVec Ideal S3x256x512 .f32) (B12 : FVec Ideal S3x256 .f32)
    (hs7 : S3x256x256.Slices ![o, 0, 0] S1x256x256) (hs8 : S3x256.Slices ![o, 0] S1x256)
    (hs11 : S3x256x512.Slices ![o, 0, 0] S1x256x512) (r : Fin 50000) (q : Fin 256) :
    (Host.tanh (addf (Host.dotGeneral dot_S50000x512_S512x256_S50000x256_1_0_0_1_n_n none (concatenate S50000x512 1
      [⟨S50000x256, (addf (Host.dotGeneral dot_S50000x256_S256x256_S50000x256_1_0_0_1_n_n none hp (transpose S256x256
      [1, 0] (shapeCast _ (extractStridedSlice S1x256x256 ![o, 0, 0] W7 hs7) shapeCasts_S1x256x256_S256x256)
      transposes_S256x256_S256x256_1_0)) (broadcastInDim S50000x256 ![0, 1] bcast_S1x256_S50000x256_0_1
      (broadcastInDim S1x256 ![1] bcast_S256_S1x256_1 (shapeCast _ (extractStridedSlice S1x256 ![o, 0] B8 hs8)
      shapeCasts_S1x256_S256))))⟩, ⟨S50000x256, (addf (Host.dotGeneral dot_S50000x256_S256x256_S50000x256_1_0_0_1_n_n
      none hn (transpose S256x256 [1, 0] (shapeCast _ (extractStridedSlice S1x256x256 ![o, 0, 0] W9 hs7)
      shapeCasts_S1x256x256_S256x256) transposes_S256x256_S256x256_1_0)) (broadcastInDim S50000x256 ![0, 1]
      bcast_S1x256_S50000x256_0_1 (broadcastInDim S1x256 ![1] bcast_S256_S1x256_1 (shapeCast _ (extractStridedSlice
      S1x256 ![o, 0] B10 hs8) shapeCasts_S1x256_S256))))⟩] concatenates_S50000x256_S50000x256_S50000x512_d1)
      (transpose S512x256 [1, 0] (shapeCast _ (extractStridedSlice S1x256x512 ![o, 0, 0] W11 hs11)
      shapeCasts_S1x256x512_S256x512) transposes_S256x512_S512x256_1_0)) (broadcastInDim S50000x256 ![0, 1]
      bcast_S1x256_S50000x256_0_1 (broadcastInDim S1x256 ![1] bcast_S256_S1x256_1 (shapeCast _ (extractStridedSlice
      S1x256 ![o, 0] B12 hs8) shapeCasts_S1x256_S256))))) (ix2 r q)
      = Cert.Spec.hopF (R := 50000) hp hn (fun k l => W7 (ix3 s k l)) (fun k => B8 (ix2 s k))
          (fun k l => W9 (ix3 s k l)) (fun k => B10 (ix2 s k))
          (fun q k => W11 (ix3 s q (⟨k.val, by have := k.isLt; omega⟩ : Fin 512)))
          (fun q k => W11 (ix3 s q (⟨256 + k.val, by have := k.isLt; omega⟩ : Fin 512)))
          (fun q => B12 (ix2 s q)) r q := by
  refine (FusedHop.host_tanh_apply (R := 50000) (K := 512) (M := 256) (N := 256) rfl _ rfl (by decide) none
    _ _ _ _ _ _ _ _ r q).trans ?_
  unfold Cert.Spec.hopF
  refine congrArg Ideal.tanh (congrArg₂ (· + ·) (congrArg₂ (· + ·)
    (Finset.sum_congr rfl fun k _ => ?_) (Finset.sum_congr rfl fun k _ => ?_)) ?_)
  · exact congrArg₂ (· * ·) (proj_apply o s hs hp W7 B8 hs7 hs8 r k)
      (StackedWeights.layer_matrix_apply o W11 hs11 _ s hs q _)
  · exact congrArg₂ (· * ·) (proj_apply o s hs hn W9 B10 hs7 hs8 r k)
      (StackedWeights.layer_matrix_apply o W11 hs11 _ s hs q _)
  · exact StackedWeights.row_vector_apply o B12 hs8 _ s hs q

/-- The reference's first layer at (r, q): the input projection function. -/
theorem z0_apply (V0 : Valuation τ sig (Elt Ideal)) (r : Fin 50000) (q : Fin 256) :
    res_main_v5 (F := Ideal) V0 (ix2 r q)
      = Cert.Spec.denseF (R := 50000) (V0 (Proc.devRef .tc main_arg0))
          (fun q l => V0 (Proc.devRef .tc main_arg5) (ix2 q l)) (fun q => V0 (Proc.devRef .tc main_arg6) (ix1 q)) r q := by
  unfold res_main_v5
  exact TransposedLayer.host_tanh_apply (R := 50000) (K := 256) (N := 256) _ rfl (by decide) none _ _ _ _ _ _ r q

/-- The reference's second layer at (r, q): the fused-update function of the aggregations of the first, weights layer 0. -/
theorem z1_apply (V0 : Valuation τ sig (Elt Ideal)) (r : Fin 50000) (q : Fin 256) :
    res_main_v68 (F := Ideal) V0 (ix2 r q)
      = Cert.Spec.hopF (R := 50000) (spmmR (V0 (Proc.devRef .tc main_arg1)) (V0 (Proc.devRef .tc main_arg2)) (res_main_v5 V0))
        (spmmR (V0 (Proc.devRef .tc main_arg3)) (V0 (Proc.devRef .tc main_arg4)) (res_main_v5 V0))
        (fun k l => V0 (Proc.devRef .tc main_arg7) (ix3 0 k l)) (fun k => V0 (Proc.devRef .tc main_arg8) (ix2 0 k))
        (fun k l => V0 (Proc.devRef .tc main_arg9) (ix3 0 k l)) (fun k => V0 (Proc.devRef .tc main_arg10) (ix2 0 k))
        (fun q k => V0 (Proc.devRef .tc main_arg11) (ix3 0 q (⟨k.val, by have := k.isLt; omega⟩ : Fin 512)))
        (fun q k => V0 (Proc.devRef .tc main_arg11) (ix3 0 q (⟨256 + k.val, by have := k.isLt; omega⟩ : Fin 512)))
        (fun q => V0 (Proc.devRef .tc main_arg12) (ix2 0 q)) r q := by
  unfold res_main_v68
  exact hop_apply 0 0 rfl _ _ _ _ _ _ _ _ _ _ _ r q

/-- The reference's third layer at (r, q): the fused-update function of the aggregations of the second, weights layer 1. -/
theorem z2_apply (V0 : Valuation τ sig (Elt Ideal)) (r : Fin 50000) (q : Fin 256) :
    res_main_v131 (F := Ideal) V0 (ix2 r q)
      = Cert.Spec.hopF (R := 50000) (spmmR (V0 (Proc.devRef .tc main_arg1)) (V0 (Proc.devRef .tc main_arg2)) (res_main_v68 V0))
        (spmmR (V0 (Proc.devRef .tc main_arg3)) (V0 (Proc.devRef .tc main_arg4)) (res_main_v68 V0))
        (fun k l => V0 (Proc.devRef .tc main_arg7) (ix3 1 k l)) (fun k => V0 (Proc.devRef .tc main_arg8) (ix2 1 k))
        (fun k l => V0 (Proc.devRef .tc main_arg9) (ix3 1 k l)) (fun k => V0 (Proc.devRef .tc main_arg10) (ix2 1 k))
        (fun q k => V0 (Proc.devRef .tc main_arg11) (ix3 1 q (⟨k.val, by have := k.isLt; omega⟩ : Fin 512)))
        (fun q k => V0 (Proc.devRef .tc main_arg11) (ix3 1 q (⟨256 + k.val, by have := k.isLt; omega⟩ : Fin 512)))
        (fun q => V0 (Proc.devRef .tc main_arg12) (ix2 1 q)) r q := by
  unfold res_main_v131
  exact hop_apply 1 1 rfl _ _ _ _ _ _ _ _ _ _ _ r q

/-- The reference's result: its four layers, each as one slab, stacked. -/
theorem out_eq (V0 : Valuation τ sig (Elt Ideal)) :
    res_main_v199 (F := Ideal) V0
      = concatenate S4x50000x256 0
          [⟨S1x50000x256, broadcastInDim S1x50000x256 ![1, 2] bcast_S50000x256_S1x50000x256_1_2 (res_main_v5 V0)⟩,
           ⟨S1x50000x256, broadcastInDim S1x50000x256 ![1, 2] bcast_S50000x256_S1x50000x256_1_2 (res_main_v68 V0)⟩,
           ⟨S1x50000x256, broadcastInDim S1x50000x256 ![1, 2] bcast_S50000x256_S1x50000x256_1_2 (res_main_v131 V0)⟩,
           ⟨S1x50000x256, broadcastInDim S1x50000x256 ![1, 2] bcast_S50000x256_S1x50000x256_1_2 (z3 (F := Ideal) V0)⟩]
          concatenates_S1x50000x256_S1x50000x256_S1x50000x256_S1x50000x256_S4x50000x256_d0 := rfl

/-- The reference's fourth layer at (r, q): the fused-update function of the aggregations of the third, weights layer 2. -/
theorem z3_apply (V0 : Valuation τ sig (Elt Ideal)) (r : Fin 50000) (q : Fin 256) :
    z3 (F := Ideal) V0 (ix2 r q)
      = Cert.Spec.hopF (R := 50000) (spmmR (V0 (Proc.devRef .tc main_arg1)) (V0 (Proc.devRef .tc main_arg2)) (res_main_v131 V0))
        (spmmR (V0 (Proc.devRef .tc main_arg3)) (V0 (Proc.devRef .tc main_arg4)) (res_main_v131 V0))
        (fun k l => V0 (Proc.devRef .tc main_arg7) (ix3 2 k l)) (fun k => V0 (Proc.devRef .tc main_arg8) (ix2 2 k))
        (fun k l => V0 (Proc.devRef .tc main_arg9) (ix3 2 k l)) (fun k => V0 (Proc.devRef .tc main_arg10) (ix2 2 k))
        (fun q k => V0 (Proc.devRef .tc main_arg11) (ix3 2 q (⟨k.val, by have := k.isLt; omega⟩ : Fin 512)))
        (fun q k => V0 (Proc.devRef .tc main_arg11) (ix3 2 q (⟨256 + k.val, by have := k.isLt; omega⟩ : Fin 512)))
        (fun q => V0 (Proc.devRef .tc main_arg12) (ix2 2 q)) r q := by
  unfold z3
  exact hop_apply 2 2 rfl _ _ _ _ _ _ _ _ _ _ _ r q

end Cert.RefValue

end
-- ==== Proof.LibStackLayers.lean ====
/-
  Four matrices stacked into one rank-3 array of four layers: each matrix is given a leading unit axis, and the four are
  joined along that axis. Read at an entry (h, r, q), the stack is the h-th matrix at (r, q).
-/
import Idealize.ShloMosaic.Lib.Pipeline.Value
import Idealize.ShloMosaic.Lib.ValueIdx

noncomputable section

namespace Cert.StackLayers

open Idealize.ShloMosaic Idealize.ShloMosaic.ValueIdx

variable {α : Type} {n d : Nat}

/-- A matrix given a leading unit axis, read at (0, r, q): the matrix at (r, q). (An axis of extent 1 of the matrix
    reads its coordinate 0, which is the only coordinate it has.) -/
theorem lift_apply (hb : (⟨2, ![n, d]⟩ : Shape).BroadcastsInDim (⟨3, ![1, n, d]⟩ : Shape) (![1, 2] : Fin 2 → Fin 3))
    (z : (⟨2, ![n, d]⟩ : Shape).Idx → α) (r : Fin n) (q : Fin d) :
    broadcastInDim (⟨3, ![1, n, d]⟩ : Shape) ![1, 2] hb z (ix3 0 r q) = z (ix2 r q) :=
  broadcastInDim_apply _ hb z (ix3 0 r q) (ix2 r q) fun a => by
    match a with
    | ⟨0, _⟩ =>
      show r.val = if n = 1 then 0 else r.val
      split
      · have := r.isLt; omega
      · rfl
    | ⟨1, _⟩ =>
      show q.val = if d = 1 then 0 else q.val
      split
      · have := q.isLt; omega
      · rfl

/-- The stack at layer 0: the first matrix. -/
theorem stack_apply_0 (hb : (⟨2, ![n, d]⟩ : Shape).BroadcastsInDim (⟨3, ![1, n, d]⟩ : Shape) (![1, 2] : Fin 2 → Fin 3))
    (hcat : Shape.Concatenates [(⟨3, ![1, n, d]⟩ : Shape), (⟨3, ![1, n, d]⟩ : Shape), (⟨3, ![1, n, d]⟩ : Shape), (⟨3, ![1, n, d]⟩ : Shape)] (⟨3, ![4, n, d]⟩ : Shape) 0)
    (z0 z1 z2 z3 : (⟨2, ![n, d]⟩ : Shape).Idx → α) (r : Fin n) (q : Fin d) :
    concatenate (⟨3, ![4, n, d]⟩ : Shape) 0 [⟨(⟨3, ![1, n, d]⟩ : Shape), broadcastInDim (⟨3, ![1, n, d]⟩ : Shape) ![1, 2] hb z0⟩, ⟨(⟨3, ![1, n, d]⟩ : Shape), broadcastInDim (⟨3, ![1, n, d]⟩ : Shape) ![1, 2] hb z1⟩,
      ⟨(⟨3, ![1, n, d]⟩ : Shape), broadcastInDim (⟨3, ![1, n, d]⟩ : Shape) ![1, 2] hb z2⟩, ⟨(⟨3, ![1, n, d]⟩ : Shape), broadcastInDim (⟨3, ![1, n, d]⟩ : Shape) ![1, 2] hb z3⟩] hcat (ix3 0 r q) = z0 (ix2 r q) :=
  (concatenate_apply_piece (t := (⟨3, ![4, n, d]⟩ : Shape)) (0 : Fin 3)
    [⟨(⟨3, ![1, n, d]⟩ : Shape), broadcastInDim (⟨3, ![1, n, d]⟩ : Shape) ![1, 2] hb z0⟩, ⟨(⟨3, ![1, n, d]⟩ : Shape), broadcastInDim (⟨3, ![1, n, d]⟩ : Shape) ![1, 2] hb z1⟩,
      ⟨(⟨3, ![1, n, d]⟩ : Shape), broadcastInDim (⟨3, ![1, n, d]⟩ : Shape) ![1, 2] hb z2⟩, ⟨(⟨3, ![1, n, d]⟩ : Shape), broadcastInDim (⟨3, ![1, n, d]⟩ : Shape) ![1, 2] hb z3⟩]
    hcat (ix3 0 r q) 0 (by show (0 : Nat) < 4; omega) (⟨3, ![1, n, d]⟩ : Shape) (broadcastInDim (⟨3, ![1, n, d]⟩ : Shape) ![1, 2] hb z0) rfl rfl 0 rfl
    (ix3 0 r q) (fun b hb' => by
      match b with
      | ⟨0, _⟩ => exact absurd rfl hb'
      | ⟨1, _⟩ => rfl
      | ⟨2, _⟩ => rfl) rfl).trans (lift_apply hb z0 r q)

/-- The stack at layer 1: the second matrix. -/
theorem stack_apply_1 (hb : (⟨2, ![n, d]⟩ : Shape).BroadcastsInDim (⟨3, ![1, n, d]⟩ : Shape) (![1, 2] : Fin 2 → Fin 3))
    (hcat : Shape.Concatenates [(⟨3, ![1, n, d]⟩ : Shape), (⟨3, ![1, n, d]⟩ : Shape), (⟨3, ![1, n, d]⟩ : Shape), (⟨3, ![1, n, d]⟩ : Shape)] (⟨3, ![4, n, d]⟩ : Shape) 0)
    (z0 z1 z2 z3 : (⟨2, ![n, d]⟩ : Shape).Idx → α) (r : Fin n) (q : Fin d) :
    concatenate (⟨3, ![4, n, d]⟩ : Shape) 0 [⟨(⟨3, ![1, n, d]⟩ : Shape), broadcastInDim (⟨3, ![1, n, d]⟩ : Shape) ![1, 2] hb z0⟩, ⟨(⟨3, ![1, n, d]⟩ : Shape), broadcastInDim (⟨3, ![1, n, d]⟩ : Shape) ![1, 2] hb z1⟩,
      ⟨(⟨3, ![1, n, d]⟩ : Shape), broadcastInDim (⟨3, ![1, n, d]⟩ : Shape) ![1, 2] hb z2⟩, ⟨(⟨3, ![1, n, d]⟩ : Shape), broadcastInDim (⟨3, ![1, n, d]⟩ : Shape) ![1, 2] hb z3⟩] hcat (ix3 1 r q) = z1 (ix2 r q) :=
  (concatenate_apply_piece (t := (⟨3, ![4, n, d]⟩ : Shape)) (0 : Fin 3)
    [⟨(⟨3, ![1, n, d]⟩ : Shape), broadcastInDim (⟨3, ![1, n, d]⟩ : Shape) ![1, 2] hb z0⟩, ⟨(⟨3, ![1, n, d]⟩ : Shape), broadcastInDim (⟨3, ![1, n, d]⟩ : Shape) ![1, 2] hb z1⟩,
      ⟨(⟨3, ![1, n, d]⟩ : Shape), broadcastInDim (⟨3, ![1, n, d]⟩ : Shape) ![1, 2] hb z2⟩, ⟨(⟨3, ![1, n, d]⟩ : Shape), broadcastInDim (⟨3, ![1, n, d]⟩ : Shape) ![1, 2] hb z3⟩]
    hcat (ix3 1 r q) 1 (by show (1 : Nat) < 4; omega) (⟨3, ![1, n, d]⟩ : Shape) (broadcastInDim (⟨3, ![1, n, d]⟩ : Shape) ![1, 2] hb z1) rfl rfl 1 rfl
    (ix3 0 r q) (fun b hb' => by
      match b with
      | ⟨0, _⟩ => exact absurd rfl hb'
      | ⟨1, _⟩ => rfl
      | ⟨2, _⟩ => rfl) rfl).trans (lift_apply hb z1 r q)

/-- The stack at layer 2: the third matrix. -/
theorem stack_apply_2 (hb : (⟨2, ![n, d]⟩ : Shape).BroadcastsInDim (⟨3, ![1, n, d]⟩ : Shape) (![1, 2] : Fin 2 → Fin 3))
    (hcat : Shape.Concatenates [(⟨3, ![1, n, d]⟩ : Shape), (⟨3, ![1, n, d]⟩ : Shape), (⟨3, ![1, n, d]⟩ : Shape), (⟨3, ![1, n, d]⟩ : Shape)] (⟨3, ![4, n, d]⟩ : Shape) 0)
    (z0 z1 z2 z3 : (⟨2, ![n, d]⟩ : Shape).Idx → α) (r : Fin n) (q : Fin d) :
    concatenate (⟨3, ![4, n, d]⟩ : Shape) 0 [⟨(⟨3, ![1, n, d]⟩ : Shape), broadcastInDim (⟨3, ![1, n, d]⟩ : Shape) ![1, 2] hb z0⟩, ⟨(⟨3, ![1, n, d]⟩ : Shape), broadcastInDim (⟨3, ![1, n, d]⟩ : Shape) ![1, 2] hb z1⟩,
      ⟨(⟨3, ![1, n, d]⟩ : Shape), broadcastInDim (⟨3, ![1, n, d]⟩ : Shape) ![1, 2] hb z2⟩, ⟨(⟨3, ![1, n, d]⟩ : Shape), broadcastInDim (⟨3, ![1, n, d]⟩ : Shape) ![1, 2] hb z3⟩] hcat (ix3 2 r q) = z2 (ix2 r q) :=
  (concatenate_apply_piece (t := (⟨3, ![4, n, d]⟩ : Shape)) (0 : Fin 3)
    [⟨(⟨3, ![1, n, d]⟩ : Shape), broadcastInDim (⟨3, ![1, n, d]⟩ : Shape) ![1, 2] hb z0⟩, ⟨(⟨3, ![1, n, d]⟩ : Shape), broadcastInDim (⟨3, ![1, n, d]⟩ : Shape) ![1, 2] hb z1⟩,
      ⟨(⟨3, ![1, n, d]⟩ : Shape), broadcastInDim (⟨3, ![1, n, d]⟩ : Shape) ![1, 2] hb z2⟩, ⟨(⟨3, ![1, n, d]⟩ : Shape), broadcastInDim (⟨3, ![1, n, d]⟩ : Shape) ![1, 2] hb z3⟩]
    hcat (ix3 2 r q) 2 (by show (2 : Nat) < 4; omega) (⟨3, ![1, n, d]⟩ : Shape) (broadcastInDim (⟨3, ![1, n, d]⟩ : Shape) ![1, 2] hb z2) rfl rfl 2 rfl
    (ix3 0 r q) (fun b hb' => by
      match b with
      | ⟨0, _⟩ => exact absurd rfl hb'
      | ⟨1, _⟩ => rfl
      | ⟨2, _⟩ => rfl) rfl).trans (lift_apply hb z2 r q)

/-- The stack at layer 3: the fourth matrix. -/
theorem stack_apply_3 (hb : (⟨2, ![n, d]⟩ : Shape).BroadcastsInDim (⟨3, ![1, n, d]⟩ : Shape) (![1, 2] : Fin 2 → Fin 3))
    (hcat : Shape.Concatenates [(⟨3, ![1, n, d]⟩ : Shape), (⟨3, ![1, n, d]⟩ : Shape), (⟨3, ![1, n, d]⟩ : Shape), (⟨3, ![1, n, d]⟩ : Shape)] (⟨3, ![4, n, d]⟩ : Shape) 0)
    (z0 z1 z2 z3 : (⟨2, ![n, d]⟩ : Shape).Idx → α) (r : Fin n) (q : Fin d) :
    concatenate (⟨3, ![4, n, d]⟩ : Shape) 0 [⟨(⟨3, ![1, n, d]⟩ : Shape), broadcastInDim (⟨3, ![1, n, d]⟩ : Shape) ![1, 2] hb z0⟩, ⟨(⟨3, ![1, n, d]⟩ : Shape), broadcastInDim (⟨3, ![1, n, d]⟩ : Shape) ![1, 2] hb z1⟩,
      ⟨(⟨3, ![1, n, d]⟩ : Shape), broadcastInDim (⟨3, ![1, n, d]⟩ : Shape) ![1, 2] hb z2⟩, ⟨(⟨3, ![1, n, d]⟩ : Shape), broadcastInDim (⟨3, ![1, n, d]⟩ : Shape) ![1, 2] hb z3⟩] hcat (ix3 3 r q) = z3 (ix2 r q) :=
  (concatenate_apply_piece (t := (⟨3, ![4, n, d]⟩ : Shape)) (0 : Fin 3)
    [⟨(⟨3, ![1, n, d]⟩ : Shape), broadcastInDim (⟨3, ![1, n, d]⟩ : Shape) ![1, 2] hb z0⟩, ⟨(⟨3, ![1, n, d]⟩ : Shape), broadcastInDim (⟨3, ![1, n, d]⟩ : Shape) ![1, 2] hb z1⟩,
      ⟨(⟨3, ![1, n, d]⟩ : Shape), broadcastInDim (⟨3, ![1, n, d]⟩ : Shape) ![1, 2] hb z2⟩, ⟨(⟨3, ![1, n, d]⟩ : Shape), broadcastInDim (⟨3, ![1, n, d]⟩ : Shape) ![1, 2] hb z3⟩]
    hcat (ix3 3 r q) 3 (by show (3 : Nat) < 4; omega) (⟨3, ![1, n, d]⟩ : Shape) (broadcastInDim (⟨3, ![1, n, d]⟩ : Shape) ![1, 2] hb z3) rfl rfl 3 rfl
    (ix3 0 r q) (fun b hb' => by
      match b with
      | ⟨0, _⟩ => exact absurd rfl hb'
      | ⟨1, _⟩ => rfl
      | ⟨2, _⟩ => rfl) rfl).trans (lift_apply hb z3 r q)

/-- The stack at any layer `h`: the `h`-th of the four matrices. -/
theorem stack_apply (hb : (⟨2, ![n, d]⟩ : Shape).BroadcastsInDim (⟨3, ![1, n, d]⟩ : Shape) (![1, 2] : Fin 2 → Fin 3))
    (hcat : Shape.Concatenates [(⟨3, ![1, n, d]⟩ : Shape), (⟨3, ![1, n, d]⟩ : Shape), (⟨3, ![1, n, d]⟩ : Shape), (⟨3, ![1, n, d]⟩ : Shape)] (⟨3, ![4, n, d]⟩ : Shape) 0)
    (z0 z1 z2 z3 : (⟨2, ![n, d]⟩ : Shape).Idx → α) (h : Fin 4) (r : Fin n) (q : Fin d) :
    concatenate (⟨3, ![4, n, d]⟩ : Shape) 0 [⟨(⟨3, ![1, n, d]⟩ : Shape), broadcastInDim (⟨3, ![1, n, d]⟩ : Shape) ![1, 2] hb z0⟩, ⟨(⟨3, ![1, n, d]⟩ : Shape), broadcastInDim (⟨3, ![1, n, d]⟩ : Shape) ![1, 2] hb z1⟩,
      ⟨(⟨3, ![1, n, d]⟩ : Shape), broadcastInDim (⟨3, ![1, n, d]⟩ : Shape) ![1, 2] hb z2⟩, ⟨(⟨3, ![1, n, d]⟩ : Shape), broadcastInDim (⟨3, ![1, n, d]⟩ : Shape) ![1, 2] hb z3⟩] hcat (ix3 h r q)
      = (match h with | ⟨0, _⟩ => z0 | ⟨1, _⟩ => z1 | ⟨2, _⟩ => z2 | ⟨3, _⟩ => z3) (ix2 r q) := by
  match h with
  | ⟨0, _⟩ => exact stack_apply_0 hb hcat z0 z1 z2 z3 r q
  | ⟨1, _⟩ => exact stack_apply_1 hb hcat z0 z1 z2 z3 r q
  | ⟨2, _⟩ => exact stack_apply_2 hb hcat z0 z1 z2 z3 r q
  | ⟨3, _⟩ => exact stack_apply_3 hb hcat z0 z1 z2 z3 r q

end Cert.StackLayers

end
-- ==== Proof.Bridge.lean ====
/-
  The kernel program's four layers are the reference's, given arguments that agree.

  Layer 0 on both sides is tanh(x·Wᵀ + b) of the same arguments. Layer h + 1 on both sides is the fused update of the
  two aggregations of layer h — the aggregation is spelled operation for operation alike in the two programs — with
  slab h of the stacked weights and biases: the kernel program slices the fusing weight into its two halves and lays the
  biases out as rows, the reference concatenates the two projections and contracts over all 512 lanes; both are the
  one function of the spec. So the layers agree one after the other, and the stacked results are equal.
-/
import proofs.«128425_j26603027432197_1_alg».proof.Proof.Assemble
import proofs.«128425_j26603027432197_1_alg».proof.Proof.KI.Layer0
import proofs.«128425_j26603027432197_1_alg».proof.Proof.KI.Layer1
import proofs.«128425_j26603027432197_1_alg».proof.Proof.KI.Layer2
import proofs.«128425_j26603027432197_1_alg».proof.Proof.KI.Layer3
import proofs.«128425_j26603027432197_1_alg».proof.Proof.RefValue
import proofs.«128425_j26603027432197_1_alg».proof.Proof.LibStackLayers

set_option maxRecDepth 16384

noncomputable section

namespace Cert.Bridge

open Idealize.ShloMosaic Idealize.ShloMosaic.TcCoe Idealize.SL.Sem Idealize.ShloMosaic.ValueIdx
open Cert.KernelIdeal Cert.KernelIdeal.Fr

theorem ag0 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD} (h : Cert.Assemble.Agree m m' c) :
    StableHlo.launchContents m' c (Proc.devRef .tc Cert.ReferenceIdeal.main_arg0) = m ((c : Thread Cert.KernelIdeal.nD Cert.KernelIdeal.τ).loc Cert.KernelIdeal.main_arg0) := h.1
theorem ag1 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD} (h : Cert.Assemble.Agree m m' c) :
    StableHlo.launchContents m' c (Proc.devRef .tc Cert.ReferenceIdeal.main_arg1) = m ((c : Thread Cert.KernelIdeal.nD Cert.KernelIdeal.τ).loc Cert.KernelIdeal.main_arg1) := h.2.1
theorem ag2 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD} (h : Cert.Assemble.Agree m m' c) :
    StableHlo.launchContents m' c (Proc.devRef .tc Cert.ReferenceIdeal.main_arg2) = m ((c : Thread Cert.KernelIdeal.nD Cert.KernelIdeal.τ).loc Cert.KernelIdeal.main_arg2) := h.2.2.1
theorem ag3 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD} (h : Cert.Assemble.Agree m m' c) :
    StableHlo.launchContents m' c (Proc.devRef .tc Cert.ReferenceIdeal.main_arg3) = m ((c : Thread Cert.KernelIdeal.nD Cert.KernelIdeal.τ).loc Cert.KernelIdeal.main_arg3) := h.2.2.2.1
theorem ag4 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD} (h : Cert.Assemble.Agree m m' c) :
    StableHlo.launchContents m' c (Proc.devRef .tc Cert.ReferenceIdeal.main_arg4) = m ((c : Thread Cert.KernelIdeal.nD Cert.KernelIdeal.τ).loc Cert.KernelIdeal.main_arg4) := h.2.2.2.2.1
theorem ag5 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD} (h : Cert.Assemble.Agree m m' c) :
    StableHlo.launchContents m' c (Proc.devRef .tc Cert.ReferenceIdeal.main_arg5) = m ((c : Thread Cert.KernelIdeal.nD Cert.KernelIdeal.τ).loc Cert.KernelIdeal.main_arg5) := h.2.2.2.2.2.1
theorem ag6 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD} (h : Cert.Assemble.Agree m m' c) :
    StableHlo.launchContents m' c (Proc.devRef .tc Cert.ReferenceIdeal.main_arg6) = m ((c : Thread Cert.KernelIdeal.nD Cert.KernelIdeal.τ).loc Cert.KernelIdeal.main_arg6) := h.2.2.2.2.2.2.1
theorem ag7 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD} (h : Cert.Assemble.Agree m m' c) :
    StableHlo.launchContents m' c (Proc.devRef .tc Cert.ReferenceIdeal.main_arg7) = m ((c : Thread Cert.KernelIdeal.nD Cert.KernelIdeal.τ).loc Cert.KernelIdeal.main_arg7) := h.2.2.2.2.2.2.2.1
theorem ag8 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD} (h : Cert.Assemble.Agree m m' c) :
    StableHlo.launchContents m' c (Proc.devRef .tc Cert.ReferenceIdeal.main_arg8) = m ((c : Thread Cert.KernelIdeal.nD Cert.KernelIdeal.τ).loc Cert.KernelIdeal.main_arg8) := h.2.2.2.2.2.2.2.2.1
theorem ag9 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD} (h : Cert.Assemble.Agree m m' c) :
    StableHlo.launchContents m' c (Proc.devRef .tc Cert.ReferenceIdeal.main_arg9) = m ((c : Thread Cert.KernelIdeal.nD Cert.KernelIdeal.τ).loc Cert.KernelIdeal.main_arg9) := h.2.2.2.2.2.2.2.2.2.1
theorem ag10 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD} (h : Cert.Assemble.Agree m m' c) :
    StableHlo.launchContents m' c (Proc.devRef .tc Cert.ReferenceIdeal.main_arg10) = m ((c : Thread Cert.KernelIdeal.nD Cert.KernelIdeal.τ).loc Cert.KernelIdeal.main_arg10) := h.2.2.2.2.2.2.2.2.2.2.1
theorem ag11 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD} (h : Cert.Assemble.Agree m m' c) :
    StableHlo.launchContents m' c (Proc.devRef .tc Cert.ReferenceIdeal.main_arg11) = m ((c : Thread Cert.KernelIdeal.nD Cert.KernelIdeal.τ).loc Cert.KernelIdeal.main_arg11) := h.2.2.2.2.2.2.2.2.2.2.2.1
theorem ag12 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD} (h : Cert.Assemble.Agree m m' c) :
    StableHlo.launchContents m' c (Proc.devRef .tc Cert.ReferenceIdeal.main_arg12) = m ((c : Thread Cert.KernelIdeal.nD Cert.KernelIdeal.τ).loc Cert.KernelIdeal.main_arg12) := h.2.2.2.2.2.2.2.2.2.2.2.2

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The aggregation is one function in the two programs' spellings. -/
theorem spmm_eq (idx : (⟨Cert.ReferenceIdeal.S2x300000, .i32⟩ : BufTy).Contents (Elt Ideal))
    (val : (⟨Cert.ReferenceIdeal.S300000, .f32⟩ : BufTy).Contents (Elt Ideal))
    (z : (⟨Cert.ReferenceIdeal.S50000x256, .f32⟩ : BufTy).Contents (Elt Ideal)) :
    spmm (F := Ideal) idx val z = Cert.RefValue.spmmR (F := Ideal) idx val z := rfl

/-- Layer 0. -/
theorem e0 (h : Cert.Assemble.Agree m m' c) :
    W2 m ρ c (Proc.devRef .tc main_v1)
      = Cert.ReferenceIdeal.Value.res_main_v5 (F := Ideal) (StableHlo.launchContents m' c) := by
  funext i
  obtain ⟨r, q, rfl⟩ : ∃ (r : Fin 50000) (q : Fin 256), i = ix2 r q := ⟨i 0, i 1, eq_ix2 i⟩
  rw [layer0_apply, Cert.RefValue.z0_apply, ag0 h, ag5 h, ag6 h]

/-- Layer 1. -/
theorem e1 (h : Cert.Assemble.Agree m m' c) :
    W4 m ρ c (Proc.devRef .tc main_v53)
      = Cert.ReferenceIdeal.Value.res_main_v68 (F := Ideal) (StableHlo.launchContents m' c) := by
  funext i
  obtain ⟨r, q, rfl⟩ : ∃ (r : Fin 50000) (q : Fin 256), i = ix2 r q := ⟨i 0, i 1, eq_ix2 i⟩
  rw [layer1_apply, Cert.RefValue.z1_apply, ag1 h, ag2 h, ag3 h, ag4 h, ag7 h, ag8 h, ag9 h, ag10 h, ag11 h, ag12 h,
    ← e0 m ρ m' c h, ← spmm_eq, ← spmm_eq]
  all_goals rfl

/-- Layer 2. -/
theorem e2 (h : Cert.Assemble.Agree m m' c) :
    W6 m ρ c (Proc.devRef .tc main_v105)
      = Cert.ReferenceIdeal.Value.res_main_v131 (F := Ideal) (StableHlo.launchContents m' c) := by
  funext i
  obtain ⟨r, q, rfl⟩ : ∃ (r : Fin 50000) (q : Fin 256), i = ix2 r q := ⟨i 0, i 1, eq_ix2 i⟩
  rw [layer2_apply, Cert.RefValue.z2_apply, ag1 h, ag2 h, ag3 h, ag4 h, ag7 h, ag8 h, ag9 h, ag10 h, ag11 h, ag12 h,
    ← e1 m ρ m' c h, ← spmm_eq, ← spmm_eq]
  all_goals rfl

/-- Layer 3. -/
theorem e3 (h : Cert.Assemble.Agree m m' c) :
    W8 m ρ c (Proc.devRef .tc main_v157)
      = Cert.RefValue.z3 (F := Ideal) (StableHlo.launchContents m' c) := by
  funext i
  obtain ⟨r, q, rfl⟩ : ∃ (r : Fin 50000) (q : Fin 256), i = ix2 r q := ⟨i 0, i 1, eq_ix2 i⟩
  rw [layer3_apply, Cert.RefValue.z3_apply, ag1 h, ag2 h, ag3 h, ag4 h, ag7 h, ag8 h, ag9 h, ag10 h, ag11 h, ag12 h,
    ← e2 m ρ m' c h, ← spmm_eq, ← spmm_eq]
  all_goals rfl

/-- The stacked result: the kernel program's last buffer contents are the reference's composed term. -/
theorem result_eq (h : Cert.Assemble.Agree m m' c) :
    W9 m ρ c (Proc.devRef .tc main_v162)
      = Cert.ReferenceIdeal.Value.res_main_v199 (F := Ideal) (StableHlo.launchContents m' c) := by
  funext i
  obtain ⟨l, r, q, rfl⟩ : ∃ (l : Fin 4) (r : Fin 50000) (q : Fin 256), i = ix3 l r q := ⟨i 0, i 1, i 2, eq_ix3 i⟩
  rw [Cert.RefValue.out_eq]
  match l with
  | 0 =>
    refine (host4_out0 (W8 m ρ c) r q).trans ?_
    rw [Cert.StackLayers.stack_apply_0]
    exact congrFun ((W8_main_v1 m ρ c).trans ((W2_arr m ρ c 3).symm.trans (e0 m ρ m' c h))) (ix2 r q)
  | 1 =>
    refine (host4_out1 (W8 m ρ c) r q).trans ?_
    rw [Cert.StackLayers.stack_apply_1]
    exact congrFun ((W8_main_v53 m ρ c).trans ((W4_arr m ρ c 9).symm.trans (e1 m ρ m' c h))) (ix2 r q)
  | 2 =>
    refine (host4_out2 (W8 m ρ c) r q).trans ?_
    rw [Cert.StackLayers.stack_apply_2]
    exact congrFun ((W8_main_v105 m ρ c).trans ((W6_arr m ρ c 9).symm.trans (e2 m ρ m' c h))) (ix2 r q)
  | 3 =>
    refine (host4_out3 (W8 m ρ c) r q).trans ?_
    rw [Cert.StackLayers.stack_apply_3]
    exact congrFun ((W8_main_v157 m ρ c).trans ((W8_arr m ρ c 9).symm.trans (e3 m ρ m' c h))) (ix2 r q)

end Cert.Bridge

end
-- ==== Proof.lean ====
/-
  The certificate of a signed multi-hop graph propagation: four layers z₀ … z₃ of 50000 nodes × 256 features,

      z₀ = tanh(x·Wᵀ + b),   z_{h+1} = tanh((A⁺z_h·Wp_hᵀ + bp_h)·Wfp_hᵀ + (A⁻z_h·Wn_hᵀ + bn_h)·Wfn_hᵀ + bf_h),

  with A⁺, A⁻ two sparse matrices in coordinate form and [Wfp_h | Wfn_h] the two 256-lane halves of one 256×512 fusing
  weight. The kernel program computes every dense step in row blocks of 5000 nodes (one region per layer) and the
  sparse aggregations on the host between the regions; the reference computes the whole on the host, concatenating
  the two projections and contracting them with the fusing weight over all 512 lanes.

  * Frames: each kernel program is its list of host stretches and regions, every region's body obligation discharged
    per grid point, every argument array read back unchanged through the fold of buffer contents;
    the reference's frame is its run with the result dropped.
  * Nothing was rewritten between the kernel program and its copy read at the ideal values.
  * At the ideal values (extended reals) each region's blocks tile its output array, so each layer is one function of the
    previous layer and the arguments; the contraction over the concatenation is the sum of the two halves' contractions
    (a finite sum split in two — no product is distributed over a sum, so no finiteness of the inputs is used); the
    aggregations are spelled alike in the two programs. Hence the layers agree one after the other and the stacked
    results are equal.
-/
import proofs.«128425_j26603027432197_1_alg».proof.Defs
import proofs.«128425_j26603027432197_1_alg».proof.Proof.Assemble
import proofs.«128425_j26603027432197_1_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Assemble.frame_k, Cert.Assemble.frame_ki, Cert.Assemble.frame_ri, Cert.Assemble.preserves,
    Cert.Assemble.algebraic_of Cert.Bridge.result_eq⟩

end Cert.Proof

end
